-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S8192x1024 : Shape := ⟨2, ![8192, 1024]⟩
abbrev S8192x4 : Shape := ⟨2, ![8192, 4]⟩
abbrev S4x1024 : Shape := ⟨2, ![4, 1024]⟩
abbrev S1024 : Shape := ⟨1, ![1024]⟩
abbrev S1024x1024 : Shape := ⟨2, ![1024, 1024]⟩
abbrev S4x512 : Shape := ⟨2, ![4, 512]⟩
abbrev S512 : Shape := ⟨1, ![512]⟩
abbrev S512x512 : Shape := ⟨2, ![512, 512]⟩
abbrev S5124x2048 : Shape := ⟨2, ![5124, 2048]⟩
abbrev S2048 : Shape := ⟨1, ![2048]⟩
abbrev S7172x1024 : Shape := ⟨2, ![7172, 1024]⟩
abbrev S6148x1024 : Shape := ⟨2, ![6148, 1024]⟩
abbrev S6148x512 : Shape := ⟨2, ![6148, 512]⟩
abbrev S512x1024 : Shape := ⟨2, ![512, 1024]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S8192x4 : S_.BroadcastsInDim S8192x4 (![] : Fin 0 → Fin S8192x4.rank)
  reducesTo_S8192x4_S_d0_1 : S8192x4.ReducesTo [0, 1] S_
  bcast_S_S4x1024 : S_.BroadcastsInDim S4x1024 (![] : Fin 0 → Fin S4x1024.rank)
  reducesTo_S4x1024_S_d0_1 : S4x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S4x512 : S_.BroadcastsInDim S4x512 (![] : Fin 0 → Fin S4x512.rank)
  reducesTo_S4x512_S_d0_1 : S4x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S5124x2048 : S_.BroadcastsInDim S5124x2048 (![] : Fin 0 → Fin S5124x2048.rank)
  reducesTo_S5124x2048_S_d0_1 : S5124x2048.ReducesTo [0, 1] S_
  bcast_S_S2048 : S_.BroadcastsInDim S2048 (![] : Fin 0 → Fin S2048.rank)
  reducesTo_S2048_S_d0 : S2048.ReducesTo [0] S_
  bcast_S_S7172x1024 : S_.BroadcastsInDim S7172x1024 (![] : Fin 0 → Fin S7172x1024.rank)
  reducesTo_S7172x1024_S_d0_1 : S7172x1024.ReducesTo [0, 1] S_
  bcast_S_S6148x1024 : S_.BroadcastsInDim S6148x1024 (![] : Fin 0 → Fin S6148x1024.rank)
  reducesTo_S6148x1024_S_d0_1 : S6148x1024.ReducesTo [0, 1] S_
  bcast_S_S6148x512 : S_.BroadcastsInDim S6148x512 (![] : Fin 0 → Fin S6148x512.rank)
  reducesTo_S6148x512_S_d0_1 : S6148x512.ReducesTo [0, 1] S_
  bcast_S_S512x1024 : S_.BroadcastsInDim S512x1024 (![] : Fin 0 → Fin S512x1024.rank)
  reducesTo_S512x1024_S_d0_1 : S512x1024.ReducesTo [0, 1] S_

variable [Facts]

def fn_part8 {F : FTy → Type} [FloatOps F] (main_arg28 : FVec F S1024 .f32) (main_v133 : IVec S_ 1) (main_v136 : IVec S512x1024 1) : IVec S_ 1 :=
  let main_c_53 : IVec S_ 1 := constantI S_ 1 1#1
  let main_v137 : IVec S_ 1 := (fun x v => Host.reduce IntOp.andi x v reducesTo_S512x1024_S_d0_1 h_S_) main_v136 main_c_53
  let main_v138 : IVec S_ 1 := andi main_v133 main_v137
  let main_v139 : FVec F S1024 .f32 := Host.absf main_arg28
  let main_cst_54 : FVec F S_ .f32 := constant S_ .f32 0x7F800000#32
  let main_v140 : FVec F S1024 .f32 := broadcastInDim S1024 ![] bcast_S_S1024 main_cst_54
  let main_v141 : IVec S1024 1 := cmpf .olt main_v139 main_v140
  let main_c_55 : IVec S_ 1 := constantI S_ 1 1#1
  let main_v142 : IVec S_ 1 := (fun x v => Host.reduce IntOp.andi x v reducesTo_S1024_S_d0 h_S_) main_v141 main_c_55
  let main_v143 : IVec S_ 1 := andi main_v138 main_v142
  main_v143

def fn_part7 {F : FTy → Type} [FloatOps F] (main_arg25 : FVec F S6148x512 .f32) (main_arg26 : FVec F S512 .f32) (main_arg27 : FVec F S512x1024 .f32) (main_arg28 : FVec F S1024 .f32) (main_v118 : IVec S_ 1) (main_v119 : FVec F S1024 .f32) : IVec S_ 1 :=
  let main_cst_46 : FVec F S_ .f32 := constant S_ .f32 0x7F800000#32
  let main_v120 : FVec F S1024 .f32 := broadcastInDim S1024 ![] bcast_S_S1024 main_cst_46
  let main_v121 : IVec S1024 1 := cmpf .olt main_v119 main_v120
  let main_c_47 : IVec S_ 1 := constantI S_ 1 1#1
  let main_v122 : IVec S_ 1 := (fun x v => Host.reduce IntOp.andi x v reducesTo_S1024_S_d0 h_S_) main_v121 main_c_47
  let main_v123 : IVec S_ 1 := andi main_v118 main_v122
  let main_v124 : FVec F S6148x512 .f32 := Host.absf main_arg25
  let main_cst_48 : FVec F S_ .f32 := constant S_ .f32 0x7F800000#32
  let main_v125 : FVec F S6148x512 .f32 := broadcastInDim S6148x512 ![] bcast_S_S6148x512 main_cst_48
  let main_v126 : IVec S6148x512 1 := cmpf .olt main_v124 main_v125
  let main_c_49 : IVec S_ 1 := constantI S_ 1 1#1
  let main_v127 : IVec S_ 1 := (fun x v => Host.reduce IntOp.andi x v reducesTo_S6148x512_S_d0_1 h_S_) main_v126 main_c_49
  let main_v128 : IVec S_ 1 := andi main_v123 main_v127
  let main_v129 : FVec F S512 .f32 := Host.absf main_arg26
  let main_cst_50 : FVec F S_ .f32 := constant S_ .f32 0x7F800000#32
  let main_v130 : FVec F S512 .f32 := broadcastInDim S512 ![] bcast_S_S512 main_cst_50
  let main_v131 : IVec S512 1 := cmpf .olt main_v129 main_v130
  let main_c_51 : IVec S_ 1 := constantI S_ 1 1#1
  let main_v132 : IVec S_ 1 := (fun x v => Host.reduce IntOp.andi x v reducesTo_S512_S_d0 h_S_) main_v131 main_c_51
  let main_v133 : IVec S_ 1 := andi main_v128 main_v132
  let main_v134 : FVec F S512x1024 .f32 := Host.absf main_arg27
  let main_cst_52 : FVec F S_ .f32 := constant S_ .f32 0x7F800000#32
  let main_v135 : FVec F S512x1024 .f32 := broadcastInDim S512x1024 ![] bcast_S_S512x1024 main_cst_52
  let main_v136 : IVec S512x1024 1 := cmpf .olt main_v134 main_v135
  fn_part8 (F := F) main_arg28 main_v133 main_v136

def fn_part6 {F : FTy → Type} [FloatOps F] (main_arg21 : FVec F S7172x1024 .f32) (main_arg22 : FVec F S1024 .f32) (main_arg23 : FVec F S6148x1024 .f32) (main_arg24 : FVec F S1024 .f32) (main_arg25 : FVec F S6148x512 .f32) (main_arg26 : FVec F S512 .f32) (main_arg27 : FVec F S512x1024 .f32) (main_arg28 : FVec F S1024 .f32) (main_v98 : IVec S_ 1) (main_v101 : IVec S2048 1) (main_c_39 : IVec S_ 1) : IVec S_ 1 :=
  let main_v102 : IVec S_ 1 := (fun x v => Host.reduce IntOp.andi x v reducesTo_S2048_S_d0 h_S_) main_v101 main_c_39
  let main_v103 : IVec S_ 1 := andi main_v98 main_v102
  let main_v104 : FVec F S7172x1024 .f32 := Host.absf main_arg21
  let main_cst_40 : FVec F S_ .f32 := constant S_ .f32 0x7F800000#32
  let main_v105 : FVec F S7172x1024 .f32 := broadcastInDim S7172x1024 ![] bcast_S_S7172x1024 main_cst_40
  let main_v106 : IVec S7172x1024 1 := cmpf .olt main_v104 main_v105
  let main_c_41 : IVec S_ 1 := constantI S_ 1 1#1
  let main_v107 : IVec S_ 1 := (fun x v => Host.reduce IntOp.andi x v reducesTo_S7172x1024_S_d0_1 h_S_) main_v106 main_c_41
  let main_v108 : IVec S_ 1 := andi main_v103 main_v107
  let main_v109 : FVec F S1024 .f32 := Host.absf main_arg22
  let main_cst_42 : FVec F S_ .f32 := constant S_ .f32 0x7F800000#32
  let main_v110 : FVec F S1024 .f32 := broadcastInDim S1024 ![] bcast_S_S1024 main_cst_42
  let main_v111 : IVec S1024 1 := cmpf .olt main_v109 main_v110
  let main_c_43 : IVec S_ 1 := constantI S_ 1 1#1
  let main_v112 : IVec S_ 1 := (fun x v => Host.reduce IntOp.andi x v reducesTo_S1024_S_d0 h_S_) main_v111 main_c_43
  let main_v113 : IVec S_ 1 := andi main_v108 main_v112
  let main_v114 : FVec F S6148x1024 .f32 := Host.absf main_arg23
  let main_cst_44 : FVec F S_ .f32 := constant S_ .f32 0x7F800000#32
  let main_v115 : FVec F S6148x1024 .f32 := broadcastInDim S6148x1024 ![] bcast_S_S6148x1024 main_cst_44
  let main_v116 : IVec S6148x1024 1 := cmpf .olt main_v114 main_v115
  let main_c_45 : IVec S_ 1 := constantI S_ 1 1#1
  let main_v117 : IVec S_ 1 := (fun x v => Host.reduce IntOp.andi x v reducesTo_S6148x1024_S_d0_1 h_S_) main_v116 main_c_45
  let main_v118 : IVec S_ 1 := andi main_v113 main_v117
  let main_v119 : FVec F S1024 .f32 := Host.absf main_arg24
  fn_part7 (F := F) main_arg25 main_arg26 main_arg27 main_arg28 main_v118 main_v119

def fn_part5 {F : FTy → Type} [FloatOps F] (main_arg18 : FVec F S1024 .f32) (main_arg19 : FVec F S5124x2048 .f32) (main_arg20 : FVec F S2048 .f32) (main_arg21 : FVec F S7172x1024 .f32) (main_arg22 : FVec F S1024 .f32) (main_arg23 : FVec F S6148x1024 .f32) (main_arg24 : FVec F S1024 .f32) (main_arg25 : FVec F S6148x512 .f32) (main_arg26 : FVec F S512 .f32) (main_arg27 : FVec F S512x1024 .f32) (main_arg28 : FVec F S1024 .f32) (main_v83 : IVec S_ 1) (main_v84 : FVec F S1024x1024 .f32) (main_cst_32 : FVec F S_ .f32) : IVec S_ 1 :=
  let main_v85 : FVec F S1024x1024 .f32 := broadcastInDim S1024x1024 ![] bcast_S_S1024x1024 main_cst_32
  let main_v86 : IVec S1024x1024 1 := cmpf .olt main_v84 main_v85
  let main_c_33 : IVec S_ 1 := constantI S_ 1 1#1
  let main_v87 : IVec S_ 1 := (fun x v => Host.reduce IntOp.andi x v reducesTo_S1024x1024_S_d0_1 h_S_) main_v86 main_c_33
  let main_v88 : IVec S_ 1 := andi main_v83 main_v87
  let main_v89 : FVec F S1024 .f32 := Host.absf main_arg18
  let main_cst_34 : FVec F S_ .f32 := constant S_ .f32 0x7F800000#32
  let main_v90 : FVec F S1024 .f32 := broadcastInDim S1024 ![] bcast_S_S1024 main_cst_34
  let main_v91 : IVec S1024 1 := cmpf .olt main_v89 main_v90
  let main_c_35 : IVec S_ 1 := constantI S_ 1 1#1
  let main_v92 : IVec S_ 1 := (fun x v => Host.reduce IntOp.andi x v reducesTo_S1024_S_d0 h_S_) main_v91 main_c_35
  let main_v93 : IVec S_ 1 := andi main_v88 main_v92
  let main_v94 : FVec F S5124x2048 .f32 := Host.absf main_arg19
  let main_cst_36 : FVec F S_ .f32 := constant S_ .f32 0x7F800000#32
  let main_v95 : FVec F S5124x2048 .f32 := broadcastInDim S5124x2048 ![] bcast_S_S5124x2048 main_cst_36
  let main_v96 : IVec S5124x2048 1 := cmpf .olt main_v94 main_v95
  let main_c_37 : IVec S_ 1 := constantI S_ 1 1#1
  let main_v97 : IVec S_ 1 := (fun x v => Host.reduce IntOp.andi x v reducesTo_S5124x2048_S_d0_1 h_S_) main_v96 main_c_37
  let main_v98 : IVec S_ 1 := andi main_v93 main_v97
  let main_v99 : FVec F S2048 .f32 := Host.absf main_arg20
  let main_cst_38 : FVec F S_ .f32 := constant S_ .f32 0x7F800000#32
  let main_v100 : FVec F S2048 .f32 := broadcastInDim S2048 ![] bcast_S_S2048 main_cst_38
  let main_v101 : IVec S2048 1 := cmpf .olt main_v99 main_v100
  let main_c_39 : IVec S_ 1 := constantI S_ 1 1#1
  fn_part6 (F := F) main_arg21 main_arg22 main_arg23 main_arg24 main_arg25 main_arg26 main_arg27 main_arg28 main_v98 main_v101 main_c_39

def fn_part4 {F : FTy → Type} [FloatOps F] (main_arg14 : FVec F S512 .f32) (main_arg15 : FVec F S4x1024 .f32) (main_arg16 : FVec F S1024 .f32) (main_arg17 : FVec F S1024x1024 .f32) (main_arg18 : FVec F S1024 .f32) (main_arg19 : FVec F S5124x2048 .f32) (main_arg20 : FVec F S2048 .f32) (main_arg21 : FVec F S7172x1024 .f32) (main_arg22 : FVec F S1024 .f32) (main_arg23 : FVec F S6148x1024 .f32) (main_arg24 : FVec F S1024 .f32) (main_arg25 : FVec F S6148x512 .f32) (main_arg26 : FVec F S512 .f32) (main_arg27 : FVec F S512x1024 .f32) (main_arg28 : FVec F S1024 .f32) (main_v63 : IVec S_ 1) (main_v67 : IVec S_ 1) : IVec S_ 1 :=
  let main_v68 : IVec S_ 1 := andi main_v63 main_v67
  let main_v69 : FVec F S512 .f32 := Host.absf main_arg14
  let main_cst_26 : FVec F S_ .f32 := constant S_ .f32 0x7F800000#32
  let main_v70 : FVec F S512 .f32 := broadcastInDim S512 ![] bcast_S_S512 main_cst_26
  let main_v71 : IVec S512 1 := cmpf .olt main_v69 main_v70
  let main_c_27 : IVec S_ 1 := constantI S_ 1 1#1
  let main_v72 : IVec S_ 1 := (fun x v => Host.reduce IntOp.andi x v reducesTo_S512_S_d0 h_S_) main_v71 main_c_27
  let main_v73 : IVec S_ 1 := andi main_v68 main_v72
  let main_v74 : FVec F S4x1024 .f32 := Host.absf main_arg15
  let main_cst_28 : FVec F S_ .f32 := constant S_ .f32 0x7F800000#32
  let main_v75 : FVec F S4x1024 .f32 := broadcastInDim S4x1024 ![] bcast_S_S4x1024 main_cst_28
  let main_v76 : IVec S4x1024 1 := cmpf .olt main_v74 main_v75
  let main_c_29 : IVec S_ 1 := constantI S_ 1 1#1
  let main_v77 : IVec S_ 1 := (fun x v => Host.reduce IntOp.andi x v reducesTo_S4x1024_S_d0_1 h_S_) main_v76 main_c_29
  let main_v78 : IVec S_ 1 := andi main_v73 main_v77
  let main_v79 : FVec F S1024 .f32 := Host.absf main_arg16
  let main_cst_30 : FVec F S_ .f32 := constant S_ .f32 0x7F800000#32
  let main_v80 : FVec F S1024 .f32 := broadcastInDim S1024 ![] bcast_S_S1024 main_cst_30
  let main_v81 : IVec S1024 1 := cmpf .olt main_v79 main_v80
  let main_c_31 : IVec S_ 1 := constantI S_ 1 1#1
  let main_v82 : IVec S_ 1 := (fun x v => Host.reduce IntOp.andi x v reducesTo_S1024_S_d0 h_S_) main_v81 main_c_31
  let main_v83 : IVec S_ 1 := andi main_v78 main_v82
  let main_v84 : FVec F S1024x1024 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_arg27 main_arg28 main_v83 main_v84 main_cst_32

def fn_part3 {F : FTy → Type} [FloatOps F] (main_arg11 : FVec F S4x512 .f32) (main_arg12 : FVec F S512 .f32) (main_arg13 : FVec F S512x512 .f32) (main_arg14 : FVec F S512 .f32) (main_arg15 : FVec F S4x1024 .f32) (main_arg16 : FVec F S1024 .f32) (main_arg17 : FVec F S1024x1024 .f32) (main_arg18 : FVec F S1024 .f32) (main_arg19 : FVec F S5124x2048 .f32) (main_arg20 : FVec F S2048 .f32) (main_arg21 : FVec F S7172x1024 .f32) (main_arg22 : FVec F S1024 .f32) (main_arg23 : FVec F S6148x1024 .f32) (main_arg24 : FVec F S1024 .f32) (main_arg25 : FVec F S6148x512 .f32) (main_arg26 : FVec F S512 .f32) (main_arg27 : FVec F S512x1024 .f32) (main_arg28 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S4x512 .f32 := Host.absf main_arg11
  let main_cst_20 : FVec F S_ .f32 := constant S_ .f32 0x7F800000#32
  let main_v55 : FVec F S4x512 .f32 := broadcastInDim S4x512 ![] bcast_S_S4x512 main_cst_20
  let main_v56 : IVec S4x512 1 := cmpf .olt main_v54 main_v55
  let main_c_21 : IVec S_ 1 := constantI S_ 1 1#1
  let main_v57 : IVec S_ 1 := (fun x v => Host.reduce IntOp.andi x v reducesTo_S4x512_S_d0_1 h_S_) main_v56 main_c_21
  let main_v58 : IVec S_ 1 := andi main_v53 main_v57
  let main_v59 : FVec F S512 .f32 := Host.absf main_arg12
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S512x512 .f32 := Host.absf main_arg13
  let main_cst_24 : FVec F S_ .f32 := constant S_ .f32 0x7F800000#32
  let main_v65 : FVec F S512x512 .f32 := broadcastInDim S512x512 ![] bcast_S_S512x512 main_cst_24
  let main_v66 : IVec S512x512 1 := cmpf .olt main_v64 main_v65
  let main_c_25 : IVec S_ 1 := constantI S_ 1 1#1
  let main_v67 : IVec S_ 1 := (fun x v => Host.reduce IntOp.andi x v reducesTo_S512x512_S_d0_1 h_S_) main_v66 main_c_25
  fn_part4 (F := F) main_arg14 main_arg15 main_arg16 main_arg17 main_arg18 main_arg19 main_arg20 main_arg21 main_arg22 main_arg23 main_arg24 main_arg25 main_arg26 main_arg27 main_arg28 main_v63 main_v67

def fn_part2 {F : FTy → Type} [FloatOps F] (main_arg7 : FVec F S4x1024 .f32) (main_arg8 : FVec F S1024 .f32) (main_arg9 : FVec F S1024x1024 .f32) (main_arg10 : FVec F S1024 .f32) (main_arg11 : FVec F S4x512 .f32) (main_arg12 : FVec F S512 .f32) (main_arg13 : FVec F S512x512 .f32) (main_arg14 : FVec F S512 .f32) (main_arg15 : FVec F S4x1024 .f32) (main_arg16 : FVec F S1024 .f32) (main_arg17 : FVec F S1024x1024 .f32) (main_arg18 : FVec F S1024 .f32) (main_arg19 : FVec F S5124x2048 .f32) (main_arg20 : FVec F S2048 .f32) (main_arg21 : FVec F S7172x1024 .f32) (main_arg22 : FVec F S1024 .f32) (main_arg23 : FVec F S6148x1024 .f32) (main_arg24 : FVec F S1024 .f32) (main_arg25 : FVec F S6148x512 .f32) (main_arg26 : FVec F S512 .f32) (main_arg27 : FVec F S512x1024 .f32) (main_arg28 : FVec F S1024 .f32) (main_v33 : IVec S_ 1) : IVec S_ 1 :=
  let main_v34 : FVec F S4x1024 .f32 := Host.absf main_arg7
  let main_cst_12 : FVec F S_ .f32 := constant S_ .f32 0x7F800000#32
  let main_v35 : FVec F S4x1024 .f32 := broadcastInDim S4x1024 ![] bcast_S_S4x1024 main_cst_12
  let main_v36 : IVec S4x1024 1 := cmpf .olt main_v34 main_v35
  let main_c_13 : IVec S_ 1 := constantI S_ 1 1#1
  let main_v37 : IVec S_ 1 := (fun x v => Host.reduce IntOp.andi x v reducesTo_S4x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_arg15 main_arg16 main_arg17 main_arg18 main_arg19 main_arg20 main_arg21 main_arg22 main_arg23 main_arg24 main_arg25 main_arg26 main_arg27 main_arg28 main_v48 main_v49 main_v50

def fn_part1 {F : FTy → Type} [FloatOps F] (main_arg4 : FVec F S1024 .f32) (main_arg5 : FVec F S1024x1024 .f32) (main_arg6 : FVec F S1024 .f32) (main_arg7 : FVec F S4x1024 .f32) (main_arg8 : FVec F S1024 .f32) (main_arg9 : FVec F S1024x1024 .f32) (main_arg10 : FVec F S1024 .f32) (main_arg11 : FVec F S4x512 .f32) (main_arg12 : FVec F S512 .f32) (main_arg13 : FVec F S512x512 .f32) (main_arg14 : FVec F S512 .f32) (main_arg15 : FVec F S4x1024 .f32) (main_arg16 : FVec F S1024 .f32) (main_arg17 : FVec F S1024x1024 .f32) (main_arg18 : FVec F S1024 .f32) (main_arg19 : FVec F S5124x2048 .f32) (main_arg20 : FVec F S2048 .f32) (main_arg21 : FVec F S7172x1024 .f32) (main_arg22 : FVec F S1024 .f32) (main_arg23 : FVec F S6148x1024 .f32) (main_arg24 : FVec F S1024 .f32) (main_arg25 : FVec F S6148x512 .f32) (main_arg26 : FVec F S512 .f32) (main_arg27 : FVec F S512x1024 .f32) (main_arg28 : FVec F S1024 .f32) (main_v13 : IVec S_ 1) (main_v16 : IVec S4x1024 1) : IVec S_ 1 :=
  let main_c_5 : IVec S_ 1 := constantI S_ 1 1#1
  let main_v17 : IVec S_ 1 := (fun x v => Host.reduce IntOp.andi x v reducesTo_S4x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_v33

def fn {F : FTy → Type} [FloatOps F] (main_arg0 : FVec F S8192x4096 .f32) (main_arg1 : FVec F S8192x1024 .f32) (main_arg2 : FVec F S8192x4 .f32) (main_arg3 : FVec F S4x1024 .f32) (main_arg4 : FVec F S1024 .f32) (main_arg5 : FVec F S1024x1024 .f32) (main_arg6 : FVec F S1024 .f32) (main_arg7 : FVec F S4x1024 .f32) (main_arg8 : FVec F S1024 .f32) (main_arg9 : FVec F S1024x1024 .f32) (main_arg10 : FVec F S1024 .f32) (main_arg11 : FVec F S4x512 .f32) (main_arg12 : FVec F S512 .f32) (main_arg13 : FVec F S512x512 .f32) (main_arg14 : FVec F S512 .f32) (main_arg15 : FVec F S4x1024 .f32) (main_arg16 : FVec F S1024 .f32) (main_arg17 : FVec F S1024x1024 .f32) (main_arg18 : FVec F S1024 .f32) (main_arg19 : FVec F S5124x2048 .f32) (main_arg20 : FVec F S2048 .f32) (main_arg21 : FVec F S7172x1024 .f32) (main_arg22 : FVec F S1024 .f32) (main_arg23 : FVec F S6148x1024 .f32) (main_arg24 : FVec F S1024 .f32) (main_arg25 : FVec F S6148x512 .f32) (main_arg26 : FVec F S512 .f32) (main_arg27 : FVec F S512x1024 .f32) (main_arg28 : FVec F S1024 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x4 .f32 := Host.absf main_arg2
  let main_cst_2 : FVec F S_ .f32 := constant S_ .f32 0x7F800000#32
  let main_v10 : FVec F S8192x4 .f32 := broadcastInDim S8192x4 ![] bcast_S_S8192x4 main_cst_2
  let main_v11 : IVec S8192x4 1 := cmpf .olt main_v9 main_v10
  let main_c_3 : IVec S_ 1 := constantI S_ 1 1#1
  let main_v12 : IVec S_ 1 := (fun x v => Host.reduce IntOp.andi x v reducesTo_S8192x4_S_d0_1 h_S_) main_v11 main_c_3
  let main_v13 : IVec S_ 1 := andi main_v8 main_v12
  let main_v14 : FVec F S4x1024 .f32 := Host.absf main_arg3
  let main_cst_4 : FVec F S_ .f32 := constant S_ .f32 0x7F800000#32
  let main_v15 : FVec F S4x1024 .f32 := broadcastInDim S4x1024 ![] bcast_S_S4x1024 main_cst_4
  let main_v16 : IVec S4x1024 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_v13 main_v16
-- ==== Kernel.lean ====
abbrev S8192x4096 : Shape := ⟨2, ![8192, 4096]⟩
abbrev S8192x1024 : Shape := ⟨2, ![8192, 1024]⟩
abbrev S8192x4 : Shape := ⟨2, ![8192, 4]⟩
abbrev S4x1024 : Shape := ⟨2, ![4, 1024]⟩
abbrev S1024 : Shape := ⟨1, ![1024]⟩
abbrev S1024x1024 : Shape := ⟨2, ![1024, 1024]⟩
abbrev S4x512 : Shape := ⟨2, ![4, 512]⟩
abbrev S512 : Shape := ⟨1, ![512]⟩
abbrev S512x512 : Shape := ⟨2, ![512, 512]⟩
abbrev S5124x2048 : Shape := ⟨2, ![5124, 2048]⟩
abbrev S2048 : Shape := ⟨1, ![2048]⟩
abbrev S7172x1024 : Shape := ⟨2, ![7172, 1024]⟩
abbrev S6148x1024 : Shape := ⟨2, ![6148, 1024]⟩
abbrev S6148x512 : Shape := ⟨2, ![6148, 512]⟩
abbrev S512x1024 : Shape := ⟨2, ![512, 1024]⟩
abbrev S8192x5124 : Shape := ⟨2, ![8192, 5124]⟩
abbrev S1x2048 : Shape := ⟨2, ![1, 2048]⟩
abbrev S8192x2048 : Shape := ⟨2, ![8192, 2048]⟩
abbrev S1024x5124 : Shape := ⟨2, ![1024, 5124]⟩
abbrev S5124x512 : Shape := ⟨2, ![5124, 512]⟩
abbrev S1x512 : Shape := ⟨2, ![1, 512]⟩
abbrev S1024x512 : Shape := ⟨2, ![1024, 512]⟩
abbrev S1x1024 : Shape := ⟨2, ![1, 1024]⟩
abbrev S1024x2048 : Shape := ⟨2, ![1024, 2048]⟩
abbrev S7172x256 : Shape := ⟨2, ![7172, 256]⟩
abbrev S1x256 : Shape := ⟨2, ![1, 256]⟩
abbrev S1024x256 : Shape := ⟨2, ![1024, 256]⟩
abbrev S2048x256 : Shape := ⟨2, ![2048, 256]⟩
abbrev S5124x256 : Shape := ⟨2, ![5124, 256]⟩
abbrev S6148x256 : Shape := ⟨2, ![6148, 256]⟩
abbrev S8192x512 : Shape := ⟨2, ![8192, 512]⟩

abbrev nBuf : Space → Nat
  | .hbm => 46
  | .vmem => 46
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S8192x4, .f32⟩
  | .hbm, ⟨3, _⟩ => ⟨S4x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S4x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S4x512, .f32⟩
  | .hbm, ⟨12, _⟩ => ⟨S512, .f32⟩
  | .hbm, ⟨13, _⟩ => ⟨S512x512, .f32⟩
  | .hbm, ⟨14, _⟩ => ⟨S512, .f32⟩
  | .hbm, ⟨15, _⟩ => ⟨S4x1024, .f32⟩
  | .hbm, ⟨16, _⟩ => ⟨S1024, .f32⟩
  | .hbm, ⟨17, _⟩ => ⟨S1024x1024, .f32⟩
  | .hbm, ⟨18, _⟩ => ⟨S1024, .f32⟩
  | .hbm, ⟨19, _⟩ => ⟨S5124x2048, .f32⟩
  | .hbm, ⟨20, _⟩ => ⟨S2048, .f32⟩
  | .hbm, ⟨21, _⟩ => ⟨S7172x1024, .f32⟩
  | .hbm, ⟨22, _⟩ => ⟨S1024, .f32⟩
  | .hbm, ⟨23, _⟩ => ⟨S6148x1024, .f32⟩
  | .hbm, ⟨24, _⟩ => ⟨S1024, .f32⟩
  | .hbm, ⟨25, _⟩ => ⟨S6148x512, .f32⟩
  | .hbm, ⟨26, _⟩ => ⟨S512, .f32⟩
  | .hbm, ⟨27, _⟩ => ⟨S512x1024, .f32⟩
  | .hbm, ⟨28, _⟩ => ⟨S1024, .f32⟩
  | .hbm, ⟨29, _⟩ => ⟨S8192x5124, .f32⟩
  | .hbm, ⟨30, _⟩ => ⟨S8192x5124, .bf16⟩
  | .hbm, ⟨31, _⟩ => ⟨S5124x2048, .bf16⟩
  | .hbm, ⟨32, _⟩ => ⟨S1x2048, .f32⟩
  | .hbm, ⟨33, _⟩ => ⟨S8192x2048, .bf16⟩
  | .hbm, ⟨34, _⟩ => ⟨S7172x1024, .bf16⟩
  | .hbm, ⟨35, _⟩ => ⟨S1x1024, .f32⟩
  | .hbm, ⟨36, _⟩ => ⟨S8192x1024, .bf16⟩
  | .hbm, ⟨37, _⟩ => ⟨S6148x1024, .bf16⟩
  | .hbm, ⟨38, _⟩ => ⟨S1x1024, .f32⟩
  | .hbm, ⟨39, _⟩ => ⟨S8192x1024, .bf16⟩
  | .hbm, ⟨40, _⟩ => ⟨S6148x512, .bf16⟩
  | .hbm, ⟨41, _⟩ => ⟨S1x512, .f32⟩
  | .hbm, ⟨42, _⟩ => ⟨S8192x512, .bf16⟩
  | .hbm, ⟨43, _⟩ => ⟨S512x1024, .bf16⟩
  | .hbm, ⟨44, _⟩ => ⟨S1x1024, .f32⟩
  | .hbm, ⟨45, _⟩ => ⟨S8192x1024, .f32⟩
  | .local _ .vmem, ⟨0, _⟩ => ⟨S1024x5124, .bf16⟩
  | .local _ .vmem, ⟨1, _⟩ => ⟨S1024x5124, .bf16⟩
  | .local _ .vmem, ⟨2, _⟩ => ⟨S5124x512, .bf16⟩
  | .local _ .vmem, ⟨3, _⟩ => ⟨S5124x512, .bf16⟩
  | .local _ .vmem, ⟨4, _⟩ => ⟨S1x512, .f32⟩
  | .local _ .vmem, ⟨5, _⟩ => ⟨S1x512, .f32⟩
  | .local _ .vmem, ⟨6, _⟩ => ⟨S1024x512, .bf16⟩
  | .local _ .vmem, ⟨7, _⟩ => ⟨S1024x512, .bf16⟩
  | .local _ .vmem, ⟨8, _⟩ => ⟨S1024x2048, .bf16⟩
  | .local _ .vmem, ⟨9, _⟩ => ⟨S1024x2048, .bf16⟩
  | .local _ .vmem, ⟨10, _⟩ => ⟨S1024x5124, .bf16⟩
  | .local _ .vmem, ⟨11, _⟩ => ⟨S1024x5124, .bf16⟩
  | .local _ .vmem, ⟨12, _⟩ => ⟨S7172x256, .bf16⟩
  | .local _ .vmem, ⟨13, _⟩ => ⟨S7172x256, .bf16⟩
  | .local _ .vmem, ⟨14, _⟩ => ⟨S1x256, .f32⟩
  | .local _ .vmem, ⟨15, _⟩ => ⟨S1x256, .f32⟩
  | .local _ .vmem, ⟨16, _⟩ => ⟨S1024x256, .bf16⟩
  | .local _ .vmem, ⟨17, _⟩ => ⟨S1024x256, .bf16⟩
  | .local _ .vmem, ⟨18, _⟩ => ⟨S1024x1024, .bf16⟩
  | .local _ .vmem, ⟨19, _⟩ => ⟨S1024x1024, .bf16⟩
  | .local _ .vmem, ⟨20, _⟩ => ⟨S1024x5124, .bf16⟩
  | .local _ .vmem, ⟨21, _⟩ => ⟨S1024x5124, .bf16⟩
  | .local _ .vmem, ⟨22, _⟩ => ⟨S6148x256, .bf16⟩
  | .local _ .vmem, ⟨23, _⟩ => ⟨S6148x256, .bf16⟩
  | .local _ .vmem, ⟨24, _⟩ => ⟨S1x256, .f32⟩
  | .local _ .vmem, ⟨25, _⟩ => ⟨S1x256, .f32⟩
  | .local _ .vmem, ⟨26, _⟩ => ⟨S1024x256, .bf16⟩
  | .local _ .vmem, ⟨27, _⟩ => ⟨S1024x256, .bf16⟩
  | .local _ .vmem, ⟨28, _⟩ => ⟨S1024x1024, .bf16⟩
  | .local _ .vmem, ⟨29, _⟩ => ⟨S1024x1024, .bf16⟩
  | .local _ .vmem, ⟨30, _⟩ => ⟨S1024x5124, .bf16⟩
  | .local _ .vmem, ⟨31, _⟩ => ⟨S1024x5124, .bf16⟩
  | .local _ .vmem, ⟨32, _⟩ => ⟨S6148x256, .bf16⟩
  | .local _ .vmem, ⟨33, _⟩ => ⟨S6148x256, .bf16⟩
  | .local _ .vmem, ⟨34, _⟩ => ⟨S1x256, .f32⟩
  | .local _ .vmem, ⟨35, _⟩ => ⟨S1x256, .f32⟩
  | .local _ .vmem, ⟨36, _⟩ => ⟨S1024x256, .bf16⟩
  | .local _ .vmem, ⟨37, _⟩ => ⟨S1024x256, .bf16⟩
  | .local _ .vmem, ⟨38, _⟩ => ⟨S1024x512, .bf16⟩
  | .local _ .vmem, ⟨39, _⟩ => ⟨S1024x512, .bf16⟩
  | .local _ .vmem, ⟨40, _⟩ => ⟨S512x512, .bf16⟩
  | .local _ .vmem, ⟨41, _⟩ => ⟨S512x512, .bf16⟩
  | .local _ .vmem, ⟨42, _⟩ => ⟨S1x512, .f32⟩
  | .local _ .vmem, ⟨43, _⟩ => ⟨S1x512, .f32⟩
  | .local _ .vmem, ⟨44, _⟩ => ⟨S1024x512, .f32⟩
  | .local _ .vmem, ⟨45, _⟩ => ⟨S1024x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg4_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg2_1 : Ref sig .tc := ⟨.vmem, 33, rfl⟩
abbrev cc3_stg3_0 : Ref sig .tc := ⟨.vmem, 34, rfl⟩
abbrev cc3_stg3_1 : Ref sig .tc := ⟨.vmem, 35, rfl⟩
abbrev cc3_stg4_0 : Ref sig .tc := ⟨.vmem, 36, rfl⟩
abbrev cc3_stg4_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg1_1 : Ref sig .tc := ⟨.vmem, 41, rfl⟩
abbrev cc4_stg2_0 : Ref sig .tc := ⟨.vmem, 42, rfl⟩
abbrev cc4_stg2_1 : Ref sig .tc := ⟨.vmem, 43, rfl⟩
abbrev cc4_stg3_0 : Ref sig .tc := ⟨.vmem, 44, rfl⟩
abbrev cc4_stg3_1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc2_sem4_0 : DmaSem sig := 26
abbrev cc2_sem4_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem2_1 : DmaSem sig := 33
abbrev cc3_sem3_0 : DmaSem sig := 34
abbrev cc3_sem3_1 : DmaSem sig := 35
abbrev cc3_sem4_0 : DmaSem sig := 36
abbrev cc3_sem4_1 : DmaSem sig := 37
abbrev cc4_sem0_0 : DmaSem sig := 38
abbrev cc4_sem0_1 : DmaSem sig := 39
abbrev cc4_sem1_0 : DmaSem sig := 40
abbrev cc4_sem1_1 : DmaSem sig := 41
abbrev cc4_sem2_0 : DmaSem sig := 42
abbrev cc4_sem2_1 : DmaSem sig := 43
abbrev cc4_sem3_0 : DmaSem sig := 44
abbrev cc4_sem3_1 : DmaSem sig := 45

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x5124 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S5124x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![8, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x5124 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S7172x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev grid2 : Pipeline.Grid := ⟨2, ![8, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x5124 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S6148x256 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S1024x256 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev grid3 : Pipeline.Grid := ⟨2, ![8, 2], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S1024x5124 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S6148x256 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S1x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![false, true]

abbrev stage3_4 : Fin 2 → Memref sig .tc .vmem S1024x256 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev grid4 : Pipeline.Grid := ⟨2, ![8, 2], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S1024x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S512x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true]

abbrev stage4_3 : Fin 2 → Memref sig .tc .vmem S1024x512 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

class Facts₀ : Prop where
  concatenates_S8192x4096_S8192x4_S8192x1024_S8192x5124_d1 : Shape.Concatenates [S8192x4096, S8192x4, S8192x1024] S8192x5124 1
  bitsLt_bf16_f32 : FTy.bits .bf16 < FTy.bits .f32
  shapeCasts_S2048_S1x2048 : S2048.ShapeCasts S1x2048
  inb_S1024x5124_S1024x5124_0_0 : ∀ a, (![0, 0] : Fin 2 → Nat) a + S1024x5124.size a ≤ S1024x5124.size a
  h_S1024x5124 : 0 < S1024x5124.numel
  shapeCasts_S1024x5124_S1024x5124 : S1024x5124.ShapeCasts S1024x5124
  inb_S5124x512_S5124x512_0_0 : ∀ a, (![0, 0] : Fin 2 → Nat) a + S5124x512.size a ≤ S5124x512.size a
  h_S5124x512 : 0 < S5124x512.numel
  shapeCasts_S5124x512_S5124x512 : S5124x512.ShapeCasts S5124x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  packedbf16_S1024x512_S1024x512_0_0 : (Rect.unit (s := S1024x512) ![0, 0] S1024x512.size inb_S1024x512_S1024x512_0_0).PackedRows (EltTy.packing .bf16)
  shapeCasts_S1024_S1x1024 : S1024.ShapeCasts S1x1024
  inb_S7172x256_S7172x256_0_0 : ∀ a, (![0, 0] : Fin 2 → Nat) a + S7172x256.size a ≤ S7172x256.size a
  h_S7172x256 : 0 < S7172x256.numel
  shapeCasts_S7172x256_S7172x256 : S7172x256.ShapeCasts S7172x256
  slices_S7172x256_o0_0_S2048x256 : S7172x256.Slices ![0, 0] S2048x256
  slices_S7172x256_o2048_0_S5124x256 : S7172x256.Slices ![2048, 0] S5124x256
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  packedbf16_S1024x256_S1024x256_0_0 : (Rect.unit (s := S1024x256) ![0, 0] S1024x256.size inb_S1024x256_S1024x256_0_0).PackedRows (EltTy.packing .bf16)
  inb_S6148x256_S6148x256_0_0 : ∀ a, (![0, 0] : Fin 2 → Nat) a + S6148x256.size a ≤ S6148x256.size a
  h_S6148x256 : 0 < S6148x256.numel
  shapeCasts_S6148x256_S6148x256 : S6148x256.ShapeCasts S6148x256
  slices_S6148x256_o0_0_S1024x256 : S6148x256.Slices ![0, 0] S1024x256
  slices_S6148x256_o1024_0_S5124x256 : S6148x256.Slices ![1024, 0] S5124x256
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S512_S1x512 : S512.ShapeCasts S1x512
  shapeCasts_S1024x512_S1024x512 : S1024x512.ShapeCasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  dot_S1024x5124_S5124x512_S1024x512_1_0_0_1_n_n_wf : DotDims.WF S1024x5124 S5124x512 S1024x512 [1] [0] [0] [1] [] []
  dot_S1024x2048_S2048x256_S1024x256_1_0_0_1_n_n_wf : DotDims.WF S1024x2048 S2048x256 S1024x256 [1] [0] [0] [1] [] []
  dot_S1024x5124_S5124x256_S1024x256_1_0_0_1_n_n_wf : DotDims.WF S1024x5124 S5124x256 S1024x256 [1] [0] [0] [1] [] []
  dot_S1024x1024_S1024x256_S1024x256_1_0_0_1_n_n_wf : DotDims.WF S1024x1024 S1024x256 S1024x256 [1] [0] [0] [1] [] []
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x5124.size a ≤ S8192x5124.size a
  hwx0_0 : ∀ i : grid0.Coords, EltTy.bits .bf16 = 32 ∨ (Rect.block (s := S8192x5124) S1024x5124.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5124x512.size a ≤ S5124x2048.size a
  hwx0_1 : ∀ i : grid0.Coords, EltTy.bits .bf16 = 32 ∨ (Rect.block (s := S5124x2048) S5124x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x2048.size a
  hwx0_2 : ∀ i : grid0.Coords, EltTy.bits .f32 = 32 ∨ (Rect.block (s := S1x2048) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x2048.size a
  hwx0_3 : ∀ i : grid0.Coords, EltTy.bits .bf16 = 32 ∨ (Rect.block (s := S8192x2048) S1024x512.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x2048.size a
  hwx1_0 : ∀ i : grid1.Coords, EltTy.bits .bf16 = 32 ∨ (Rect.block (s := S8192x2048) S1024x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x5124.size a ≤ S8192x5124.size a
  hwx1_1 : ∀ i : grid1.Coords, EltTy.bits .bf16 = 32 ∨ (Rect.block (s := S8192x5124) S1024x5124.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S7172x256.size a ≤ S7172x1024.size a
  hwx1_2 : ∀ i : grid1.Coords, EltTy.bits .bf16 = 32 ∨ (Rect.block (s := S7172x1024) S7172x256.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x1024.size a
  hwx1_3 : ∀ i : grid1.Coords, EltTy.bits .f32 = 32 ∨ (Rect.block (s := S1x1024) S1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x256.size a ≤ S8192x1024.size a
  hwx1_4 : ∀ i : grid1.Coords, EltTy.bits .bf16 = 32 ∨ (Rect.block (s := S8192x1024) S1024x256.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x1024.size a
  hwx2_0 : ∀ i : grid2.Coords, EltTy.bits .bf16 = 32 ∨ (Rect.block (s := S8192x1024) S1024x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x5124.size a ≤ S8192x5124.size a
  hwx2_1 : ∀ i : grid2.Coords, EltTy.bits .bf16 = 32 ∨ (Rect.block (s := S8192x5124) S1024x5124.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S6148x256.size a ≤ S6148x1024.size a
  hwx2_2 : ∀ i : grid2.Coords, EltTy.bits .bf16 = 32 ∨ (Rect.block (s := S6148x1024) S6148x256.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x1024.size a
  hwx2_3 : ∀ i : grid2.Coords, EltTy.bits .f32 = 32 ∨ (Rect.block (s := S1x1024) S1x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x256.size a ≤ S8192x1024.size a
  hwx2_4 : ∀ i : grid2.Coords, EltTy.bits .bf16 = 32 ∨ (Rect.block (s := S8192x1024) S1024x256.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x1024.size a ≤ S8192x1024.size a
  hwx3_0 : ∀ i : grid3.Coords, EltTy.bits .bf16 = 32 ∨ (Rect.block (s := S8192x1024) S1024x1024.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x5124.size a ≤ S8192x5124.size a
  hwx3_1 : ∀ i : grid3.Coords, EltTy.bits .bf16 = 32 ∨ (Rect.block (s := S8192x5124) S1024x5124.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S6148x256.size a ≤ S6148x512.size a
  hwx3_2 : ∀ i : grid3.Coords, EltTy.bits .bf16 = 32 ∨ (Rect.block (s := S6148x512) S6148x256.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x512.size a
  hwx3_3 : ∀ i : grid3.Coords, EltTy.bits .f32 = 32 ∨ (Rect.block (s := S1x512) S1x256.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1024x256.size a ≤ S8192x512.size a
  hwx3_4 : ∀ i : grid3.Coords, EltTy.bits .bf16 = 32 ∨ (Rect.block (s := S8192x512) S1024x256.size (cc3_transform_4 i) (hinb3_4 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x512.size a ≤ S8192x512.size a
  hwx4_0 : ∀ i : grid4.Coords, EltTy.bits .bf16 = 32 ∨ (Rect.block (s := S8192x512) S1024x512.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S512x512.size a ≤ S512x1024.size a
  hwx4_1 : ∀ i : grid4.Coords, EltTy.bits .bf16 = 32 ∨ (Rect.block (s := S512x1024) S512x512.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1x512.size a ≤ S1x1024.size a
  hwx4_2 : ∀ i : grid4.Coords, EltTy.bits .f32 = 32 ∨ (Rect.block (s := S1x1024) S1x512.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1024x512.size a ≤ S8192x1024.size a
  hwx4_3 : ∀ i : grid4.Coords, EltTy.bits .f32 = 32 ∨ (Rect.block (s := S8192x1024) S1024x512.size (cc4_transform_3 i) (hinb4_3 i)).WholeWords (EltTy.packing .f32)

variable [Facts₀]

def dot_S1024x5124_S5124x512_S1024x512_1_0_0_1_n_n : DotDims S1024x5124 S5124x512 S1024x512 where
  lhsContracting := [1]
  rhsContracting := [0]
  lhsNonContracting := [0]
  rhsNonContracting := [1]
  lhsBatch := []
  rhsBatch := []
  wf := dot_S1024x5124_S5124x512_S1024x512_1_0_0_1_n_n_wf
def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf
def dot_S1024x5124_S5124x256_S1024x256_1_0_0_1_n_n : DotDims S1024x5124 S5124x256 S1024x256 where
  lhsContracting := [1]
  rhsContracting := [0]
  lhsNonContracting := [0]
  rhsNonContracting := [1]
  lhsBatch := []
  rhsBatch := []
  wf := dot_S1024x5124_S5124x256_S1024x256_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_v1) S1024x5124.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S5124x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v4) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x5124.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S7172x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v7) S1024x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v7) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S1024x5124.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v8) S6148x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v9) S1x256.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v10) S1024x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v10) S1024x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v1) S1024x5124.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v11) S6148x256.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v12) S1x256.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v13) S1024x256.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v13) S1024x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v14) S512x512.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v15) S1x512.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v16) S1024x512.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S8192x4096 : Shape := ⟨2, ![8192, 4096]⟩
abbrev S8192x1024 : Shape := ⟨2, ![8192, 1024]⟩
abbrev S8192x4 : Shape := ⟨2, ![8192, 4]⟩
abbrev S4x1024 : Shape := ⟨2, ![4, 1024]⟩
abbrev S1024 : Shape := ⟨1, ![1024]⟩
abbrev S1024x1024 : Shape := ⟨2, ![1024, 1024]⟩
abbrev S4x512 : Shape := ⟨2, ![4, 512]⟩
abbrev S512 : Shape := ⟨1, ![512]⟩
abbrev S512x512 : Shape := ⟨2, ![512, 512]⟩
abbrev S5124x2048 : Shape := ⟨2, ![5124, 2048]⟩
abbrev S2048 : Shape := ⟨1, ![2048]⟩
abbrev S7172x1024 : Shape := ⟨2, ![7172, 1024]⟩
abbrev S6148x1024 : Shape := ⟨2, ![6148, 1024]⟩
abbrev S6148x512 : Shape := ⟨2, ![6148, 512]⟩
abbrev S512x1024 : Shape := ⟨2, ![512, 1024]⟩
abbrev S8192x5124 : Shape := ⟨2, ![8192, 5124]⟩
abbrev S1x1024 : Shape := ⟨2, ![1, 1024]⟩
abbrev S8192x512 : Shape := ⟨2, ![8192, 512]⟩
abbrev S1x512 : Shape := ⟨2, ![1, 512]⟩
abbrev S8192x2048 : Shape := ⟨2, ![8192, 2048]⟩
abbrev S1x2048 : Shape := ⟨2, ![1, 2048]⟩
abbrev S8192x7172 : Shape := ⟨2, ![8192, 7172]⟩
abbrev S8192x6148 : Shape := ⟨2, ![8192, 6148]⟩

abbrev nBuf : Space → Nat
  | .hbm => 89
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S8192x4, .f32⟩
  | .hbm, ⟨3, _⟩ => ⟨S4x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S4x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S4x512, .f32⟩
  | .hbm, ⟨12, _⟩ => ⟨S512, .f32⟩
  | .hbm, ⟨13, _⟩ => ⟨S512x512, .f32⟩
  | .hbm, ⟨14, _⟩ => ⟨S512, .f32⟩
  | .hbm, ⟨15, _⟩ => ⟨S4x1024, .f32⟩
  | .hbm, ⟨16, _⟩ => ⟨S1024, .f32⟩
  | .hbm, ⟨17, _⟩ => ⟨S1024x1024, .f32⟩
  | .hbm, ⟨18, _⟩ => ⟨S1024, .f32⟩
  | .hbm, ⟨19, _⟩ => ⟨S5124x2048, .f32⟩
  | .hbm, ⟨20, _⟩ => ⟨S2048, .f32⟩
  | .hbm, ⟨21, _⟩ => ⟨S7172x1024, .f32⟩
  | .hbm, ⟨22, _⟩ => ⟨S1024, .f32⟩
  | .hbm, ⟨23, _⟩ => ⟨S6148x1024, .f32⟩
  | .hbm, ⟨24, _⟩ => ⟨S1024, .f32⟩
  | .hbm, ⟨25, _⟩ => ⟨S6148x512, .f32⟩
  | .hbm, ⟨26, _⟩ => ⟨S512, .f32⟩
  | .hbm, ⟨27, _⟩ => ⟨S512x1024, .f32⟩
  | .hbm, ⟨28, _⟩ => ⟨S1024, .f32⟩
  | .hbm, ⟨29, _⟩ => ⟨S8192x5124, .f32⟩
  | .hbm, ⟨30, _⟩ => ⟨S8192x1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S1x1024, .f32⟩
  | .hbm, ⟨46, _⟩ => ⟨S8192x1024, .f32⟩
  | .hbm, ⟨47, _⟩ => ⟨S8192x1024, .f32⟩
  | .hbm, ⟨48, _⟩ => ⟨S8192x512, .f32⟩
  | .hbm, ⟨49, _⟩ => ⟨S1x512, .f32⟩
  | .hbm, ⟨50, _⟩ => ⟨S8192x512, .f32⟩
  | .hbm, ⟨51, _⟩ => ⟨S8192x512, .f32⟩
  | .hbm, ⟨52, _⟩ => ⟨S8192x512, .f32⟩
  | .hbm, ⟨53, _⟩ => ⟨S8192x512, .f32⟩
  | .hbm, ⟨54, _⟩ => ⟨S1x512, .f32⟩
  | .hbm, ⟨55, _⟩ => ⟨S8192x512, .f32⟩
  | .hbm, ⟨56, _⟩ => ⟨S8192x512, .f32⟩
  | .hbm, ⟨57, _⟩ => ⟨S8192x1024, .f32⟩
  | .hbm, ⟨58, _⟩ => ⟨S1x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S1x1024, .f32⟩
  | .hbm, ⟨64, _⟩ => ⟨S8192x1024, .f32⟩
  | .hbm, ⟨65, _⟩ => ⟨S8192x1024, .f32⟩
  | .hbm, ⟨66, _⟩ => ⟨S8192x2048, .f32⟩
  | .hbm, ⟨67, _⟩ => ⟨S1x2048, .f32⟩
  | .hbm, ⟨68, _⟩ => ⟨S8192x2048, .f32⟩
  | .hbm, ⟨69, _⟩ => ⟨S8192x2048, .f32⟩
  | .hbm, ⟨70, _⟩ => ⟨S8192x7172, .f32⟩
  | .hbm, ⟨71, _⟩ => ⟨S8192x1024, .f32⟩
  | .hbm, ⟨72, _⟩ => ⟨S1x1024, .f32⟩
  | .hbm, ⟨73, _⟩ => ⟨S8192x1024, .f32⟩
  | .hbm, ⟨74, _⟩ => ⟨S8192x1024, .f32⟩
  | .hbm, ⟨75, _⟩ => ⟨S8192x6148, .f32⟩
  | .hbm, ⟨76, _⟩ => ⟨S8192x1024, .f32⟩
  | .hbm, ⟨77, _⟩ => ⟨S1x1024, .f32⟩
  | .hbm, ⟨78, _⟩ => ⟨S8192x1024, .f32⟩
  | .hbm, ⟨79, _⟩ => ⟨S8192x1024, .f32⟩
  | .hbm, ⟨80, _⟩ => ⟨S8192x6148, .f32⟩
  | .hbm, ⟨81, _⟩ => ⟨S8192x512, .f32⟩
  | .hbm, ⟨82, _⟩ => ⟨S1x512, .f32⟩
  | .hbm, ⟨83, _⟩ => ⟨S8192x512, .f32⟩
  | .hbm, ⟨84, _⟩ => ⟨S8192x512, .f32⟩
  | .hbm, ⟨85, _⟩ => ⟨S8192x1024, .f32⟩
  | .hbm, ⟨86, _⟩ => ⟨S1x1024, .f32⟩
  | .hbm, ⟨87, _⟩ => ⟨S8192x1024, .f32⟩
  | .hbm, ⟨88, _⟩ => ⟨S8192x1024, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩

abbrev nD : Nat := 1
abbrev τ : Topo := Topo.v7x

variable {F : FTy → Type} [FloatOps F]

class Facts₀ : Prop where
  concatenates_S8192x4096_S8192x4_S8192x1024_S8192x5124_d1 : Shape.Concatenates [S8192x4096, S8192x4, S8192x1024] S8192x5124 1
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  concatenates_S8192x2048_S8192x5124_S8192x7172_d1 : Shape.Concatenates [S8192x2048, S8192x5124] S8192x7172 1
  concatenates_S8192x1024_S8192x5124_S8192x6148_d1 : Shape.Concatenates [S8192x1024, S8192x5124] S8192x6148 1
  dot_S8192x4_S4x1024_S8192x1024_1_0_0_1_n_n_wf : DotDims.WF S8192x4 S4x1024 S8192x1024 [1] [0] [0] [1] [] []
  dot_S8192x1024_S1024x1024_S8192x1024_1_0_0_1_n_n_wf : DotDims.WF S8192x1024 S1024x1024 S8192x1024 [1] [0] [0] [1] [] []
  dot_S8192x4_S4x512_S8192x512_1_0_0_1_n_n_wf : DotDims.WF S8192x4 S4x512 S8192x512 [1] [0] [0] [1] [] []
  dot_S8192x512_S512x512_S8192x512_1_0_0_1_n_n_wf : DotDims.WF S8192x512 S512x512 S8192x512 [1] [0] [0] [1] [] []
  dot_S8192x5124_S5124x2048_S8192x2048_1_0_0_1_n_n_wf : DotDims.WF S8192x5124 S5124x2048 S8192x2048 [1] [0] [0] [1] [] []
  dot_S8192x7172_S7172x1024_S8192x1024_1_0_0_1_n_n_wf : DotDims.WF S8192x7172 S7172x1024 S8192x1024 [1] [0] [0] [1] [] []
  dot_S8192x6148_S6148x1024_S8192x1024_1_0_0_1_n_n_wf : DotDims.WF S8192x6148 S6148x1024 S8192x1024 [1] [0] [0] [1] [] []
  dot_S8192x6148_S6148x512_S8192x512_1_0_0_1_n_n_wf : DotDims.WF S8192x6148 S6148x512 S8192x512 [1] [0] [0] [1] [] []
  dot_S8192x512_S512x1024_S8192x1024_1_0_0_1_n_n_wf : DotDims.WF S8192x512 S512x1024 S8192x1024 [1] [0] [0] [1] [] []

variable [Facts₀]

def dot_S8192x4_S4x1024_S8192x1024_1_0_0_1_n_n : DotDims S8192x4 S4x1024 S8192x1024 where
  lhsContracting := [1]
  rhsContracting := [0]
  lhsNonContracting := [0]
  rhsNonContracting := [1]
  lhsBatch := []
  rhsBatch := []
  wf := dot_S8192x4_S4x1024_S8192x1024_1_0_0_1_n_n_wf
def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf
def dot_S8192x4_S4x512_S8192x512_1_0_0_1_n_n : DotDims S8192x4 S4x512 S8192x512 where
  lhsContracting := [1]
  rhsContracting := [0]
  lhsNonContracting := [0]
  rhsNonContracting := [1]
  lhsBatch := []
  rhsBatch := []
  wf := dot_S8192x4_S4x512_S8192x512_1_0_0_1_n_n_wf
def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf
def dot_S8192x5124_S5124x2048_S8192x2048_1_0_0_1_n_n : DotDims S8192x5124 S5124x2048 S8192x2048 where
  lhsContracting := [1]
  rhsContracting := [0]
  lhsNonContracting := [0]
  rhsNonContracting := [1]
  lhsBatch := []
  rhsBatch := []
  wf := dot_S8192x5124_S5124x2048_S8192x2048_1_0_0_1_n_n_wf
def dot_S8192x7172_S7172x1024_S8192x1024_1_0_0_1_n_n : DotDims S8192x7172 S7172x1024 S8192x1024 where
  lhsContracting := [1]
  rhsContracting := [0]
  lhsNonContracting := [0]
  rhsNonContracting := [1]
  lhsBatch := []
  rhsBatch := []
  wf := dot_S8192x7172_S7172x1024_S8192x1024_1_0_0_1_n_n_wf
def dot_S8192x6148_S6148x1024_S8192x1024_1_0_0_1_n_n : DotDims S8192x6148 S6148x1024 S8192x1024 where
  lhsContracting := [1]
  rhsContracting := [0]
  lhsNonContracting := [0]
  rhsNonContracting := [1]
  lhsBatch := []
  rhsBatch := []
  wf := dot_S8192x6148_S6148x1024_S8192x1024_1_0_0_1_n_n_wf
def dot_S8192x6148_S6148x512_S8192x512_1_0_0_1_n_n : DotDims S8192x6148 S6148x512 S8192x512 where
  lhsContracting := [1]
  rhsContracting := [0]
  lhsNonContracting := [0]
  rhsNonContracting := [1]
  lhsBatch := []
  rhsBatch := []
  wf := dot_S8192x6148_S6148x512_S8192x512_1_0_0_1_n_n_wf
def dot_S8192x512_S512x1024_S8192x1024_1_0_0_1_n_n : DotDims S8192x512 S512x1024 S8192x1024 where
  lhsContracting := [1]
  rhsContracting := [0]
  lhsNonContracting := [0]
  rhsNonContracting := [1]
  lhsBatch := []
  rhsBatch := []
  wf := dot_S8192x512_S512x1024_S8192x1024_1_0_0_1_n_n_wf

class Facts : Prop extends Facts₀ where

variable [Facts]
-- ==== Proof.BitsLayer1.lean ====
/-
  Layer 1, x1 = ctx · W1 + b1 : a [1024, 5124] block of ctx times a [5124, 512] block of W1, plus a [1, 512] block of b1.
  One grid point of this pallas_call: the body loads its input blocks whole, computes, and stores the output block whole.
  Stated at any entry contents `V` of the TensorCore's buffers: the block each window holds at a point, what the body
  leaves in the output's staging buffer as a function of the input blocks, the body's triple, and the pipeline's proof
  data with its per-point obligation.
-/
import proofs.«150073_j2164663517985_2_alg».proof.Proof.Gen.Kernel.Launch
import proofs.«150073_j2164663517985_2_alg».proof.Proof.Gen.Kernel.Skeleton
import proofs.«150073_j2164663517985_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Layers

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rows and columns of its array that the index map selects there. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's staging buffer holds its block at every point, whether the point fetches it or the index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! The whole-block rectangles the body loads and stores through. -/
abbrev r0_0 : Rect S1024x5124 := Rect.unit (s := S1024x5124) ![0, 0] S1024x5124.size inb_S1024x5124_S1024x5124_0_0
abbrev r0_1 : Rect S5124x512 := Rect.unit (s := S5124x512) ![0, 0] S5124x512.size inb_S5124x512_S5124x512_0_0
abbrev r0_2 : Rect S1x512 := Rect.unit (s := S1x512) ![0, 0] S1x512.size inb_S1x512_S1x512_0_0
abbrev r0_3 : Rect S1024x512 := Rect.unit (s := S1024x512) ![0, 0] S1024x512.size inb_S1024x512_S1024x512_0_0

/-- The output block after the body, as a function of the input blocks: one store of the whole block. -/
def out0_3 (x0 : Vec F S1024x5124 .bf16) (x1 : Vec F S5124x512 .bf16) (x2 : Vec F S1x512 .f32) : Vec F S1024x512 .bf16 :=
  View.canon [⟨r0_3, k0_pay1 (View.ld x0 r0_0) (View.ld x1 r0_1) (View.ld x2 r0_2)⟩]

/-- The one store covers the output block. -/
theorem cover0_3 (p0 : Vec F S1024x512 .bf16) (y : S1024x512.Idx) :
    ∃ pc ∈ ([⟨r0_3, p0⟩] : List (View.Piece (Elt F) S1024x512 .bf16)), y ∈ pc.1.set :=
  View.cover_of_tiled [⟨r0_3, p0⟩] S1024x512.size (by rfl) y

set_option maxHeartbeats 1000000 in
/-- The body on whole staging buffers: the inputs end as they were, the output ends at `out0_3` of the inputs. -/
theorem sound_kernel0 (c : Dev nD) (E : Set ℕ) (i : grid0.Coords) (arg0 : Memref sig .tc .vmem S1024x5124 .bf16) (harg0 : arg0.IsWhole) (arg1 : Memref sig .tc .vmem S5124x512 .bf16) (harg1 : arg1.IsWhole) (arg2 : Memref sig .tc .vmem S1x512 .f32) (harg2 : arg2.IsWhole) (arg3 : Memref sig .tc .vmem S1024x512 .bf16) (harg3 : arg3.IsWhole)
    (x0 : Vec F S1024x5124 .bf16) (x1 : Vec F S5124x512 .bf16) (x2 : Vec F S1x512 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out0_3 x0 x1 x2)) -∗ K ⟨⟩))
      ⊢ wp frame (wpE (defs₀ (F := F)) Variants.none c none) E (cc0__linear_kernel i arg0 harg0 arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The pipeline's proof data on core `c`: the arrays as the region finds them; after the body each input's buffer
    still at its block and the output's at `out0_3` of the input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the triple above applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Layers

end
-- ==== Proof.BitsLayer2.lean ====
/-
  Layer 2, x2 = x1 · W2[0:2048] + ctx · W2[2048:7172] + b2 : the weight block's rows split into the part x1 meets and the part ctx meets.
  One grid point of this pallas_call: the body loads its input blocks whole, computes, and stores the output block whole.
  Stated at any entry contents `V` of the TensorCore's buffers: the block each window holds at a point, what the body
  leaves in the output's staging buffer as a function of the input blocks, the body's triple, and the pipeline's proof
  data with its per-point obligation.
-/
import proofs.«150073_j2164663517985_2_alg».proof.Proof.Gen.Kernel.Launch
import proofs.«150073_j2164663517985_2_alg».proof.Proof.Gen.Kernel.Skeleton
import proofs.«150073_j2164663517985_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Layers

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rows and columns of its array that the index map selects there. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's staging buffer holds its block at every point, whether the point fetches it or the index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! The whole-block rectangles the body loads and stores through. -/
abbrev r1_0 : Rect S1024x2048 := Rect.unit (s := S1024x2048) ![0, 0] S1024x2048.size inb_S1024x2048_S1024x2048_0_0
abbrev r1_1 : Rect S1024x5124 := Rect.unit (s := S1024x5124) ![0, 0] S1024x5124.size inb_S1024x5124_S1024x5124_0_0
abbrev r1_2 : Rect S7172x256 := Rect.unit (s := S7172x256) ![0, 0] S7172x256.size inb_S7172x256_S7172x256_0_0
abbrev r1_3 : Rect S1x256 := Rect.unit (s := S1x256) ![0, 0] S1x256.size inb_S1x256_S1x256_0_0
abbrev r1_4 : Rect S1024x256 := Rect.unit (s := S1024x256) ![0, 0] S1024x256.size inb_S1024x256_S1024x256_0_0

/-- The output block after the body, as a function of the input blocks: one store of the whole block. -/
def out1_4 (x0 : Vec F S1024x2048 .bf16) (x1 : Vec F S1024x5124 .bf16) (x2 : Vec F S7172x256 .bf16) (x3 : Vec F S1x256 .f32) : Vec F S1024x256 .bf16 :=
  View.canon [⟨r1_4, k1_pay1 (View.ld x2 r1_2) (View.ld x0 r1_0) (View.ld x1 r1_1) (View.ld x3 r1_3)⟩]

/-- The one store covers the output block. -/
theorem cover1_4 (p0 : Vec F S1024x256 .bf16) (y : S1024x256.Idx) :
    ∃ pc ∈ ([⟨r1_4, p0⟩] : List (View.Piece (Elt F) S1024x256 .bf16)), y ∈ pc.1.set :=
  View.cover_of_tiled [⟨r1_4, p0⟩] S1024x256.size (by rfl) y

set_option maxHeartbeats 1000000 in
/-- The body on whole staging buffers: the inputs end as they were, the output ends at `out1_4` of the inputs. -/
theorem sound_kernel1 (c : Dev nD) (E : Set ℕ) (i : grid1.Coords) (arg0 : Memref sig .tc .vmem S1024x2048 .bf16) (harg0 : arg0.IsWhole) (arg1 : Memref sig .tc .vmem S1024x5124 .bf16) (harg1 : arg1.IsWhole) (arg2 : Memref sig .tc .vmem S7172x256 .bf16) (harg2 : arg2.IsWhole) (arg3 : Memref sig .tc .vmem S1x256 .f32) (harg3 : arg3.IsWhole) (arg4 : Memref sig .tc .vmem S1024x256 .bf16) (harg4 : arg4.IsWhole)
    (x0 : Vec F S1024x2048 .bf16) (x1 : Vec F S1024x5124 .bf16) (x2 : Vec F S7172x256 .bf16) (x3 : Vec F S1x256 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out1_4 x0 x1 x2 x3)) -∗ K ⟨⟩))
      ⊢ wp frame (wpE (defs₀ (F := F)) Variants.none c none) E (cc1__linear2_kernel i arg0 harg0 arg1 harg1 arg2 harg2 arg3 harg3 arg4 harg4) K := by
  simp only [cc1__linear2_kernel_eq_skeleton]; unfold cc1__linear2_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-- The pipeline's proof data on core `c`: the arrays as the region finds them; after the body each input's buffer
    still at its block and the output's at `out1_4` of the input blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks, so the triple above applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Layers

end
-- ==== Proof.BitsLayer3.lean ====
/-
  Layer 3, x3 = x2 · W3[0:1024] + ctx · W3[1024:6148] + b3.
  One grid point of this pallas_call: the body loads its input blocks whole, computes, and stores the output block whole.
  Stated at any entry contents `V` of the TensorCore's buffers: the block each window holds at a point, what the body
  leaves in the output's staging buffer as a function of the input blocks, the body's triple, and the pipeline's proof
  data with its per-point obligation.
-/
import proofs.«150073_j2164663517985_2_alg».proof.Proof.Gen.Kernel.Launch
import proofs.«150073_j2164663517985_2_alg».proof.Proof.Gen.Kernel.Skeleton
import proofs.«150073_j2164663517985_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Layers

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rows and columns of its array that the index map selects there. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's staging buffer holds its block at every point, whether the point fetches it or the index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! The whole-block rectangles the body loads and stores through. -/
abbrev r2_0 : Rect S1024x1024 := Rect.unit (s := S1024x1024) ![0, 0] S1024x1024.size inb_S1024x1024_S1024x1024_0_0
abbrev r2_1 : Rect S1024x5124 := Rect.unit (s := S1024x5124) ![0, 0] S1024x5124.size inb_S1024x5124_S1024x5124_0_0
abbrev r2_2 : Rect S6148x256 := Rect.unit (s := S6148x256) ![0, 0] S6148x256.size inb_S6148x256_S6148x256_0_0
abbrev r2_3 : Rect S1x256 := Rect.unit (s := S1x256) ![0, 0] S1x256.size inb_S1x256_S1x256_0_0
abbrev r2_4 : Rect S1024x256 := Rect.unit (s := S1024x256) ![0, 0] S1024x256.size inb_S1024x256_S1024x256_0_0

/-- The output block after the body, as a function of the input blocks: one store of the whole block. -/
def out2_4 (x0 : Vec F S1024x1024 .bf16) (x1 : Vec F S1024x5124 .bf16) (x2 : Vec F S6148x256 .bf16) (x3 : Vec F S1x256 .f32) : Vec F S1024x256 .bf16 :=
  View.canon [⟨r2_4, k2_pay1 (View.ld x2 r2_2) (View.ld x0 r2_0) (View.ld x1 r2_1) (View.ld x3 r2_3)⟩]

/-- The one store covers the output block. -/
theorem cover2_4 (p0 : Vec F S1024x256 .bf16) (y : S1024x256.Idx) :
    ∃ pc ∈ ([⟨r2_4, p0⟩] : List (View.Piece (Elt F) S1024x256 .bf16)), y ∈ pc.1.set :=
  View.cover_of_tiled [⟨r2_4, p0⟩] S1024x256.size (by rfl) y

set_option maxHeartbeats 1000000 in
/-- The body on whole staging buffers: the inputs end as they were, the output ends at `out2_4` of the inputs. -/
theorem sound_kernel2 (c : Dev nD) (E : Set ℕ) (i : grid2.Coords) (arg0 : Memref sig .tc .vmem S1024x1024 .bf16) (harg0 : arg0.IsWhole) (arg1 : Memref sig .tc .vmem S1024x5124 .bf16) (harg1 : arg1.IsWhole) (arg2 : Memref sig .tc .vmem S6148x256 .bf16) (harg2 : arg2.IsWhole) (arg3 : Memref sig .tc .vmem S1x256 .f32) (harg3 : arg3.IsWhole) (arg4 : Memref sig .tc .vmem S1024x256 .bf16) (harg4 : arg4.IsWhole)
    (x0 : Vec F S1024x1024 .bf16) (x1 : Vec F S1024x5124 .bf16) (x2 : Vec F S6148x256 .bf16) (x3 : Vec F S1x256 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out2_4 x0 x1 x2 x3)) -∗ K ⟨⟩))
      ⊢ wp frame (wpE (defs₀ (F := F)) Variants.none c none) E (cc2__linear2_kernel i arg0 harg0 arg1 harg1 arg2 harg2 arg3 harg3 arg4 harg4) K := by
  simp only [cc2__linear2_kernel_eq_skeleton]; unfold cc2__linear2_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-- The pipeline's proof data on core `c`: the arrays as the region finds them; after the body each input's buffer
    still at its block and the output's at `out2_4` of the input blocks; nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' buffers hold their blocks, so the triple above applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Layers

end
-- ==== Proof.BitsLayer4.lean ====
/-
  Layer 4, x4 = x3 · W4[0:1024] + ctx · W4[1024:6148] + b4.
  One grid point of this pallas_call: the body loads its input blocks whole, computes, and stores the output block whole.
  Stated at any entry contents `V` of the TensorCore's buffers: the block each window holds at a point, what the body
  leaves in the output's staging buffer as a function of the input blocks, the body's triple, and the pipeline's proof
  data with its per-point obligation.
-/
import proofs.«150073_j2164663517985_2_alg».proof.Proof.Gen.Kernel.Launch
import proofs.«150073_j2164663517985_2_alg».proof.Proof.Gen.Kernel.Skeleton
import proofs.«150073_j2164663517985_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Layers

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rows and columns of its array that the index map selects there. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! An input window's staging buffer holds its block at every point, whether the point fetches it or the index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! The whole-block rectangles the body loads and stores through. -/
abbrev r3_0 : Rect S1024x1024 := Rect.unit (s := S1024x1024) ![0, 0] S1024x1024.size inb_S1024x1024_S1024x1024_0_0
abbrev r3_1 : Rect S1024x5124 := Rect.unit (s := S1024x5124) ![0, 0] S1024x5124.size inb_S1024x5124_S1024x5124_0_0
abbrev r3_2 : Rect S6148x256 := Rect.unit (s := S6148x256) ![0, 0] S6148x256.size inb_S6148x256_S6148x256_0_0
abbrev r3_3 : Rect S1x256 := Rect.unit (s := S1x256) ![0, 0] S1x256.size inb_S1x256_S1x256_0_0
abbrev r3_4 : Rect S1024x256 := Rect.unit (s := S1024x256) ![0, 0] S1024x256.size inb_S1024x256_S1024x256_0_0

/-- The output block after the body, as a function of the input blocks: one store of the whole block. -/
def out3_4 (x0 : Vec F S1024x1024 .bf16) (x1 : Vec F S1024x5124 .bf16) (x2 : Vec F S6148x256 .bf16) (x3 : Vec F S1x256 .f32) : Vec F S1024x256 .bf16 :=
  View.canon [⟨r3_4, k3_pay1 (View.ld x2 r3_2) (View.ld x0 r3_0) (View.ld x1 r3_1) (View.ld x3 r3_3)⟩]

/-- The one store covers the output block. -/
theorem cover3_4 (p0 : Vec F S1024x256 .bf16) (y : S1024x256.Idx) :
    ∃ pc ∈ ([⟨r3_4, p0⟩] : List (View.Piece (Elt F) S1024x256 .bf16)), y ∈ pc.1.set :=
  View.cover_of_tiled [⟨r3_4, p0⟩] S1024x256.size (by rfl) y

set_option maxHeartbeats 1000000 in
/-- The body on whole staging buffers: the inputs end as they were, the output ends at `out3_4` of the inputs. -/
theorem sound_kernel3 (c : Dev nD) (E : Set ℕ) (i : grid3.Coords) (arg0 : Memref sig .tc .vmem S1024x1024 .bf16) (harg0 : arg0.IsWhole) (arg1 : Memref sig .tc .vmem S1024x5124 .bf16) (harg1 : arg1.IsWhole) (arg2 : Memref sig .tc .vmem S6148x256 .bf16) (harg2 : arg2.IsWhole) (arg3 : Memref sig .tc .vmem S1x256 .f32) (harg3 : arg3.IsWhole) (arg4 : Memref sig .tc .vmem S1024x256 .bf16) (harg4 : arg4.IsWhole)
    (x0 : Vec F S1024x1024 .bf16) (x1 : Vec F S1024x5124 .bf16) (x2 : Vec F S6148x256 .bf16) (x3 : Vec F S1x256 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out3_4 x0 x1 x2 x3)) -∗ K ⟨⟩))
      ⊢ wp frame (wpE (defs₀ (F := F)) Variants.none c none) E (cc3__linear2_kernel i arg0 harg0 arg1 harg1 arg2 harg2 arg3 harg3 arg4 harg4) K := by
  simp only [cc3__linear2_kernel_eq_skeleton]; unfold cc3__linear2_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-- The pipeline's proof data on core `c`: the arrays as the region finds them; after the body each input's buffer
    still at its block and the output's at `out3_4` of the input blocks; nothing owed, full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' buffers hold their blocks, so the triple above applies. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Layers

end
-- ==== Proof.BitsLayer5.lean ====
/-
  Layer 5, out = x4 · W5 + b5.
  One grid point of this pallas_call: the body loads its input blocks whole, computes, and stores the output block whole.
  Stated at any entry contents `V` of the TensorCore's buffers: the block each window holds at a point, what the body
  leaves in the output's staging buffer as a function of the input blocks, the body's triple, and the pipeline's proof
  data with its per-point obligation.
-/
import proofs.«150073_j2164663517985_2_alg».proof.Proof.Gen.Kernel.Launch
import proofs.«150073_j2164663517985_2_alg».proof.Proof.Gen.Kernel.Skeleton
import proofs.«150073_j2164663517985_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Layers

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rows and columns of its array that the index map selects there. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! An input window's staging buffer holds its block at every point, whether the point fetches it or the index has not moved. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! The whole-block rectangles the body loads and stores through. -/
abbrev r4_0 : Rect S1024x512 := Rect.unit (s := S1024x512) ![0, 0] S1024x512.size inb_S1024x512_S1024x512_0_0
abbrev r4_1 : Rect S512x512 := Rect.unit (s := S512x512) ![0, 0] S512x512.size inb_S512x512_S512x512_0_0
abbrev r4_2 : Rect S1x512 := Rect.unit (s := S1x512) ![0, 0] S1x512.size inb_S1x512_S1x512_0_0
abbrev r4_3 : Rect S1024x512 := Rect.unit (s := S1024x512) ![0, 0] S1024x512.size inb_S1024x512_S1024x512_0_0

/-- The output block after the body, as a function of the input blocks: one store of the whole block. -/
def out4_3 (x0 : Vec F S1024x512 .bf16) (x1 : Vec F S512x512 .bf16) (x2 : Vec F S1x512 .f32) : Vec F S1024x512 .f32 :=
  View.canon [⟨r4_3, k4_pay1 (View.ld x0 r4_0) (View.ld x1 r4_1) (View.ld x2 r4_2)⟩]

/-- The one store covers the output block. -/
theorem cover4_3 (p0 : Vec F S1024x512 .f32) (y : S1024x512.Idx) :
    ∃ pc ∈ ([⟨r4_3, p0⟩] : List (View.Piece (Elt F) S1024x512 .f32)), y ∈ pc.1.set :=
  View.cover_of_tiled [⟨r4_3, p0⟩] S1024x512.size (by rfl) y

set_option maxHeartbeats 1000000 in
/-- The body on whole staging buffers: the inputs end as they were, the output ends at `out4_3` of the inputs. -/
theorem sound_kernel4 (c : Dev nD) (E : Set ℕ) (i : grid4.Coords) (arg0 : Memref sig .tc .vmem S1024x512 .bf16) (harg0 : arg0.IsWhole) (arg1 : Memref sig .tc .vmem S512x512 .bf16) (harg1 : arg1.IsWhole) (arg2 : Memref sig .tc .vmem S1x512 .f32) (harg2 : arg2.IsWhole) (arg3 : Memref sig .tc .vmem S1024x512 .f32) (harg3 : arg3.IsWhole)
    (x0 : Vec F S1024x512 .bf16) (x1 : Vec F S512x512 .bf16) (x2 : Vec F S1x512 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out4_3 x0 x1 x2)) -∗ K ⟨⟩))
      ⊢ wp frame (wpE (defs₀ (F := F)) Variants.none c none) E (cc4__linear_kernel i arg0 harg0 arg1 harg1 arg2 harg2 arg3 harg3) K := by
  simp only [cc4__linear_kernel_eq_skeleton]; unfold cc4__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-- The pipeline's proof data on core `c`: the arrays as the region finds them; after the body each input's buffer
    still at its block and the output's at `out4_3` of the input blocks; nothing owed, full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' buffers hold their blocks, so the triple above applies. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Layers

end
-- ==== Proof.BitsRun.lean ====
/-
  The whole program as ten segments: before each pallas_call a stretch of host operations (the concatenation of the three
  context inputs and the casts of the weights and biases), then the call. The contents of the TensorCore's buffers at
  each boundary are a fold from the launch memory: a host stretch applies its operations; a call leaves its input arrays
  as entered and its output array at what the per-point write-backs fold to. Every weakly fair execution ends with every
  unscoped buffer at the last boundary's contents; an argument array is written by nothing, so it ends as launched.
-/
import proofs.«150073_j2164663517985_2_alg».proof.Proof.Gen.Kernel.Regions
import proofs.«150073_j2164663517985_2_alg».proof.Proof.BitsLayer1
import proofs.«150073_j2164663517985_2_alg».proof.Proof.BitsLayer2
import proofs.«150073_j2164663517985_2_alg».proof.Proof.BitsLayer3
import proofs.«150073_j2164663517985_2_alg».proof.Proof.BitsLayer4
import proofs.«150073_j2164663517985_2_alg».proof.Proof.BitsLayer5

set_option maxRecDepth 16384

noncomputable section

namespace Cert.Kernel.Layers

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the host stretch before layer 1's call. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After layer 1's call: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch before layer 2's call. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After layer 2's call: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host stretch before layer 3's call. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- After layer 3's call: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the host stretch before layer 4's call. -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
/-- After layer 4's call: its arrays at what the pipeline leaves, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After the host stretch before layer 5's call. -/
abbrev W9 : Dev nD → Valuation τ sig (Elt F) := fun c => StableHlo.after hostOps4 (W8 m ρ c)
abbrev V9 : (c : Dev nD) → (b : Ref sig .tc) → Buf (Elt F) ((c : Thread nD τ).loc b) := fun c b => W9 m ρ c b
/-- After layer 5's call: its arrays at what the pipeline leaves, every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

/-! ## What nothing writes ends as launched -/

/-- The buffers some host operation or some call's output writes: the intermediates. -/
abbrev written : List (Ref sig .tc) := [main_v0, main_v1, main_v2, main_v3, main_v4, main_v5, main_v6, main_v7, main_v8, main_v9, main_v10, main_v11, main_v12, main_v13, main_v14, main_v15, main_v16]
theorem arrs0_written : ∀ w : Fin 4, Pipeline.arrRef spec0 w ∈ (written : List (Ref sig .tc)) := by decide
theorem hostW0_written : ∀ x ∈ (hostOps0_W : List (Ref sig .tc)), x ∈ (written : List (Ref sig .tc)) := by decide
theorem arrs1_written : ∀ w : Fin 5, Pipeline.arrRef spec1 w ∈ (written : List (Ref sig .tc)) := by decide
theorem hostW1_written : ∀ x ∈ (hostOps1_W : List (Ref sig .tc)), x ∈ (written : List (Ref sig .tc)) := by decide
theorem arrs2_written : ∀ w : Fin 5, Pipeline.arrRef spec2 w ∈ (written : List (Ref sig .tc)) := by decide
theorem hostW2_written : ∀ x ∈ (hostOps2_W : List (Ref sig .tc)), x ∈ (written : List (Ref sig .tc)) := by decide
theorem arrs3_written : ∀ w : Fin 5, Pipeline.arrRef spec3 w ∈ (written : List (Ref sig .tc)) := by decide
theorem hostW3_written : ∀ x ∈ (hostOps3_W : List (Ref sig .tc)), x ∈ (written : List (Ref sig .tc)) := by decide
theorem arrs4_written : ∀ w : Fin 4, Pipeline.arrRef spec4 w ∈ (written : List (Ref sig .tc)) := by decide
theorem hostW4_written : ∀ x ∈ (hostOps4_W : List (Ref sig .tc)), x ∈ (written : List (Ref sig .tc)) := by decide

/-- A buffer that is no intermediate holds its launch contents at the end: each boundary's contents walk back to the launch memory. -/
theorem W10_kept (c : Dev nD) (r : Ref sig .tc) (h : r ∉ (written : List (Ref sig .tc))) :
    W10 m ρ c (Proc.devRef .tc r) = m ((c : Thread nD τ).loc r) :=
  calc W10 m ρ c (Proc.devRef .tc r)
    _ = W9 m ρ c (Proc.devRef .tc r) := W10_of_ne m ρ c r (fun w e => h (e ▸ arrs4_written w))
    _ = W8 m ρ c (Proc.devRef .tc r) := StableHlo.after_of_writes_sub hostOps4 _ hostOps4_writes (fun hm => h (hostW4_written _ hm))
    _ = W7 m ρ c (Proc.devRef .tc r) := W8_of_ne m ρ c r (fun w e => h (e ▸ arrs3_written w))
    _ = W6 m ρ c (Proc.devRef .tc r) := StableHlo.after_of_writes_sub hostOps3 _ hostOps3_writes (fun hm => h (hostW3_written _ hm))
    _ = W5 m ρ c (Proc.devRef .tc r) := W6_of_ne m ρ c r (fun w e => h (e ▸ arrs2_written w))
    _ = W4 m ρ c (Proc.devRef .tc r) := StableHlo.after_of_writes_sub hostOps2 _ hostOps2_writes (fun hm => h (hostW2_written _ hm))
    _ = W3 m ρ c (Proc.devRef .tc r) := W4_of_ne m ρ c r (fun w e => h (e ▸ arrs1_written w))
    _ = W2 m ρ c (Proc.devRef .tc r) := StableHlo.after_of_writes_sub hostOps1 _ hostOps1_writes (fun hm => h (hostW1_written _ hm))
    _ = W1 m ρ c (Proc.devRef .tc r) := W2_of_ne m ρ c r (fun w e => h (e ▸ arrs0_written w))
    _ = W0 m ρ c (Proc.devRef .tc r) := StableHlo.after_of_writes_sub hostOps0 _ hostOps0_writes (fun hm => h (hostW0_written _ hm))
    _ = m ((c : Thread nD τ).loc r) := rfl

/-! ## The proof data family and the thread state -/

abbrev adm : (p : Fin 5) → (pcfgs (F := F) p).Adm := fun p => (cfgs p).toPCfg_adm
/-- Every pipeline's proof data, each at its call's entry contents. -/
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W10 m ρ c) ∗ ∃ r, prngReg c r)

/-! ## The calls as segments -/

set_option backward.isDefEq.respectTransparency.types false in
/-- Layer 1's call over the thread state: entered with every unscoped buffer at `W1`, left at `W2`. Its arrays are
    split out of the unscoped buffers at entry and put back at the exit contents. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 2's call over the thread state: entered with every unscoped buffer at `W3`, left at `W4`. Its arrays are
    split out of the unscoped buffers at entry and put back at the exit contents. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 3's call over the thread state: entered with every unscoped buffer at `W5`, left at `W6`. Its arrays are
    split out of the unscoped buffers at entry and put back at the exit contents. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 4's call over the thread state: entered with every unscoped buffer at `W7`, left at `W8`. Its arrays are
    split out of the unscoped buffers at entry and put back at the exit contents. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 5's call over the thread state: entered with every unscoped buffer at `W9`, left at `W10`. Its arrays are
    split out of the unscoped buffers at entry and put back at the exit contents. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and its run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ) ]
theorem main_run (c : Dev nD) : main (F := F) c = Pipeline.Seg.run (segs m ρ) := (main_chain c).trans (by chain_rfl)

set_option backward.isDefEq.respectTransparency.types false in
/-- Every weakly fair execution of the program from memory `m` terminates, nothing faulting, with every unscoped buffer of
    every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)) :=
  (θ_run defs _ _).mono (fun r h c =>
    ⟨(h c _ (mem_uc main_arg0 (by decide))).trans (W10_kept m ρ c main_arg0 (by decide)),
     (h c _ (mem_uc main_arg1 (by decide))).trans (W10_kept m ρ c main_arg1 (by decide)),
     (h c _ (mem_uc main_arg2 (by decide))).trans (W10_kept m ρ c main_arg2 (by decide)),
     (h c _ (mem_uc main_arg3 (by decide))).trans (W10_kept m ρ c main_arg3 (by decide)),
     (h c _ (mem_uc main_arg4 (by decide))).trans (W10_kept m ρ c main_arg4 (by decide)),
     (h c _ (mem_uc main_arg5 (by decide))).trans (W10_kept m ρ c main_arg5 (by decide)),
     (h c _ (mem_uc main_arg6 (by decide))).trans (W10_kept m ρ c main_arg6 (by decide)),
     (h c _ (mem_uc main_arg7 (by decide))).trans (W10_kept m ρ c main_arg7 (by decide)),
     (h c _ (mem_uc main_arg8 (by decide))).trans (W10_kept m ρ c main_arg8 (by decide)),
     (h c _ (mem_uc main_arg9 (by decide))).trans (W10_kept m ρ c main_arg9 (by decide)),
     (h c _ (mem_uc main_arg10 (by decide))).trans (W10_kept m ρ c main_arg10 (by decide)),
     (h c _ (mem_uc main_arg11 (by decide))).trans (W10_kept m ρ c main_arg11 (by decide)),
     (h c _ (mem_uc main_arg12 (by decide))).trans (W10_kept m ρ c main_arg12 (by decide)),
     (h c _ (mem_uc main_arg13 (by decide))).trans (W10_kept m ρ c main_arg13 (by decide)),
     (h c _ (mem_uc main_arg14 (by decide))).trans (W10_kept m ρ c main_arg14 (by decide)),
     (h c _ (mem_uc main_arg15 (by decide))).trans (W10_kept m ρ c main_arg15 (by decide)),
     (h c _ (mem_uc main_arg16 (by decide))).trans (W10_kept m ρ c main_arg16 (by decide)),
     (h c _ (mem_uc main_arg17 (by decide))).trans (W10_kept m ρ c main_arg17 (by decide)),
     (h c _ (mem_uc main_arg18 (by decide))).trans (W10_kept m ρ c main_arg18 (by decide)),
     (h c _ (mem_uc main_arg19 (by decide))).trans (W10_kept m ρ c main_arg19 (by decide)),
     (h c _ (mem_uc main_arg20 (by decide))).trans (W10_kept m ρ c main_arg20 (by decide)),
     (h c _ (mem_uc main_arg21 (by decide))).trans (W10_kept m ρ c main_arg21 (by decide)),
     (h c _ (mem_uc main_arg22 (by decide))).trans (W10_kept m ρ c main_arg22 (by decide)),
     (h c _ (mem_uc main_arg23 (by decide))).trans (W10_kept m ρ c main_arg23 (by decide)),
     (h c _ (mem_uc main_arg24 (by decide))).trans (W10_kept m ρ c main_arg24 (by decide)),
     (h c _ (mem_uc main_arg25 (by decide))).trans (W10_kept m ρ c main_arg25 (by decide)),
     (h c _ (mem_uc main_arg26 (by decide))).trans (W10_kept m ρ c main_arg26 (by decide)),
     (h c _ (mem_uc main_arg27 (by decide))).trans (W10_kept m ρ c main_arg27 (by decide)),
     (h c _ (mem_uc main_arg28 (by decide))).trans (W10_kept m ρ c main_arg28 (by decide))⟩) (run_all m ρ)

end Cert.Kernel.Layers

end
-- ==== Proof.IdealLayer1.lean ====
/-
  Layer 1, x1 = ctx · W1 + b1 : a [1024, 5124] block of ctx times a [5124, 512] block of W1, plus a [1, 512] block of b1.
  One grid point of this pallas_call: the body loads its input blocks whole, computes, and stores the output block whole.
  Stated at any entry contents `V` of the TensorCore's buffers: the block each window holds at a point, what the body
  leaves in the output's staging buffer as a function of the input blocks, the body's triple, and the pipeline's proof
  data with its per-point obligation.
-/
import proofs.«150073_j2164663517985_2_alg».proof.Proof.Gen.KernelIdeal.Launch
import proofs.«150073_j2164663517985_2_alg».proof.Proof.Gen.KernelIdeal.Skeleton
import proofs.«150073_j2164663517985_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rows and columns of its array that the index map selects there. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's staging buffer holds its block at every point, whether the point fetches it or the index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! The whole-block rectangles the body loads and stores through. -/
abbrev r0_0 : Rect S1024x5124 := Rect.unit (s := S1024x5124) ![0, 0] S1024x5124.size inb_S1024x5124_S1024x5124_0_0
abbrev r0_1 : Rect S5124x512 := Rect.unit (s := S5124x512) ![0, 0] S5124x512.size inb_S5124x512_S5124x512_0_0
abbrev r0_2 : Rect S1x512 := Rect.unit (s := S1x512) ![0, 0] S1x512.size inb_S1x512_S1x512_0_0
abbrev r0_3 : Rect S1024x512 := Rect.unit (s := S1024x512) ![0, 0] S1024x512.size inb_S1024x512_S1024x512_0_0

/-- The output block after the body, as a function of the input blocks: one store of the whole block. -/
def out0_3 (x0 : Vec F S1024x5124 .bf16) (x1 : Vec F S5124x512 .bf16) (x2 : Vec F S1x512 .f32) : Vec F S1024x512 .bf16 :=
  View.canon [⟨r0_3, k0_pay1 (View.ld x0 r0_0) (View.ld x1 r0_1) (View.ld x2 r0_2)⟩]

/-- The one store covers the output block. -/
theorem cover0_3 (p0 : Vec F S1024x512 .bf16) (y : S1024x512.Idx) :
    ∃ pc ∈ ([⟨r0_3, p0⟩] : List (View.Piece (Elt F) S1024x512 .bf16)), y ∈ pc.1.set :=
  View.cover_of_tiled [⟨r0_3, p0⟩] S1024x512.size (by rfl) y

set_option maxHeartbeats 1000000 in
/-- The body on whole staging buffers: the inputs end as they were, the output ends at `out0_3` of the inputs. -/
theorem sound_kernel0 (c : Dev nD) (E : Set ℕ) (i : grid0.Coords) (arg0 : Memref sig .tc .vmem S1024x5124 .bf16) (harg0 : arg0.IsWhole) (arg1 : Memref sig .tc .vmem S5124x512 .bf16) (harg1 : arg1.IsWhole) (arg2 : Memref sig .tc .vmem S1x512 .f32) (harg2 : arg2.IsWhole) (arg3 : Memref sig .tc .vmem S1024x512 .bf16) (harg3 : arg3.IsWhole)
    (x0 : Vec F S1024x5124 .bf16) (x1 : Vec F S5124x512 .bf16) (x2 : Vec F S1x512 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out0_3 x0 x1 x2)) -∗ K ⟨⟩))
      ⊢ wp frame (wpE (defs₀ (F := F)) Variants.none c none) E (cc0__linear_kernel i arg0 harg0 arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The pipeline's proof data on core `c`: the arrays as the region finds them; after the body each input's buffer
    still at its block and the output's at `out0_3` of the input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the triple above applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Layers

end
-- ==== Proof.IdealLayer2.lean ====
/-
  Layer 2, x2 = x1 · W2[0:2048] + ctx · W2[2048:7172] + b2 : the weight block's rows split into the part x1 meets and the part ctx meets.
  One grid point of this pallas_call: the body loads its input blocks whole, computes, and stores the output block whole.
  Stated at any entry contents `V` of the TensorCore's buffers: the block each window holds at a point, what the body
  leaves in the output's staging buffer as a function of the input blocks, the body's triple, and the pipeline's proof
  data with its per-point obligation.
-/
import proofs.«150073_j2164663517985_2_alg».proof.Proof.Gen.KernelIdeal.Launch
import proofs.«150073_j2164663517985_2_alg».proof.Proof.Gen.KernelIdeal.Skeleton
import proofs.«150073_j2164663517985_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rows and columns of its array that the index map selects there. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's staging buffer holds its block at every point, whether the point fetches it or the index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! The whole-block rectangles the body loads and stores through. -/
abbrev r1_0 : Rect S1024x2048 := Rect.unit (s := S1024x2048) ![0, 0] S1024x2048.size inb_S1024x2048_S1024x2048_0_0
abbrev r1_1 : Rect S1024x5124 := Rect.unit (s := S1024x5124) ![0, 0] S1024x5124.size inb_S1024x5124_S1024x5124_0_0
abbrev r1_2 : Rect S7172x256 := Rect.unit (s := S7172x256) ![0, 0] S7172x256.size inb_S7172x256_S7172x256_0_0
abbrev r1_3 : Rect S1x256 := Rect.unit (s := S1x256) ![0, 0] S1x256.size inb_S1x256_S1x256_0_0
abbrev r1_4 : Rect S1024x256 := Rect.unit (s := S1024x256) ![0, 0] S1024x256.size inb_S1024x256_S1024x256_0_0

/-- The output block after the body, as a function of the input blocks: one store of the whole block. -/
def out1_4 (x0 : Vec F S1024x2048 .bf16) (x1 : Vec F S1024x5124 .bf16) (x2 : Vec F S7172x256 .bf16) (x3 : Vec F S1x256 .f32) : Vec F S1024x256 .bf16 :=
  View.canon [⟨r1_4, k1_pay1 (View.ld x2 r1_2) (View.ld x0 r1_0) (View.ld x1 r1_1) (View.ld x3 r1_3)⟩]

/-- The one store covers the output block. -/
theorem cover1_4 (p0 : Vec F S1024x256 .bf16) (y : S1024x256.Idx) :
    ∃ pc ∈ ([⟨r1_4, p0⟩] : List (View.Piece (Elt F) S1024x256 .bf16)), y ∈ pc.1.set :=
  View.cover_of_tiled [⟨r1_4, p0⟩] S1024x256.size (by rfl) y

set_option maxHeartbeats 1000000 in
/-- The body on whole staging buffers: the inputs end as they were, the output ends at `out1_4` of the inputs. -/
theorem sound_kernel1 (c : Dev nD) (E : Set ℕ) (i : grid1.Coords) (arg0 : Memref sig .tc .vmem S1024x2048 .bf16) (harg0 : arg0.IsWhole) (arg1 : Memref sig .tc .vmem S1024x5124 .bf16) (harg1 : arg1.IsWhole) (arg2 : Memref sig .tc .vmem S7172x256 .bf16) (harg2 : arg2.IsWhole) (arg3 : Memref sig .tc .vmem S1x256 .f32) (harg3 : arg3.IsWhole) (arg4 : Memref sig .tc .vmem S1024x256 .bf16) (harg4 : arg4.IsWhole)
    (x0 : Vec F S1024x2048 .bf16) (x1 : Vec F S1024x5124 .bf16) (x2 : Vec F S7172x256 .bf16) (x3 : Vec F S1x256 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out1_4 x0 x1 x2 x3)) -∗ K ⟨⟩))
      ⊢ wp frame (wpE (defs₀ (F := F)) Variants.none c none) E (cc1__linear2_kernel i arg0 harg0 arg1 harg1 arg2 harg2 arg3 harg3 arg4 harg4) K := by
  simp only [cc1__linear2_kernel_eq_skeleton]; unfold cc1__linear2_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-- The pipeline's proof data on core `c`: the arrays as the region finds them; after the body each input's buffer
    still at its block and the output's at `out1_4` of the input blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks, so the triple above applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Layers

end
-- ==== Proof.IdealLayer3.lean ====
/-
  Layer 3, x3 = x2 · W3[0:1024] + ctx · W3[1024:6148] + b3.
  One grid point of this pallas_call: the body loads its input blocks whole, computes, and stores the output block whole.
  Stated at any entry contents `V` of the TensorCore's buffers: the block each window holds at a point, what the body
  leaves in the output's staging buffer as a function of the input blocks, the body's triple, and the pipeline's proof
  data with its per-point obligation.
-/
import proofs.«150073_j2164663517985_2_alg».proof.Proof.Gen.KernelIdeal.Launch
import proofs.«150073_j2164663517985_2_alg».proof.Proof.Gen.KernelIdeal.Skeleton
import proofs.«150073_j2164663517985_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rows and columns of its array that the index map selects there. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's staging buffer holds its block at every point, whether the point fetches it or the index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! The whole-block rectangles the body loads and stores through. -/
abbrev r2_0 : Rect S1024x1024 := Rect.unit (s := S1024x1024) ![0, 0] S1024x1024.size inb_S1024x1024_S1024x1024_0_0
abbrev r2_1 : Rect S1024x5124 := Rect.unit (s := S1024x5124) ![0, 0] S1024x5124.size inb_S1024x5124_S1024x5124_0_0
abbrev r2_2 : Rect S6148x256 := Rect.unit (s := S6148x256) ![0, 0] S6148x256.size inb_S6148x256_S6148x256_0_0
abbrev r2_3 : Rect S1x256 := Rect.unit (s := S1x256) ![0, 0] S1x256.size inb_S1x256_S1x256_0_0
abbrev r2_4 : Rect S1024x256 := Rect.unit (s := S1024x256) ![0, 0] S1024x256.size inb_S1024x256_S1024x256_0_0

/-- The output block after the body, as a function of the input blocks: one store of the whole block. -/
def out2_4 (x0 : Vec F S1024x1024 .bf16) (x1 : Vec F S1024x5124 .bf16) (x2 : Vec F S6148x256 .bf16) (x3 : Vec F S1x256 .f32) : Vec F S1024x256 .bf16 :=
  View.canon [⟨r2_4, k2_pay1 (View.ld x2 r2_2) (View.ld x0 r2_0) (View.ld x1 r2_1) (View.ld x3 r2_3)⟩]

/-- The one store covers the output block. -/
theorem cover2_4 (p0 : Vec F S1024x256 .bf16) (y : S1024x256.Idx) :
    ∃ pc ∈ ([⟨r2_4, p0⟩] : List (View.Piece (Elt F) S1024x256 .bf16)), y ∈ pc.1.set :=
  View.cover_of_tiled [⟨r2_4, p0⟩] S1024x256.size (by rfl) y

set_option maxHeartbeats 1000000 in
/-- The body on whole staging buffers: the inputs end as they were, the output ends at `out2_4` of the inputs. -/
theorem sound_kernel2 (c : Dev nD) (E : Set ℕ) (i : grid2.Coords) (arg0 : Memref sig .tc .vmem S1024x1024 .bf16) (harg0 : arg0.IsWhole) (arg1 : Memref sig .tc .vmem S1024x5124 .bf16) (harg1 : arg1.IsWhole) (arg2 : Memref sig .tc .vmem S6148x256 .bf16) (harg2 : arg2.IsWhole) (arg3 : Memref sig .tc .vmem S1x256 .f32) (harg3 : arg3.IsWhole) (arg4 : Memref sig .tc .vmem S1024x256 .bf16) (harg4 : arg4.IsWhole)
    (x0 : Vec F S1024x1024 .bf16) (x1 : Vec F S1024x5124 .bf16) (x2 : Vec F S6148x256 .bf16) (x3 : Vec F S1x256 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out2_4 x0 x1 x2 x3)) -∗ K ⟨⟩))
      ⊢ wp frame (wpE (defs₀ (F := F)) Variants.none c none) E (cc2__linear2_kernel i arg0 harg0 arg1 harg1 arg2 harg2 arg3 harg3 arg4 harg4) K := by
  simp only [cc2__linear2_kernel_eq_skeleton]; unfold cc2__linear2_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-- The pipeline's proof data on core `c`: the arrays as the region finds them; after the body each input's buffer
    still at its block and the output's at `out2_4` of the input blocks; nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' buffers hold their blocks, so the triple above applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Layers

end
-- ==== Proof.IdealLayer4.lean ====
/-
  Layer 4, x4 = x3 · W4[0:1024] + ctx · W4[1024:6148] + b4.
  One grid point of this pallas_call: the body loads its input blocks whole, computes, and stores the output block whole.
  Stated at any entry contents `V` of the TensorCore's buffers: the block each window holds at a point, what the body
  leaves in the output's staging buffer as a function of the input blocks, the body's triple, and the pipeline's proof
  data with its per-point obligation.
-/
import proofs.«150073_j2164663517985_2_alg».proof.Proof.Gen.KernelIdeal.Launch
import proofs.«150073_j2164663517985_2_alg».proof.Proof.Gen.KernelIdeal.Skeleton
import proofs.«150073_j2164663517985_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rows and columns of its array that the index map selects there. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! An input window's staging buffer holds its block at every point, whether the point fetches it or the index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! The whole-block rectangles the body loads and stores through. -/
abbrev r3_0 : Rect S1024x1024 := Rect.unit (s := S1024x1024) ![0, 0] S1024x1024.size inb_S1024x1024_S1024x1024_0_0
abbrev r3_1 : Rect S1024x5124 := Rect.unit (s := S1024x5124) ![0, 0] S1024x5124.size inb_S1024x5124_S1024x5124_0_0
abbrev r3_2 : Rect S6148x256 := Rect.unit (s := S6148x256) ![0, 0] S6148x256.size inb_S6148x256_S6148x256_0_0
abbrev r3_3 : Rect S1x256 := Rect.unit (s := S1x256) ![0, 0] S1x256.size inb_S1x256_S1x256_0_0
abbrev r3_4 : Rect S1024x256 := Rect.unit (s := S1024x256) ![0, 0] S1024x256.size inb_S1024x256_S1024x256_0_0

/-- The output block after the body, as a function of the input blocks: one store of the whole block. -/
def out3_4 (x0 : Vec F S1024x1024 .bf16) (x1 : Vec F S1024x5124 .bf16) (x2 : Vec F S6148x256 .bf16) (x3 : Vec F S1x256 .f32) : Vec F S1024x256 .bf16 :=
  View.canon [⟨r3_4, k3_pay1 (View.ld x2 r3_2) (View.ld x0 r3_0) (View.ld x1 r3_1) (View.ld x3 r3_3)⟩]

/-- The one store covers the output block. -/
theorem cover3_4 (p0 : Vec F S1024x256 .bf16) (y : S1024x256.Idx) :
    ∃ pc ∈ ([⟨r3_4, p0⟩] : List (View.Piece (Elt F) S1024x256 .bf16)), y ∈ pc.1.set :=
  View.cover_of_tiled [⟨r3_4, p0⟩] S1024x256.size (by rfl) y

set_option maxHeartbeats 1000000 in
/-- The body on whole staging buffers: the inputs end as they were, the output ends at `out3_4` of the inputs. -/
theorem sound_kernel3 (c : Dev nD) (E : Set ℕ) (i : grid3.Coords) (arg0 : Memref sig .tc .vmem S1024x1024 .bf16) (harg0 : arg0.IsWhole) (arg1 : Memref sig .tc .vmem S1024x5124 .bf16) (harg1 : arg1.IsWhole) (arg2 : Memref sig .tc .vmem S6148x256 .bf16) (harg2 : arg2.IsWhole) (arg3 : Memref sig .tc .vmem S1x256 .f32) (harg3 : arg3.IsWhole) (arg4 : Memref sig .tc .vmem S1024x256 .bf16) (harg4 : arg4.IsWhole)
    (x0 : Vec F S1024x1024 .bf16) (x1 : Vec F S1024x5124 .bf16) (x2 : Vec F S6148x256 .bf16) (x3 : Vec F S1x256 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out3_4 x0 x1 x2 x3)) -∗ K ⟨⟩))
      ⊢ wp frame (wpE (defs₀ (F := F)) Variants.none c none) E (cc3__linear2_kernel i arg0 harg0 arg1 harg1 arg2 harg2 arg3 harg3 arg4 harg4) K := by
  simp only [cc3__linear2_kernel_eq_skeleton]; unfold cc3__linear2_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-- The pipeline's proof data on core `c`: the arrays as the region finds them; after the body each input's buffer
    still at its block and the output's at `out3_4` of the input blocks; nothing owed, full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' buffers hold their blocks, so the triple above applies. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Layers

end
-- ==== Proof.IdealLayer5.lean ====
/-
  Layer 5, out = x4 · W5 + b5.
  One grid point of this pallas_call: the body loads its input blocks whole, computes, and stores the output block whole.
  Stated at any entry contents `V` of the TensorCore's buffers: the block each window holds at a point, what the body
  leaves in the output's staging buffer as a function of the input blocks, the body's triple, and the pipeline's proof
  data with its per-point obligation.
-/
import proofs.«150073_j2164663517985_2_alg».proof.Proof.Gen.KernelIdeal.Launch
import proofs.«150073_j2164663517985_2_alg».proof.Proof.Gen.KernelIdeal.Skeleton
import proofs.«150073_j2164663517985_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rows and columns of its array that the index map selects there. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! An input window's staging buffer holds its block at every point, whether the point fetches it or the index has not moved. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! The whole-block rectangles the body loads and stores through. -/
abbrev r4_0 : Rect S1024x512 := Rect.unit (s := S1024x512) ![0, 0] S1024x512.size inb_S1024x512_S1024x512_0_0
abbrev r4_1 : Rect S512x512 := Rect.unit (s := S512x512) ![0, 0] S512x512.size inb_S512x512_S512x512_0_0
abbrev r4_2 : Rect S1x512 := Rect.unit (s := S1x512) ![0, 0] S1x512.size inb_S1x512_S1x512_0_0
abbrev r4_3 : Rect S1024x512 := Rect.unit (s := S1024x512) ![0, 0] S1024x512.size inb_S1024x512_S1024x512_0_0

/-- The output block after the body, as a function of the input blocks: one store of the whole block. -/
def out4_3 (x0 : Vec F S1024x512 .bf16) (x1 : Vec F S512x512 .bf16) (x2 : Vec F S1x512 .f32) : Vec F S1024x512 .f32 :=
  View.canon [⟨r4_3, k4_pay1 (View.ld x0 r4_0) (View.ld x1 r4_1) (View.ld x2 r4_2)⟩]

/-- The one store covers the output block. -/
theorem cover4_3 (p0 : Vec F S1024x512 .f32) (y : S1024x512.Idx) :
    ∃ pc ∈ ([⟨r4_3, p0⟩] : List (View.Piece (Elt F) S1024x512 .f32)), y ∈ pc.1.set :=
  View.cover_of_tiled [⟨r4_3, p0⟩] S1024x512.size (by rfl) y

set_option maxHeartbeats 1000000 in
/-- The body on whole staging buffers: the inputs end as they were, the output ends at `out4_3` of the inputs. -/
theorem sound_kernel4 (c : Dev nD) (E : Set ℕ) (i : grid4.Coords) (arg0 : Memref sig .tc .vmem S1024x512 .bf16) (harg0 : arg0.IsWhole) (arg1 : Memref sig .tc .vmem S512x512 .bf16) (harg1 : arg1.IsWhole) (arg2 : Memref sig .tc .vmem S1x512 .f32) (harg2 : arg2.IsWhole) (arg3 : Memref sig .tc .vmem S1024x512 .f32) (harg3 : arg3.IsWhole)
    (x0 : Vec F S1024x512 .bf16) (x1 : Vec F S512x512 .bf16) (x2 : Vec F S1x512 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out4_3 x0 x1 x2)) -∗ K ⟨⟩))
      ⊢ wp frame (wpE (defs₀ (F := F)) Variants.none c none) E (cc4__linear_kernel i arg0 harg0 arg1 harg1 arg2 harg2 arg3 harg3) K := by
  simp only [cc4__linear_kernel_eq_skeleton]; unfold cc4__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-- The pipeline's proof data on core `c`: the arrays as the region finds them; after the body each input's buffer
    still at its block and the output's at `out4_3` of the input blocks; nothing owed, full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' buffers hold their blocks, so the triple above applies. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Layers

end
-- ==== Proof.IdealRun.lean ====
/-
  The whole program as ten segments: before each pallas_call a stretch of host operations (the concatenation of the three
  context inputs and the casts of the weights and biases), then the call. The contents of the TensorCore's buffers at
  each boundary are a fold from the launch memory: a host stretch applies its operations; a call leaves its input arrays
  as entered and its output array at what the per-point write-backs fold to. Every weakly fair execution ends with every
  unscoped buffer at the last boundary's contents; an argument array is written by nothing, so it ends as launched.
-/
import proofs.«150073_j2164663517985_2_alg».proof.Proof.Gen.KernelIdeal.Regions
import proofs.«150073_j2164663517985_2_alg».proof.Proof.IdealLayer1
import proofs.«150073_j2164663517985_2_alg».proof.Proof.IdealLayer2
import proofs.«150073_j2164663517985_2_alg».proof.Proof.IdealLayer3
import proofs.«150073_j2164663517985_2_alg».proof.Proof.IdealLayer4
import proofs.«150073_j2164663517985_2_alg».proof.Proof.IdealLayer5

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the host stretch before layer 1's call. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After layer 1's call: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch before layer 2's call. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After layer 2's call: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host stretch before layer 3's call. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- After layer 3's call: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the host stretch before layer 4's call. -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
/-- After layer 4's call: its arrays at what the pipeline leaves, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After the host stretch before layer 5's call. -/
abbrev W9 : Dev nD → Valuation τ sig (Elt F) := fun c => StableHlo.after hostOps4 (W8 m ρ c)
abbrev V9 : (c : Dev nD) → (b : Ref sig .tc) → Buf (Elt F) ((c : Thread nD τ).loc b) := fun c b => W9 m ρ c b
/-- After layer 5's call: its arrays at what the pipeline leaves, every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

/-! ## What nothing writes ends as launched -/

/-- The buffers some host operation or some call's output writes: the intermediates. -/
abbrev written : List (Ref sig .tc) := [main_v0, main_v1, main_v2, main_v3, main_v4, main_v5, main_v6, main_v7, main_v8, main_v9, main_v10, main_v11, main_v12, main_v13, main_v14, main_v15, main_v16]
theorem arrs0_written : ∀ w : Fin 4, Pipeline.arrRef spec0 w ∈ (written : List (Ref sig .tc)) := by decide
theorem hostW0_written : ∀ x ∈ (hostOps0_W : List (Ref sig .tc)), x ∈ (written : List (Ref sig .tc)) := by decide
theorem arrs1_written : ∀ w : Fin 5, Pipeline.arrRef spec1 w ∈ (written : List (Ref sig .tc)) := by decide
theorem hostW1_written : ∀ x ∈ (hostOps1_W : List (Ref sig .tc)), x ∈ (written : List (Ref sig .tc)) := by decide
theorem arrs2_written : ∀ w : Fin 5, Pipeline.arrRef spec2 w ∈ (written : List (Ref sig .tc)) := by decide
theorem hostW2_written : ∀ x ∈ (hostOps2_W : List (Ref sig .tc)), x ∈ (written : List (Ref sig .tc)) := by decide
theorem arrs3_written : ∀ w : Fin 5, Pipeline.arrRef spec3 w ∈ (written : List (Ref sig .tc)) := by decide
theorem hostW3_written : ∀ x ∈ (hostOps3_W : List (Ref sig .tc)), x ∈ (written : List (Ref sig .tc)) := by decide
theorem arrs4_written : ∀ w : Fin 4, Pipeline.arrRef spec4 w ∈ (written : List (Ref sig .tc)) := by decide
theorem hostW4_written : ∀ x ∈ (hostOps4_W : List (Ref sig .tc)), x ∈ (written : List (Ref sig .tc)) := by decide

/-- A buffer that is no intermediate holds its launch contents at the end: each boundary's contents walk back to the launch memory. -/
theorem W10_kept (c : Dev nD) (r : Ref sig .tc) (h : r ∉ (written : List (Ref sig .tc))) :
    W10 m ρ c (Proc.devRef .tc r) = m ((c : Thread nD τ).loc r) :=
  calc W10 m ρ c (Proc.devRef .tc r)
    _ = W9 m ρ c (Proc.devRef .tc r) := W10_of_ne m ρ c r (fun w e => h (e ▸ arrs4_written w))
    _ = W8 m ρ c (Proc.devRef .tc r) := StableHlo.after_of_writes_sub hostOps4 _ hostOps4_writes (fun hm => h (hostW4_written _ hm))
    _ = W7 m ρ c (Proc.devRef .tc r) := W8_of_ne m ρ c r (fun w e => h (e ▸ arrs3_written w))
    _ = W6 m ρ c (Proc.devRef .tc r) := StableHlo.after_of_writes_sub hostOps3 _ hostOps3_writes (fun hm => h (hostW3_written _ hm))
    _ = W5 m ρ c (Proc.devRef .tc r) := W6_of_ne m ρ c r (fun w e => h (e ▸ arrs2_written w))
    _ = W4 m ρ c (Proc.devRef .tc r) := StableHlo.after_of_writes_sub hostOps2 _ hostOps2_writes (fun hm => h (hostW2_written _ hm))
    _ = W3 m ρ c (Proc.devRef .tc r) := W4_of_ne m ρ c r (fun w e => h (e ▸ arrs1_written w))
    _ = W2 m ρ c (Proc.devRef .tc r) := StableHlo.after_of_writes_sub hostOps1 _ hostOps1_writes (fun hm => h (hostW1_written _ hm))
    _ = W1 m ρ c (Proc.devRef .tc r) := W2_of_ne m ρ c r (fun w e => h (e ▸ arrs0_written w))
    _ = W0 m ρ c (Proc.devRef .tc r) := StableHlo.after_of_writes_sub hostOps0 _ hostOps0_writes (fun hm => h (hostW0_written _ hm))
    _ = m ((c : Thread nD τ).loc r) := rfl

/-! ## The proof data family and the thread state -/

abbrev adm : (p : Fin 5) → (pcfgs (F := F) p).Adm := fun p => (cfgs p).toPCfg_adm
/-- Every pipeline's proof data, each at its call's entry contents. -/
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W10 m ρ c) ∗ ∃ r, prngReg c r)

/-! ## The calls as segments -/

set_option backward.isDefEq.respectTransparency.types false in
/-- Layer 1's call over the thread state: entered with every unscoped buffer at `W1`, left at `W2`. Its arrays are
    split out of the unscoped buffers at entry and put back at the exit contents. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 2's call over the thread state: entered with every unscoped buffer at `W3`, left at `W4`. Its arrays are
    split out of the unscoped buffers at entry and put back at the exit contents. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 3's call over the thread state: entered with every unscoped buffer at `W5`, left at `W6`. Its arrays are
    split out of the unscoped buffers at entry and put back at the exit contents. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 4's call over the thread state: entered with every unscoped buffer at `W7`, left at `W8`. Its arrays are
    split out of the unscoped buffers at entry and put back at the exit contents. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 5's call over the thread state: entered with every unscoped buffer at `W9`, left at `W10`. Its arrays are
    split out of the unscoped buffers at entry and put back at the exit contents. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and its run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ) ]
theorem main_run (c : Dev nD) : main (F := F) c = Pipeline.Seg.run (segs m ρ) := (main_chain c).trans (by chain_rfl)

set_option backward.isDefEq.respectTransparency.types false in
/-- Every weakly fair execution of the program from memory `m` terminates, nothing faulting, with every unscoped buffer of
    every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)) :=
  (θ_run defs _ _).mono (fun r h c =>
    ⟨(h c _ (mem_uc main_arg0 (by decide))).trans (W10_kept m ρ c main_arg0 (by decide)),
     (h c _ (mem_uc main_arg1 (by decide))).trans (W10_kept m ρ c main_arg1 (by decide)),
     (h c _ (mem_uc main_arg2 (by decide))).trans (W10_kept m ρ c main_arg2 (by decide)),
     (h c _ (mem_uc main_arg3 (by decide))).trans (W10_kept m ρ c main_arg3 (by decide)),
     (h c _ (mem_uc main_arg4 (by decide))).trans (W10_kept m ρ c main_arg4 (by decide)),
     (h c _ (mem_uc main_arg5 (by decide))).trans (W10_kept m ρ c main_arg5 (by decide)),
     (h c _ (mem_uc main_arg6 (by decide))).trans (W10_kept m ρ c main_arg6 (by decide)),
     (h c _ (mem_uc main_arg7 (by decide))).trans (W10_kept m ρ c main_arg7 (by decide)),
     (h c _ (mem_uc main_arg8 (by decide))).trans (W10_kept m ρ c main_arg8 (by decide)),
     (h c _ (mem_uc main_arg9 (by decide))).trans (W10_kept m ρ c main_arg9 (by decide)),
     (h c _ (mem_uc main_arg10 (by decide))).trans (W10_kept m ρ c main_arg10 (by decide)),
     (h c _ (mem_uc main_arg11 (by decide))).trans (W10_kept m ρ c main_arg11 (by decide)),
     (h c _ (mem_uc main_arg12 (by decide))).trans (W10_kept m ρ c main_arg12 (by decide)),
     (h c _ (mem_uc main_arg13 (by decide))).trans (W10_kept m ρ c main_arg13 (by decide)),
     (h c _ (mem_uc main_arg14 (by decide))).trans (W10_kept m ρ c main_arg14 (by decide)),
     (h c _ (mem_uc main_arg15 (by decide))).trans (W10_kept m ρ c main_arg15 (by decide)),
     (h c _ (mem_uc main_arg16 (by decide))).trans (W10_kept m ρ c main_arg16 (by decide)),
     (h c _ (mem_uc main_arg17 (by decide))).trans (W10_kept m ρ c main_arg17 (by decide)),
     (h c _ (mem_uc main_arg18 (by decide))).trans (W10_kept m ρ c main_arg18 (by decide)),
     (h c _ (mem_uc main_arg19 (by decide))).trans (W10_kept m ρ c main_arg19 (by decide)),
     (h c _ (mem_uc main_arg20 (by decide))).trans (W10_kept m ρ c main_arg20 (by decide)),
     (h c _ (mem_uc main_arg21 (by decide))).trans (W10_kept m ρ c main_arg21 (by decide)),
     (h c _ (mem_uc main_arg22 (by decide))).trans (W10_kept m ρ c main_arg22 (by decide)),
     (h c _ (mem_uc main_arg23 (by decide))).trans (W10_kept m ρ c main_arg23 (by decide)),
     (h c _ (mem_uc main_arg24 (by decide))).trans (W10_kept m ρ c main_arg24 (by decide)),
     (h c _ (mem_uc main_arg25 (by decide))).trans (W10_kept m ρ c main_arg25 (by decide)),
     (h c _ (mem_uc main_arg26 (by decide))).trans (W10_kept m ρ c main_arg26 (by decide)),
     (h c _ (mem_uc main_arg27 (by decide))).trans (W10_kept m ρ c main_arg27 (by decide)),
     (h c _ (mem_uc main_arg28 (by decide))).trans (W10_kept m ρ c main_arg28 (by decide))⟩) (run_all m ρ)

end Cert.KernelIdeal.Layers

end
-- ==== Proof.LibContract1.lean ====
/-
  A matrix product whose dimension numbers contract ONE axis, read at a result index at the ideal values, for any
  dimension record: the kernel's `tpu.matmul` into the zero accumulator and the host's `dot_general` are both the sum,
  over that axis's coordinate `k : Fin n`, of the operands' products, each operand read at an index the caller NAMES
  (`L k`, `R k`) and proves to be where the record sends the result index and `k`. The caller's two obligations are
  per-axis facts about `DotDims.lhsIdx` / `rhsIdx` (`DotDims.lhsIdx_val_of_single` on the contracted axis, two `dif`
  rewrites on a kept one); everything else — opening the product, re-indexing the contraction shape's one-axis index by
  `Fin n` — is done here once.
-/
import Idealize.ShloMosaic.PureOps.Ideal.Laws
import Idealize.ShloMosaic.Lib.ValueIdx

noncomputable section

namespace Cert.LibContract1

open Idealize.ShloMosaic Idealize.ShloMosaic.ValueIdx

/-- A `tpu.matmul` into the f32 zero splat, one contracted axis of extent `n`: at `j` it is `∑ k, lhs (L k) · rhs (R k)`. -/
theorem matmul_zero_single {sl sr so : Shape} {φ₁ φ₂ : FTy} (d : DotDims sl sr so) (n : ℕ) (hr : d.contr.rank = 1)
    (hs : d.contr.size ⟨0, by omega⟩ = n) (lhs : FVec Ideal sl φ₁) (rhs : FVec Ideal sr φ₂) (j : so.Idx)
    (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    matmul d none lhs rhs (constant (F := Ideal) so .f32 0x00000000#32) j = ∑ k : Fin n, lhs (L k) * rhs (R k) := by
  simp only [matmul]
  rw [Ideal.matmul_constant_zero_apply, ← Equiv.sum_comp (contrEquiv1 d n hr hs).symm]
  exact Finset.sum_congr rfl fun k _ => by rw [hL k, hR k]

/-- The host's `dot_general`, one contracted axis of extent `n`: at `j` it is `∑ k, lhs (L k) · rhs (R k)`. -/
theorem dotGeneral_single {sl sr so : Shape} {φ₁ φ₂ : FTy} (d : DotDims sl sr so) (n : ℕ) (hr : d.contr.rank = 1)
    (hs : d.contr.size ⟨0, by omega⟩ = n) (lhs : FVec Ideal sl φ₁) (rhs : FVec Ideal sr φ₂) (j : so.Idx)
    (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    Host.dotGeneral d none lhs rhs j = ∑ k : Fin n, lhs (L k) * rhs (R k) := by
  simp only [Host.dotGeneral]
  rw [Ideal.dotGeneral_apply, ← Equiv.sum_comp (contrEquiv1 d n hr hs).symm]
  exact Finset.sum_congr rfl fun k _ => by rw [hL k, hR k]

end Cert.LibContract1

end
-- ==== Proof.LibMatRows.lean ====
/-
  A plain matrix product of an `[a, k]` array with a `[k, n]` array, contracted over the shared axis of extent `k`, read
  at the result's entry `(p, c)` at the ideal values: the sum over `j : Fin k` of `lhs (p, j) * rhs (j, c)` — for the
  kernel's `tpu.matmul` into the zero accumulator and for the host's `dot_general` alike.

  It holds for ANY dimension record between those three shapes that says what a plain product says (`RowsTimesMat`): one
  contracted axis of extent `k`; the left operand read at the result's row and the contracted coordinate; the right operand
  at the contracted coordinate and the result's column. For a printed record the six facts are `rfl`, `rfl`,
  `DotDims.lhsIdx_val_of_single rfl` / `rhsIdx_val_of_single rfl` on the contracted axes, and two `dif` rewrites (not a
  batch axis, a kept axis) on the kept ones.
-/
import proofs.«150073_j2164663517985_2_alg».proof.Proof.LibContract1
import Idealize.ShloMosaic.PureOps.Ideal.Laws
import Idealize.ShloMosaic.Lib.ValueIdx

noncomputable section

namespace Cert.LibMatRows

open Idealize.ShloMosaic Idealize.ShloMosaic.ValueIdx

/-- What a dimension record between `[a, k]`, `[k, n]` and `[a, n]` must say to be a plain product. -/
structure RowsTimesMat {a k n : ℕ} (d : DotDims ⟨2, ![a, k]⟩ ⟨2, ![k, n]⟩ ⟨2, ![a, n]⟩) : Prop where
  rank : d.contr.rank = 1
  size : d.contr.size ⟨0, by omega⟩ = k
  l0 : ∀ (i : (⟨2, ![a, n]⟩ : Shape).Idx) (q : d.contr.Idx), (d.lhsIdx i q 0).val = (i 0).val
  l1 : ∀ (i : (⟨2, ![a, n]⟩ : Shape).Idx) (q : d.contr.Idx), (d.lhsIdx i q 1).val = (q ⟨0, by omega⟩).val
  r0 : ∀ (i : (⟨2, ![a, n]⟩ : Shape).Idx) (q : d.contr.Idx), (d.rhsIdx i q 0).val = (q ⟨0, by omega⟩).val
  r1 : ∀ (i : (⟨2, ![a, n]⟩ : Shape).Idx) (q : d.contr.Idx), (d.rhsIdx i q 1).val = (i 1).val

variable {a k n : ℕ} {d : DotDims ⟨2, ![a, k]⟩ ⟨2, ![k, n]⟩ ⟨2, ![a, n]⟩}

/-- The left operand's index at result entry `(p, c)` and contracted coordinate `j` is `(p, j)`. -/
theorem RowsTimesMat.lhsIdx_eq (hd : RowsTimesMat d) (p : Fin a) (c : Fin n) (j : Fin k) :
    d.lhsIdx (ix2 p c) ((contrEquiv1 d k hd.rank hd.size).symm j) = ix2 p j :=
  funext fun ax => Fin.ext (by
    match ax with
    | ⟨0, _⟩ => exact hd.l0 _ _
    | ⟨1, _⟩ => exact (hd.l1 _ _).trans (contrEquiv1_symm_val d k hd.rank hd.size j))

/-- The right operand's index at result entry `(p, c)` and contracted coordinate `j` is `(j, c)`. -/
theorem RowsTimesMat.rhsIdx_eq (hd : RowsTimesMat d) (p : Fin a) (c : Fin n) (j : Fin k) :
    d.rhsIdx (ix2 p c) ((contrEquiv1 d k hd.rank hd.size).symm j) = ix2 j c :=
  funext fun ax => Fin.ext (by
    match ax with
    | ⟨0, _⟩ => exact (hd.r0 _ _).trans (contrEquiv1_symm_val d k hd.rank hd.size j)
    | ⟨1, _⟩ => exact hd.r1 _ _)

/-- The kernel's product into the zero accumulator at `(p, c)`. -/
theorem matmul_rows {φ₁ φ₂ : FTy} (hd : RowsTimesMat d) (lhs : FVec Ideal ⟨2, ![a, k]⟩ φ₁) (rhs : FVec Ideal ⟨2, ![k, n]⟩ φ₂)
    (p : Fin a) (c : Fin n) :
    matmul d none lhs rhs (constant (F := Ideal) ⟨2, ![a, n]⟩ .f32 0x00000000#32) (ix2 p c) = ∑ j : Fin k, lhs (ix2 p j) * rhs (ix2 j c) :=
  LibContract1.matmul_zero_single d k hd.rank hd.size lhs rhs (ix2 p c) (fun j => ix2 p j) (fun j => ix2 j c)
    (hd.lhsIdx_eq p c) (hd.rhsIdx_eq p c)

/-- The host's product at `(p, c)`. -/
theorem dotGeneral_rows {φ₁ φ₂ : FTy} (hd : RowsTimesMat d) (lhs : FVec Ideal ⟨2, ![a, k]⟩ φ₁) (rhs : FVec Ideal ⟨2, ![k, n]⟩ φ₂)
    (p : Fin a) (c : Fin n) :
    Host.dotGeneral d none lhs rhs (ix2 p c) = ∑ j : Fin k, lhs (ix2 p j) * rhs (ix2 j c) :=
  LibContract1.dotGeneral_single d k hd.rank hd.size lhs rhs (ix2 p c) (fun j => ix2 p j) (fun j => ix2 j c)
    (hd.lhsIdx_eq p c) (hd.rhsIdx_eq p c)

end Cert.LibMatRows

end
-- ==== Proof.LibHostBroadcast.lean ====
/-
  The host's `broadcast_in_dim` in its four keepdims forms, read at an entry: a vector `[a]` as a column `[a, 1]`, a
  column `[a, 1]` spread over `b` lanes, a vector `[c]` as a row `[1, c]`, and a row `[1, c]` spread down `a` rows.
-/
import Idealize.ShloMosaic.Lib.Pipeline.Value
import Idealize.ShloMosaic.Lib.ValueIdx

noncomputable section

namespace Cert.LibHostBroadcast

open Idealize.ShloMosaic Idealize.ShloMosaic.ValueIdx

variable {α : Type}

/-- A vector `[a]` broadcast along axis 0 to the column `[a, 1]` reads, at `(i, u)`, the vector at `i`. -/
theorem vec_to_col_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ (![0] : Fin 1 → Fin 2) h x (ix2 i u) = x (ix1 i) :=
  broadcastInDim_apply _ h x (ix2 i u) (ix1 i) fun ax => by
    match ax with
    | ⟨0, _⟩ =>
      show i.val = if a = 1 then 0 else i.val
      split
      · have := i.isLt; omega
      · rfl

/-- A column `[a, 1]` broadcast to `[a, b]` reads, at `(i, j)`, the column at `(i, 0)`. -/
theorem col_to_mat_apply {a b : ℕ} (x : (⟨2, ![a, 1]⟩ : Shape).Idx → α)
    (h : (⟨2, ![a, 1]⟩ : Shape).BroadcastsInDim ⟨2, ![a, b]⟩ (![0, 1] : Fin 2 → Fin 2)) (i : Fin a) (j : Fin b) :
    broadcastInDim ⟨2, ![a, b]⟩ (![0, 1] : Fin 2 → Fin 2) h x (ix2 i j) = x (ix2 i (0 : Fin 1)) :=
  broadcastInDim_apply _ h x (ix2 i j) (ix2 i (0 : Fin 1)) fun ax => by
    match ax with
    | ⟨0, _⟩ =>
      show i.val = if a = 1 then 0 else i.val
      split
      · have := i.isLt; omega
      · rfl
    | ⟨1, _⟩ =>
      show 0 = if (1 : ℕ) = 1 then 0 else j.val
      rw [if_pos rfl]

/-- A vector `[c]` broadcast along axis 1 to the row `[1, c]` reads, at `(u, j)`, the vector at `j`. -/
theorem vec_to_row_apply {c : ℕ} (x : (⟨1, ![c]⟩ : Shape).Idx → α)
    (h : (⟨1, ![c]⟩ : Shape).BroadcastsInDim ⟨2, ![1, c]⟩ (![1] : Fin 1 → Fin 2)) (u : Fin 1) (j : Fin c) :
    broadcastInDim ⟨2, ![1, c]⟩ (![1] : Fin 1 → Fin 2) h x (ix2 u j) = x (ix1 j) :=
  broadcastInDim_apply _ h x (ix2 u j) (ix1 j) fun ax => by
    match ax with
    | ⟨0, _⟩ =>
      show j.val = if c = 1 then 0 else j.val
      split
      · have := j.isLt; omega
      · rfl

/-- A row `[1, c]` broadcast to `[a, c]` reads, at `(i, j)`, the row at `(0, j)`. -/
theorem row_to_mat_apply {a c : ℕ} (x : (⟨2, ![1, c]⟩ : Shape).Idx → α)
    (h : (⟨2, ![1, c]⟩ : Shape).BroadcastsInDim ⟨2, ![a, c]⟩ (![0, 1] : Fin 2 → Fin 2)) (i : Fin a) (j : Fin c) :
    broadcastInDim ⟨2, ![a, c]⟩ (![0, 1] : Fin 2 → Fin 2) h x (ix2 i j) = x (ix2 (0 : Fin 1) j) :=
  broadcastInDim_apply _ h x (ix2 i j) (ix2 (0 : Fin 1) j) fun ax => by
    match ax with
    | ⟨0, _⟩ =>
      show 0 = if (1 : ℕ) = 1 then 0 else i.val
      rw [if_pos rfl]
    | ⟨1, _⟩ =>
      show j.val = if c = 1 then 0 else j.val
      split
      · have := j.isLt; omega
      · rfl

end Cert.LibHostBroadcast

end
-- ==== Proof.LibDenseLayers.lean ====
/-
  Dense layers as functions of whole arrays over the extended reals, for any extents, and how a kernel and a host program
  each compute an entry: general lemmas.

  `dense x w b` is `x · w + b`: entry (p, q) is the sum over j of x(p, j) · w(j, q), plus the bias row's entry q.
  `dense2 x₁ x₂ w b` multiplies the rows of `w` below `k₁` with `x₁` and the rows from `k₁` on with `x₂`:
  entry (p, q) is  Σ_{j<k₁} x₁(p, j) · w(j, q)  +  Σ_{j<k₂} x₂(p, j) · w(k₁ + j, q),  plus the bias.
  The kernel computes exactly these (two matrix products into zero accumulators, on the two row ranges of the weight
  block, then the broadcast bias row). The reference concatenates `x₁` and `x₂` along the columns and takes ONE product
  over all k₁ + k₂ columns: a sum over `Fin (k₁ + k₂)` splits into its first k₁ and last k₂ terms — additivity of a
  finite sum over a disjoint union, which holds in any commutative monoid, so no finiteness of the entries is needed.
-/
import proofs.«150073_j2164663517985_2_alg».proof.Proof.LibMatRows
import proofs.«150073_j2164663517985_2_alg».proof.Proof.LibHostBroadcast
import Idealize.ShloMosaic.Lib.ValueLayout
import Idealize.ShloMosaic.Lib.Pipeline.Value
import Idealize.ShloMosaic.Lib.ValueIdx
import Idealize.ShloMosaic.PureOps.Ideal.Laws

noncomputable section

namespace Cert.LibDenseLayers

open Idealize.ShloMosaic Idealize.ShloMosaic.ValueIdx Cert.LibMatRows Cert.LibHostBroadcast

variable {a k k1 k2 n : ℕ}

/-! ## The layers -/

/-- Entry (p, q) of `x · w + b`. -/
def denseAt (x : (⟨2, ![a, k]⟩ : Shape).Idx → EReal) (w : (⟨2, ![k, n]⟩ : Shape).Idx → EReal)
    (b : (⟨2, ![1, n]⟩ : Shape).Idx → EReal) (p : Fin a) (q : Fin n) : EReal :=
  (∑ j : Fin k, x (ix2 p j) * w (ix2 j q)) + b (ix2 (0 : Fin 1) q)

/-- `x · w + b` as one array. -/
def dense (x : (⟨2, ![a, k]⟩ : Shape).Idx → EReal) (w : (⟨2, ![k, n]⟩ : Shape).Idx → EReal)
    (b : (⟨2, ![1, n]⟩ : Shape).Idx → EReal) : (⟨2, ![a, n]⟩ : Shape).Idx → EReal :=
  fun i => denseAt x w b (i 0) (i 1)

/-- Entry (p, q) of `x₁ · w[0:k₁] + x₂ · w[k₁:k] + b`. -/
def dense2At (hk : k1 + k2 = k) (x1 : (⟨2, ![a, k1]⟩ : Shape).Idx → EReal) (x2 : (⟨2, ![a, k2]⟩ : Shape).Idx → EReal)
    (w : (⟨2, ![k, n]⟩ : Shape).Idx → EReal) (b : (⟨2, ![1, n]⟩ : Shape).Idx → EReal) (p : Fin a) (q : Fin n) : EReal :=
  ((∑ j : Fin k1, x1 (ix2 p j) * w (ix2 (⟨j.val, by have := j.isLt; omega⟩ : Fin k) q))
    + (∑ j : Fin k2, x2 (ix2 p j) * w (ix2 (⟨k1 + j.val, by have := j.isLt; omega⟩ : Fin k) q)))
    + b (ix2 (0 : Fin 1) q)

/-- `x₁ · w[0:k₁] + x₂ · w[k₁:k] + b` as one array. -/
def dense2 (hk : k1 + k2 = k) (x1 : (⟨2, ![a, k1]⟩ : Shape).Idx → EReal) (x2 : (⟨2, ![a, k2]⟩ : Shape).Idx → EReal)
    (w : (⟨2, ![k, n]⟩ : Shape).Idx → EReal) (b : (⟨2, ![1, n]⟩ : Shape).Idx → EReal) : (⟨2, ![a, n]⟩ : Shape).Idx → EReal :=
  fun i => dense2At hk x1 x2 w b (i 0) (i 1)

/-- Two entries of two dense layers agree when the rows, the columns and the bias entries they read agree. -/
theorem denseAt_congr {a' n' : ℕ} {x : (⟨2, ![a, k]⟩ : Shape).Idx → EReal} {w : (⟨2, ![k, n]⟩ : Shape).Idx → EReal}
    {b : (⟨2, ![1, n]⟩ : Shape).Idx → EReal} {x' : (⟨2, ![a', k]⟩ : Shape).Idx → EReal} {w' : (⟨2, ![k, n']⟩ : Shape).Idx → EReal}
    {b' : (⟨2, ![1, n']⟩ : Shape).Idx → EReal} {p : Fin a} {q : Fin n} {p' : Fin a'} {q' : Fin n'}
    (hx : ∀ j : Fin k, x (ix2 p j) = x' (ix2 p' j)) (hw : ∀ j : Fin k, w (ix2 j q) = w' (ix2 j q'))
    (hb : b (ix2 (0 : Fin 1) q) = b' (ix2 (0 : Fin 1) q')) : denseAt x w b p q = denseAt x' w' b' p' q' := by
  unfold denseAt
  rw [hb]
  exact congrArg (· + _) (Finset.sum_congr rfl fun j _ => by rw [hx j, hw j])

/-- The same for a split layer; the weight block may be a window of `K'` rows' worth of a larger array. -/
theorem dense2At_congr {a' n' : ℕ} (hk : k1 + k2 = k) {x1 : (⟨2, ![a, k1]⟩ : Shape).Idx → EReal} {x2 : (⟨2, ![a, k2]⟩ : Shape).Idx → EReal}
    {w : (⟨2, ![k, n]⟩ : Shape).Idx → EReal} {b : (⟨2, ![1, n]⟩ : Shape).Idx → EReal}
    {x1' : (⟨2, ![a', k1]⟩ : Shape).Idx → EReal} {x2' : (⟨2, ![a', k2]⟩ : Shape).Idx → EReal}
    {w' : (⟨2, ![k, n']⟩ : Shape).Idx → EReal} {b' : (⟨2, ![1, n']⟩ : Shape).Idx → EReal}
    {p : Fin a} {q : Fin n} {p' : Fin a'} {q' : Fin n'}
    (hx1 : ∀ j : Fin k1, x1 (ix2 p j) = x1' (ix2 p' j)) (hx2 : ∀ j : Fin k2, x2 (ix2 p j) = x2' (ix2 p' j))
    (hw : ∀ j : Fin k, w (ix2 j q) = w' (ix2 j q'))
    (hb : b (ix2 (0 : Fin 1) q) = b' (ix2 (0 : Fin 1) q')) : dense2At hk x1 x2 w b p q = dense2At hk x1' x2' w' b' p' q' := by
  unfold dense2At
  rw [hb]
  refine congrArg (· + _) (congrArg₂ (· + ·) (Finset.sum_congr rfl fun j _ => ?_) (Finset.sum_congr rfl fun j _ => ?_))
  · rw [hx1 j, hw]
  · rw [hx2 j, hw]

/-! ## What the kernel computes at an entry -/

/-- A product into the zero accumulator plus the broadcast bias row, at (p, q). -/
theorem kernel_dense {d : DotDims ⟨2, ![a, k]⟩ ⟨2, ![k, n]⟩ ⟨2, ![a, n]⟩} (hd : RowsTimesMat d)
    (x : FVec Ideal ⟨2, ![a, k]⟩ .bf16) (w : FVec Ideal ⟨2, ![k, n]⟩ .bf16) (b : FVec Ideal ⟨2, ![1, n]⟩ .f32)
    (hb : (⟨2, ![1, n]⟩ : Shape).Broadcasts ⟨2, ![a, n]⟩) (p : Fin a) (q : Fin n) :
    addf (matmul d none x w (constant (F := Ideal) ⟨2, ![a, n]⟩ .f32 0x00000000#32)) (broadcastTo ⟨2, ![a, n]⟩ b hb) (ix2 p q)
      = denseAt x w b p q :=
  congrArg₂ (· + ·) (matmul_rows hd x w p q) (broadcastTo_1b_ab_apply b hb p q)

/-- Two products into zero accumulators, on the rows of the weight block below `k₁` and from `k₁` on, added, plus the
    broadcast bias row, at (p, q). -/
theorem kernel_dense2 (hk : k1 + k2 = k) {d1 : DotDims ⟨2, ![a, k1]⟩ ⟨2, ![k1, n]⟩ ⟨2, ![a, n]⟩} (hd1 : RowsTimesMat d1)
    {d2 : DotDims ⟨2, ![a, k2]⟩ ⟨2, ![k2, n]⟩ ⟨2, ![a, n]⟩} (hd2 : RowsTimesMat d2)
    (x1 : FVec Ideal ⟨2, ![a, k1]⟩ .bf16) (x2 : FVec Ideal ⟨2, ![a, k2]⟩ .bf16) (w : FVec Ideal ⟨2, ![k, n]⟩ .bf16)
    (b : FVec Ideal ⟨2, ![1, n]⟩ .f32)
    (h1 : (⟨2, ![k, n]⟩ : Shape).Slices ![0, 0] ⟨2, ![k1, n]⟩) (h2 : (⟨2, ![k, n]⟩ : Shape).Slices ![k1, 0] ⟨2, ![k2, n]⟩)
    (hb : (⟨2, ![1, n]⟩ : Shape).Broadcasts ⟨2, ![a, n]⟩) (p : Fin a) (q : Fin n) :
    addf (addf (matmul d1 none x1 (extractStridedSlice ⟨2, ![k1, n]⟩ ![0, 0] w h1) (constant (F := Ideal) ⟨2, ![a, n]⟩ .f32 0x00000000#32))
        (matmul d2 none x2 (extractStridedSlice ⟨2, ![k2, n]⟩ ![k1, 0] w h2) (constant (F := Ideal) ⟨2, ![a, n]⟩ .f32 0x00000000#32)))
      (broadcastTo ⟨2, ![a, n]⟩ b hb) (ix2 p q)
      = dense2At hk x1 x2 w b p q := by
  refine congrArg₂ (· + ·) (congrArg₂ (· + ·) ((matmul_rows hd1 x1 _ p q).trans ?_) ((matmul_rows hd2 x2 _ p q).trans ?_))
    (broadcastTo_1b_ab_apply b hb p q)
  · exact Finset.sum_congr rfl fun j _ => congrArg (x1 (ix2 p j) * ·)
      (slice2_axis0_apply 0 w h1 j q ⟨j.val, by have := j.isLt; omega⟩ (Nat.zero_add _).symm)
  · exact Finset.sum_congr rfl fun j _ => congrArg (x2 (ix2 p j) * ·)
      (slice2_axis0_apply k1 w h2 j q ⟨k1 + j.val, by have := j.isLt; omega⟩ rfl)

/-! ## What the reference computes at an entry -/

/-- The host's product plus the bias vector spread as a row and then down the rows, at (p, q). -/
theorem ref_dense {d : DotDims ⟨2, ![a, k]⟩ ⟨2, ![k, n]⟩ ⟨2, ![a, n]⟩} (hd : RowsTimesMat d)
    (x : FVec Ideal ⟨2, ![a, k]⟩ .f32) (w : FVec Ideal ⟨2, ![k, n]⟩ .f32) (b : FVec Ideal ⟨2, ![1, n]⟩ .f32)
    (h2 : (⟨2, ![1, n]⟩ : Shape).BroadcastsInDim ⟨2, ![a, n]⟩ (![0, 1] : Fin 2 → Fin 2)) (p : Fin a) (q : Fin n) :
    addf (Host.dotGeneral d none x w) (broadcastInDim ⟨2, ![a, n]⟩ (![0, 1] : Fin 2 → Fin 2) h2 b) (ix2 p q) = denseAt x w b p q :=
  congrArg₂ (· + ·) (dotGeneral_rows hd x w p q) (row_to_mat_apply b h2 p q)

/-- A sum over the first `k₁ + k₂` naturals splits into its first `k₁` and its last `k₂` terms. -/
theorem sum_split (hk : k1 + k2 = k) (f : Fin k → EReal) :
    ∑ j : Fin k, f j = (∑ j : Fin k1, f ⟨j.val, by have := j.isLt; omega⟩) + ∑ j : Fin k2, f ⟨k1 + j.val, by have := j.isLt; omega⟩ := by
  subst hk
  exact Fin.sum_univ_add f

/-- The host's ONE product over the concatenation of `x₁` and `x₂` along the columns, plus the bias, at (p, q): the
    split layer's entry. -/
theorem ref_dense2 (hk : k1 + k2 = k) {d : DotDims ⟨2, ![a, k]⟩ ⟨2, ![k, n]⟩ ⟨2, ![a, n]⟩} (hd : RowsTimesMat d)
    (x1 : FVec Ideal ⟨2, ![a, k1]⟩ .f32) (x2 : FVec Ideal ⟨2, ![a, k2]⟩ .f32) (w : FVec Ideal ⟨2, ![k, n]⟩ .f32)
    (b : FVec Ideal ⟨2, ![1, n]⟩ .f32)
    (hc : Shape.Concatenates [(⟨2, ![a, k1]⟩ : Shape), ⟨2, ![a, k2]⟩] ⟨2, ![a, k]⟩ 1)
    (h2 : (⟨2, ![1, n]⟩ : Shape).BroadcastsInDim ⟨2, ![a, n]⟩ (![0, 1] : Fin 2 → Fin 2)) (p : Fin a) (q : Fin n) :
    addf (Host.dotGeneral d none (concatenate ⟨2, ![a, k]⟩ 1 [⟨⟨2, ![a, k1]⟩, x1⟩, ⟨⟨2, ![a, k2]⟩, x2⟩] hc) w)
      (broadcastInDim ⟨2, ![a, n]⟩ (![0, 1] : Fin 2 → Fin 2) h2 b) (ix2 p q) = dense2At hk x1 x2 w b p q := by
  refine congrArg₂ (· + ·) ((dotGeneral_rows hd _ w p q).trans ((sum_split hk _).trans ?_)) (row_to_mat_apply b h2 p q)
  refine congrArg₂ (· + ·) (Finset.sum_congr rfl fun j _ => congrArg (· * _) ?_) (Finset.sum_congr rfl fun j _ => congrArg (· * _) ?_)
  · refine concatenate_pair_apply_left (t := ⟨2, ![a, k]⟩) (1 : Fin 2) x1 x2 hc _ rfl (ix2 p j) fun ax => ?_
    match ax with
    | ⟨0, _⟩ => rfl
    | ⟨1, _⟩ => rfl
  · refine concatenate_pair_apply_right (t := ⟨2, ![a, k]⟩) (1 : Fin 2) x1 x2 hc _ rfl rfl (ix2 p j) (fun ax hax => ?_) ?_
    · match ax with
      | ⟨0, _⟩ => rfl
      | ⟨1, _⟩ => exact absurd rfl hax
    · show j.val + k1 = k1 + j.val
      omega

/-- The bias vector spread as a row is the bias vector reshaped to a row. -/
theorem bias_row_eq (bv : (⟨1, ![n]⟩ : Shape).Idx → EReal)
    (h1 : (⟨1, ![n]⟩ : Shape).BroadcastsInDim ⟨2, ![1, n]⟩ (![1] : Fin 1 → Fin 2))
    (hs : (⟨1, ![n]⟩ : Shape).ShapeCasts ⟨2, ![1, n]⟩) :
    broadcastInDim ⟨2, ![1, n]⟩ (![1] : Fin 1 → Fin 2) h1 bv = shapeCast ⟨2, ![1, n]⟩ bv hs := by
  funext i
  rw [eq_ix2 i]
  exact (vec_to_row_apply bv h1 _ _).trans (shapeCast_a_1a_apply bv hs _ _).symm

end Cert.LibDenseLayers

end
-- ==== Proof.IdealValue1.lean ====
/-
  Layer 1 at the ideal values: the output array is ctx · W1 + b1.
  The payload of the body at entry (p, q) of its block is the dense layer's entry of the input blocks; block (i, j) of the
  grid reads rows i·1024 … of the left array, columns j·512 … of the weights and of the bias row, and writes rows i·1024 …,
  columns j·512 … of the output; the 8 × 4 blocks tile the output. So the output array ends as the dense layer of the
  whole arrays.
-/
import proofs.«150073_j2164663517985_2_alg».proof.Proof.IdealLayer1
import proofs.«150073_j2164663517985_2_alg».proof.Proof.LibDenseLayers

set_option maxRecDepth 16384

noncomputable section

namespace Cert.KernelIdeal.Layers

open Cert.KernelIdeal Cert.KernelIdeal.Gen Cert.LibDenseLayers Cert.LibMatRows
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz0 : (![0, 0] : Fin 2 → Nat) = fun _ => 0 := funext fun a => by fin_cases a <;> rfl

/-- The body's matrix product is a plain rows-times-columns product. -/
theorem rows0 : RowsTimesMat dot_S1024x5124_S5124x512_S1024x512_1_0_0_1_n_n where
  rank := rfl
  size := rfl
  l0 i q := by
    unfold DotDims.lhsIdx
    rw [dif_neg (show ¬(0 : Fin S1024x5124.rank) ∈ dot_S1024x5124_S5124x512_S1024x512_1_0_0_1_n_n.lhsBatch by decide), dif_pos (show (0 : Fin S1024x5124.rank) ∈ dot_S1024x5124_S5124x512_S1024x512_1_0_0_1_n_n.lhsNonContracting by decide)]
    rfl
  l1 i q := dot_S1024x5124_S5124x512_S1024x512_1_0_0_1_n_n.lhsIdx_val_of_single rfl i q
  r0 i q := dot_S1024x5124_S5124x512_S1024x512_1_0_0_1_n_n.rhsIdx_val_of_single rfl i q
  r1 i q := by
    unfold DotDims.rhsIdx
    rw [dif_neg (show ¬(1 : Fin S5124x512.rank) ∈ dot_S1024x5124_S5124x512_S1024x512_1_0_0_1_n_n.rhsBatch by decide), dif_pos (show (1 : Fin S5124x512.rank) ∈ dot_S1024x5124_S5124x512_S1024x512_1_0_0_1_n_n.rhsNonContracting by decide)]
    rfl

/-- The body's payload at entry (p, q): the dense layer's entry of the three loaded blocks (a change of float format is the
    identity on the extended reals). -/
theorem pay0_apply (x0 : FVec Ideal S1024x5124 .bf16) (x1 : FVec Ideal S5124x512 .bf16) (x2 : FVec Ideal S1x512 .f32) (p : Fin 1024) (q : Fin 512) :
    k0_pay1 (F := Ideal) x0 x1 x2 (ix2 p q) = denseAt x0 x1 x2 p q := by
  unfold k0_pay1
  simp only [shapeCast_self]
  exact kernel_dense rows0 x0 x1 x2 _ p q

/-- Where the grid's blocks sit: the left array's block follows the output's row block and spans every column; the
    weights' and the bias row's follow the output's column block. -/
theorem idx0 : ∀ t : Fin cfg0.N, win0_0.index t (0 : Fin 2) = win0_3.index t (0 : Fin 2) ∧ win0_0.index t (1 : Fin 2) = 0
    ∧ win0_1.index t (0 : Fin 2) = 0 ∧ win0_1.index t (1 : Fin 2) = win0_3.index t (1 : Fin 2)
    ∧ win0_2.index t (0 : Fin 2) = 0 ∧ win0_2.index t (1 : Fin 2) = win0_3.index t (1 : Fin 2) :=
  (by decide +kernel : ∀ t : Fin grid0.N, _)

/-- Every block of the output is some grid point's. -/
theorem idx_onto0 : ∀ (q0 : Fin 8) (q1 : Fin 4), ∃ t : Fin cfg0.N, win0_3.index t = ![q0.val, q1.val] :=
  (by decide +kernel : ∀ (q0 : Fin 8) (q1 : Fin 4), ∃ t : Fin grid0.N, win0_3.index t = ![q0.val, q1.val])

/-! An entry of a window's block is the array's entry at block index × block size + the entry's coordinate, on each axis. -/
theorem blk0_0 (c : Dev nD) (t : Fin cfg0.N) (x : S1024x5124.Idx) (k : S8192x5124.Idx)
    (h0 : (k 0).val = win0_0.index t (0 : Fin 2) * 1024 + (x 0).val) (h1 : (k 1).val = win0_0.index t (1 : Fin 2) * 5124 + (x 1).val) :
    (iblk0 V c 0 t : S1024x5124.Idx → EReal) x = (V c main_v1 : S8192x5124.Idx → EReal) k := by
  unfold iblk0
  rw [View.read_apply]
  show (V c main_v1 : S8192x5124.Idx → EReal) _ = _
  refine congrArg (V c main_v1 : S8192x5124.Idx → EReal) (funext fun a => Fin.ext ?_)
  match a with
  | ⟨0, _⟩ => show win0_0.index t (0 : Fin 2) * 1024 + 1 * (x 0).val = (k 0).val; omega
  | ⟨1, _⟩ => show win0_0.index t (1 : Fin 2) * 5124 + 1 * (x 1).val = (k 1).val; omega
theorem blk0_1 (c : Dev nD) (t : Fin cfg0.N) (x : S5124x512.Idx) (k : S5124x2048.Idx)
    (h0 : (k 0).val = win0_1.index t (0 : Fin 2) * 5124 + (x 0).val) (h1 : (k 1).val = win0_1.index t (1 : Fin 2) * 512 + (x 1).val) :
    (iblk0 V c 1 t : S5124x512.Idx → EReal) x = (V c main_v2 : S5124x2048.Idx → EReal) k := by
  unfold iblk0
  rw [View.read_apply]
  show (V c main_v2 : S5124x2048.Idx → EReal) _ = _
  refine congrArg (V c main_v2 : S5124x2048.Idx → EReal) (funext fun a => Fin.ext ?_)
  match a with
  | ⟨0, _⟩ => show win0_1.index t (0 : Fin 2) * 5124 + 1 * (x 0).val = (k 0).val; omega
  | ⟨1, _⟩ => show win0_1.index t (1 : Fin 2) * 512 + 1 * (x 1).val = (k 1).val; omega
theorem blk0_2 (c : Dev nD) (t : Fin cfg0.N) (x : S1x512.Idx) (k : S1x2048.Idx)
    (h0 : (k 0).val = win0_2.index t (0 : Fin 2) * 1 + (x 0).val) (h1 : (k 1).val = win0_2.index t (1 : Fin 2) * 512 + (x 1).val) :
    (iblk0 V c 2 t : S1x512.Idx → EReal) x = (V c main_v3 : S1x2048.Idx → EReal) k := by
  unfold iblk0
  rw [View.read_apply]
  show (V c main_v3 : S1x2048.Idx → EReal) _ = _
  refine congrArg (V c main_v3 : S1x2048.Idx → EReal) (funext fun a => Fin.ext ?_)
  match a with
  | ⟨0, _⟩ => show win0_2.index t (0 : Fin 2) * 1 + 1 * (x 0).val = (k 0).val; omega
  | ⟨1, _⟩ => show win0_2.index t (1 : Fin 2) * 512 + 1 * (x 1).val = (k 1).val; omega

/-- The output array of this layer, from the arrays the call finds. -/
def G0 (c : Dev nD) : S8192x2048.Idx → EReal :=
  dense (V c main_v1 : S8192x5124.Idx → EReal) (V c main_v2 : S5124x2048.Idx → EReal) (V c main_v3 : S1x2048.Idx → EReal)

/-- What grid point `t` writes back is block `t` of the layer's output array. -/
theorem flushed0_eq (c : Dev nD) (t : Fin cfg0.N) :
    (dat0 V c).flushed 3 t = ((cfg0.win 3).blk t).view.read (Elt Ideal) (G0 V c) := by
  show (cfg0.win 3).cut (grid0.coords t) ((dat0 V c).after 3 t) = _
  rw [after0_3]
  unfold out0_3
  rw [View.canon_unit_zero hz0]
  simp only [View.ld_unit_zero (S := S1024x5124) hz0, View.ld_unit_zero (S := S5124x512) hz0, View.ld_unit_zero (S := S1x512) hz0]
  obtain ⟨e0, e1, e2, e3, e4, e5⟩ := idx0 t
  funext y
  obtain ⟨p, q, rfl⟩ : ∃ (p : Fin 1024) (q : Fin 512), y = ix2 p q := ⟨y 0, y 1, eq_ix2 y⟩
  rw [View.read_apply]
  have hP : ((((cfg0.win 3).blk t).view.emb (ix2 p q)) 0).val = win0_3.index t (0 : Fin 2) * 1024 + 1 * p.val := rfl
  have hQ : ((((cfg0.win 3).blk t).view.emb (ix2 p q)) 1).val = win0_3.index t (1 : Fin 2) * 512 + 1 * q.val := rfl
  obtain ⟨P, Q, hPQ⟩ : ∃ (P : Fin 8192) (Q : Fin 2048), ((cfg0.win 3).blk t).view.emb (ix2 p q) = ix2 P Q :=
    ⟨_, _, eq_ix2 (n0 := 8192) (n1 := 2048) _⟩
  rw [hPQ] at hP hQ ⊢
  refine (pay0_apply (iblk0 V c 0 t) (iblk0 V c 1 t) (iblk0 V c 2 t) p q).trans ?_
  show denseAt _ _ _ p q = denseAt _ _ _ P Q
  have hP' : P.val = win0_3.index t (0 : Fin 2) * 1024 + 1 * p.val := hP
  have hQ' : Q.val = win0_3.index t (1 : Fin 2) * 512 + 1 * q.val := hQ
  refine denseAt_congr (fun j => ?_) (fun j => ?_) ?_
  · exact blk0_0 V c t (ix2 p j) (ix2 P j) (by show P.val = _ + p.val; omega) (by show j.val = _ + j.val; omega)
  · exact blk0_1 V c t (ix2 j q) (ix2 j Q) (by show j.val = _ + j.val; omega) (by show Q.val = _ + q.val; omega)
  · exact blk0_2 V c t (ix2 (0 : Fin 1) q) (ix2 (0 : Fin 1) Q) (by show (0 : ℕ) = _ + 0; omega) (by show Q.val = _ + q.val; omega)

/-- The blocks tile the output array. -/
theorem cover0 (i : S8192x2048.Idx) : ∃ t : Fin cfg0.N, (cfg0.win 3).flush t = true ∧ i ∈ ((cfg0.win 3).blk t).view.set := by
  have hi0 : (i 0).val < 8192 := (i 0).isLt
  have hi1 : (i 1).val < 2048 := (i 1).isLt
  obtain ⟨t, ht⟩ := idx_onto0 ⟨(i 0).val / 1024, by omega⟩ ⟨(i 1).val / 512, by omega⟩
  have q0 : win0_3.index t (0 : Fin 2) = (i 0).val / 1024 := congrFun ht 0
  have q1 : win0_3.index t (1 : Fin 2) = (i 1).val / 512 := congrFun ht 1
  refine ⟨t, flush0_3 t, ?_⟩
  show i ∈ ((View.whole main_v4).slice (win0_3.rect t)).set
  rw [View.set_slice_whole, Rect.mem_set_unit]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 512 ≤ (i 1).val ∧ (i 1).val < win0_3.index t (1 : Fin 2) * 512 + 512; omega

/-- After the call the output array is the dense layer of the arrays the call found. -/
theorem final0 (c : Dev nD) : (dat0 V c).arrAt 3 cfg0.N = G0 V c :=
  (dat0 V c).arrAt_eq_of_cover 3 (G0 V c) (fun t _ => flushed0_eq V c t) (cover0)

end Cert.KernelIdeal.Layers

end
-- ==== Proof.IdealValue2.lean ====
/-
  Layer 2 at the ideal values: the output array is x1 · W2[0:2048] + ctx · W2[2048:7172] + b2.
  The body's payload at entry (p, q) of its block is the split layer's entry of the loaded blocks: the weight block's rows
  below 2048 meet the previous activation's block, its rows from 2048 on meet the context's block. Block (i, j) of the grid
  reads rows i·1024 … of the activation and of the context, columns j·256 … of the weights and of the bias row, and writes
  rows i·1024 …, columns j·256 … of the output; the 8 × 4 blocks tile the output.
-/
import proofs.«150073_j2164663517985_2_alg».proof.Proof.IdealLayer2
import proofs.«150073_j2164663517985_2_alg».proof.Proof.LibDenseLayers

set_option maxRecDepth 16384

noncomputable section

namespace Cert.KernelIdeal.Layers

open Cert.KernelIdeal Cert.KernelIdeal.Gen Cert.LibDenseLayers Cert.LibMatRows
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz1 : (![0, 0] : Fin 2 → Nat) = fun _ => 0 := funext fun a => by fin_cases a <;> rfl

/-- The weight block's rows: 2048 for the activation, then 5124 for the context. -/
theorem rowsplit1 : 2048 + 5124 = 7172 := by norm_num

/-- The body's two matrix products are plain rows-times-columns products. -/
theorem rows1_x : RowsTimesMat dot_S1024x2048_S2048x256_S1024x256_1_0_0_1_n_n where
  rank := rfl
  size := rfl
  l0 i q := by
    unfold DotDims.lhsIdx
    rw [dif_neg (show ¬(0 : Fin S1024x2048.rank) ∈ dot_S1024x2048_S2048x256_S1024x256_1_0_0_1_n_n.lhsBatch by decide), dif_pos (show (0 : Fin S1024x2048.rank) ∈ dot_S1024x2048_S2048x256_S1024x256_1_0_0_1_n_n.lhsNonContracting by decide)]
    rfl
  l1 i q := dot_S1024x2048_S2048x256_S1024x256_1_0_0_1_n_n.lhsIdx_val_of_single rfl i q
  r0 i q := dot_S1024x2048_S2048x256_S1024x256_1_0_0_1_n_n.rhsIdx_val_of_single rfl i q
  r1 i q := by
    unfold DotDims.rhsIdx
    rw [dif_neg (show ¬(1 : Fin S2048x256.rank) ∈ dot_S1024x2048_S2048x256_S1024x256_1_0_0_1_n_n.rhsBatch by decide), dif_pos (show (1 : Fin S2048x256.rank) ∈ dot_S1024x2048_S2048x256_S1024x256_1_0_0_1_n_n.rhsNonContracting by decide)]
    rfl
theorem rows1_c : RowsTimesMat dot_S1024x5124_S5124x256_S1024x256_1_0_0_1_n_n where
  rank := rfl
  size := rfl
  l0 i q := by
    unfold DotDims.lhsIdx
    rw [dif_neg (show ¬(0 : Fin S1024x5124.rank) ∈ dot_S1024x5124_S5124x256_S1024x256_1_0_0_1_n_n.lhsBatch by decide), dif_pos (show (0 : Fin S1024x5124.rank) ∈ dot_S1024x5124_S5124x256_S1024x256_1_0_0_1_n_n.lhsNonContracting by decide)]
    rfl
  l1 i q := dot_S1024x5124_S5124x256_S1024x256_1_0_0_1_n_n.lhsIdx_val_of_single rfl i q
  r0 i q := dot_S1024x5124_S5124x256_S1024x256_1_0_0_1_n_n.rhsIdx_val_of_single rfl i q
  r1 i q := by
    unfold DotDims.rhsIdx
    rw [dif_neg (show ¬(1 : Fin S5124x256.rank) ∈ dot_S1024x5124_S5124x256_S1024x256_1_0_0_1_n_n.rhsBatch by decide), dif_pos (show (1 : Fin S5124x256.rank) ∈ dot_S1024x5124_S5124x256_S1024x256_1_0_0_1_n_n.rhsNonContracting by decide)]
    rfl

/-- The body's payload at entry (p, q): the split layer's entry of the four loaded blocks. -/
theorem pay1_apply (xw : FVec Ideal S7172x256 .bf16) (x1 : FVec Ideal S1024x2048 .bf16) (x2 : FVec Ideal S1024x5124 .bf16) (xb : FVec Ideal S1x256 .f32)
    (p : Fin 1024) (q : Fin 256) :
    k1_pay1 (F := Ideal) xw x1 x2 xb (ix2 p q) = dense2At rowsplit1 x1 x2 xw xb p q := by
  unfold k1_pay1
  simp only [shapeCast_self]
  exact kernel_dense2 rowsplit1 rows1_x rows1_c x1 x2 xw xb _ _ _ p q

/-- Where the grid's blocks sit. -/
theorem idx1 : ∀ t : Fin cfg1.N, win1_0.index t (0 : Fin 2) = win1_4.index t (0 : Fin 2) ∧ win1_0.index t (1 : Fin 2) = 0
    ∧ win1_1.index t (0 : Fin 2) = win1_4.index t (0 : Fin 2) ∧ win1_1.index t (1 : Fin 2) = 0
    ∧ win1_2.index t (0 : Fin 2) = 0 ∧ win1_2.index t (1 : Fin 2) = win1_4.index t (1 : Fin 2)
    ∧ win1_3.index t (0 : Fin 2) = 0 ∧ win1_3.index t (1 : Fin 2) = win1_4.index t (1 : Fin 2) :=
  (by decide +kernel : ∀ t : Fin grid1.N, _)

/-- Every block of the output is some grid point's. -/
theorem idx_onto1 : ∀ (q0 : Fin 8) (q1 : Fin 4), ∃ t : Fin cfg1.N, win1_4.index t = ![q0.val, q1.val] :=
  (by decide +kernel : ∀ (q0 : Fin 8) (q1 : Fin 4), ∃ t : Fin grid1.N, win1_4.index t = ![q0.val, q1.val])

/-! An entry of a window's block is the array's entry at block index × block size + the entry's coordinate, on each axis. -/
theorem blk1_0 (c : Dev nD) (t : Fin cfg1.N) (x : S1024x2048.Idx) (k : S8192x2048.Idx)
    (h0 : (k 0).val = win1_0.index t (0 : Fin 2) * 1024 + (x 0).val) (h1 : (k 1).val = win1_0.index t (1 : Fin 2) * 2048 + (x 1).val) :
    (iblk1 V c 0 t : S1024x2048.Idx → EReal) x = (V c main_v4 : S8192x2048.Idx → EReal) k := by
  unfold iblk1
  rw [View.read_apply]
  show (V c main_v4 : S8192x2048.Idx → EReal) _ = _
  refine congrArg (V c main_v4 : S8192x2048.Idx → EReal) (funext fun a => Fin.ext ?_)
  match a with
  | ⟨0, _⟩ => show win1_0.index t (0 : Fin 2) * 1024 + 1 * (x 0).val = (k 0).val; omega
  | ⟨1, _⟩ => show win1_0.index t (1 : Fin 2) * 2048 + 1 * (x 1).val = (k 1).val; omega
theorem blk1_1 (c : Dev nD) (t : Fin cfg1.N) (x : S1024x5124.Idx) (k : S8192x5124.Idx)
    (h0 : (k 0).val = win1_1.index t (0 : Fin 2) * 1024 + (x 0).val) (h1 : (k 1).val = win1_1.index t (1 : Fin 2) * 5124 + (x 1).val) :
    (iblk1 V c 1 t : S1024x5124.Idx → EReal) x = (V c main_v1 : S8192x5124.Idx → EReal) k := by
  unfold iblk1
  rw [View.read_apply]
  show (V c main_v1 : S8192x5124.Idx → EReal) _ = _
  refine congrArg (V c main_v1 : S8192x5124.Idx → EReal) (funext fun a => Fin.ext ?_)
  match a with
  | ⟨0, _⟩ => show win1_1.index t (0 : Fin 2) * 1024 + 1 * (x 0).val = (k 0).val; omega
  | ⟨1, _⟩ => show win1_1.index t (1 : Fin 2) * 5124 + 1 * (x 1).val = (k 1).val; omega
theorem blk1_2 (c : Dev nD) (t : Fin cfg1.N) (x : S7172x256.Idx) (k : S7172x1024.Idx)
    (h0 : (k 0).val = win1_2.index t (0 : Fin 2) * 7172 + (x 0).val) (h1 : (k 1).val = win1_2.index t (1 : Fin 2) * 256 + (x 1).val) :
    (iblk1 V c 2 t : S7172x256.Idx → EReal) x = (V c main_v5 : S7172x1024.Idx → EReal) k := by
  unfold iblk1
  rw [View.read_apply]
  show (V c main_v5 : S7172x1024.Idx → EReal) _ = _
  refine congrArg (V c main_v5 : S7172x1024.Idx → EReal) (funext fun a => Fin.ext ?_)
  match a with
  | ⟨0, _⟩ => show win1_2.index t (0 : Fin 2) * 7172 + 1 * (x 0).val = (k 0).val; omega
  | ⟨1, _⟩ => show win1_2.index t (1 : Fin 2) * 256 + 1 * (x 1).val = (k 1).val; omega
theorem blk1_3 (c : Dev nD) (t : Fin cfg1.N) (x : S1x256.Idx) (k : S1x1024.Idx)
    (h0 : (k 0).val = win1_3.index t (0 : Fin 2) * 1 + (x 0).val) (h1 : (k 1).val = win1_3.index t (1 : Fin 2) * 256 + (x 1).val) :
    (iblk1 V c 3 t : S1x256.Idx → EReal) x = (V c main_v6 : S1x1024.Idx → EReal) k := by
  unfold iblk1
  rw [View.read_apply]
  show (V c main_v6 : S1x1024.Idx → EReal) _ = _
  refine congrArg (V c main_v6 : S1x1024.Idx → EReal) (funext fun a => Fin.ext ?_)
  match a with
  | ⟨0, _⟩ => show win1_3.index t (0 : Fin 2) * 1 + 1 * (x 0).val = (k 0).val; omega
  | ⟨1, _⟩ => show win1_3.index t (1 : Fin 2) * 256 + 1 * (x 1).val = (k 1).val; omega

/-- The output array of this layer, from the arrays the call finds. -/
def G1 (c : Dev nD) : S8192x1024.Idx → EReal :=
  dense2 rowsplit1 (V c main_v4 : S8192x2048.Idx → EReal) (V c main_v1 : S8192x5124.Idx → EReal)
    (V c main_v5 : S7172x1024.Idx → EReal) (V c main_v6 : S1x1024.Idx → EReal)

/-- What grid point `t` writes back is block `t` of the layer's output array. -/
theorem flushed1_eq (c : Dev nD) (t : Fin cfg1.N) :
    (dat1 V c).flushed 4 t = ((cfg1.win 4).blk t).view.read (Elt Ideal) (G1 V c) := by
  show (cfg1.win 4).cut (grid1.coords t) ((dat1 V c).after 4 t) = _
  rw [after1_4]
  unfold out1_4
  rw [View.canon_unit_zero hz1]
  simp only [View.ld_unit_zero (S := S1024x2048) hz1, View.ld_unit_zero (S := S1024x5124) hz1, View.ld_unit_zero (S := S7172x256) hz1, View.ld_unit_zero (S := S1x256) hz1]
  obtain ⟨e0, e1, e2, e3, e4, e5, e6, e7⟩ := idx1 t
  funext y
  obtain ⟨p, q, rfl⟩ : ∃ (p : Fin 1024) (q : Fin 256), y = ix2 p q := ⟨y 0, y 1, eq_ix2 y⟩
  rw [View.read_apply]
  have hP : ((((cfg1.win 4).blk t).view.emb (ix2 p q)) 0).val = win1_4.index t (0 : Fin 2) * 1024 + 1 * p.val := rfl
  have hQ : ((((cfg1.win 4).blk t).view.emb (ix2 p q)) 1).val = win1_4.index t (1 : Fin 2) * 256 + 1 * q.val := rfl
  obtain ⟨P, Q, hPQ⟩ : ∃ (P : Fin 8192) (Q : Fin 1024), ((cfg1.win 4).blk t).view.emb (ix2 p q) = ix2 P Q :=
    ⟨_, _, eq_ix2 (n0 := 8192) (n1 := 1024) _⟩
  rw [hPQ] at hP hQ ⊢
  refine (pay1_apply (iblk1 V c 2 t) (iblk1 V c 0 t) (iblk1 V c 1 t) (iblk1 V c 3 t) p q).trans ?_
  show dense2At rowsplit1 _ _ _ _ p q = dense2At rowsplit1 _ _ _ _ P Q
  have hP' : P.val = win1_4.index t (0 : Fin 2) * 1024 + 1 * p.val := hP
  have hQ' : Q.val = win1_4.index t (1 : Fin 2) * 256 + 1 * q.val := hQ
  refine dense2At_congr rowsplit1 (fun j => ?_) (fun j => ?_) (fun j => ?_) ?_
  · exact blk1_0 V c t (ix2 p j) (ix2 P j) (by show P.val = _ + p.val; omega) (by show j.val = _ + j.val; omega)
  · exact blk1_1 V c t (ix2 p j) (ix2 P j) (by show P.val = _ + p.val; omega) (by show j.val = _ + j.val; omega)
  · exact blk1_2 V c t (ix2 j q) (ix2 j Q) (by show j.val = _ + j.val; omega) (by show Q.val = _ + q.val; omega)
  · exact blk1_3 V c t (ix2 (0 : Fin 1) q) (ix2 (0 : Fin 1) Q) (by show (0 : ℕ) = _ + 0; omega) (by show Q.val = _ + q.val; omega)

/-- The blocks tile the output array. -/
theorem cover1 (i : S8192x1024.Idx) : ∃ t : Fin cfg1.N, (cfg1.win 4).flush t = true ∧ i ∈ ((cfg1.win 4).blk t).view.set := by
  have hi0 : (i 0).val < 8192 := (i 0).isLt
  have hi1 : (i 1).val < 1024 := (i 1).isLt
  obtain ⟨t, ht⟩ := idx_onto1 ⟨(i 0).val / 1024, by omega⟩ ⟨(i 1).val / 256, by omega⟩
  have q0 : win1_4.index t (0 : Fin 2) = (i 0).val / 1024 := congrFun ht 0
  have q1 : win1_4.index t (1 : Fin 2) = (i 1).val / 256 := congrFun ht 1
  refine ⟨t, flush1_4 t, ?_⟩
  show i ∈ ((View.whole main_v7).slice (win1_4.rect t)).set
  rw [View.set_slice_whole, Rect.mem_set_unit]
  intro a
  match a with
  | ⟨0, _⟩ => show win1_4.index t (0 : Fin 2) * 1024 ≤ (i 0).val ∧ (i 0).val < win1_4.index t (0 : Fin 2) * 1024 + 1024; omega
  | ⟨1, _⟩ => show win1_4.index t (1 : Fin 2) * 256 ≤ (i 1).val ∧ (i 1).val < win1_4.index t (1 : Fin 2) * 256 + 256; omega

/-- After the call the output array is the split layer of the arrays the call found. -/
theorem final1 (c : Dev nD) : (dat1 V c).arrAt 4 cfg1.N = G1 V c :=
  (dat1 V c).arrAt_eq_of_cover 4 (G1 V c) (fun t _ => flushed1_eq V c t) (cover1)

end Cert.KernelIdeal.Layers

end
-- ==== Proof.IdealValue3.lean ====
/-
  Layer 3 at the ideal values: the output array is x2 · W3[0:1024] + ctx · W3[1024:6148] + b3.
  The body's payload at entry (p, q) of its block is the split layer's entry of the loaded blocks: the weight block's rows
  below 1024 meet the previous activation's block, its rows from 1024 on meet the context's block. Block (i, j) of the grid
  reads rows i·1024 … of the activation and of the context, columns j·256 … of the weights and of the bias row, and writes
  rows i·1024 …, columns j·256 … of the output; the 8 × 4 blocks tile the output.
-/
import proofs.«150073_j2164663517985_2_alg».proof.Proof.IdealLayer3
import proofs.«150073_j2164663517985_2_alg».proof.Proof.LibDenseLayers

set_option maxRecDepth 16384

noncomputable section

namespace Cert.KernelIdeal.Layers

open Cert.KernelIdeal Cert.KernelIdeal.Gen Cert.LibDenseLayers Cert.LibMatRows
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The weight block's rows: 1024 for the activation, then 5124 for the context. -/
theorem rowsplit2 : 1024 + 5124 = 6148 := by norm_num

/-- The body's two matrix products are plain rows-times-columns products. -/
theorem rows2_x : RowsTimesMat dot_S1024x1024_S1024x256_S1024x256_1_0_0_1_n_n where
  rank := rfl
  size := rfl
  l0 i q := by
    unfold DotDims.lhsIdx
    rw [dif_neg (show ¬(0 : Fin S1024x1024.rank) ∈ dot_S1024x1024_S1024x256_S1024x256_1_0_0_1_n_n.lhsBatch by decide), dif_pos (show (0 : Fin S1024x1024.rank) ∈ dot_S1024x1024_S1024x256_S1024x256_1_0_0_1_n_n.lhsNonContracting by decide)]
    rfl
  l1 i q := dot_S1024x1024_S1024x256_S1024x256_1_0_0_1_n_n.lhsIdx_val_of_single rfl i q
  r0 i q := dot_S1024x1024_S1024x256_S1024x256_1_0_0_1_n_n.rhsIdx_val_of_single rfl i q
  r1 i q := by
    unfold DotDims.rhsIdx
    rw [dif_neg (show ¬(1 : Fin S1024x256.rank) ∈ dot_S1024x1024_S1024x256_S1024x256_1_0_0_1_n_n.rhsBatch by decide), dif_pos (show (1 : Fin S1024x256.rank) ∈ dot_S1024x1024_S1024x256_S1024x256_1_0_0_1_n_n.rhsNonContracting by decide)]
    rfl
theorem rows2_c : RowsTimesMat dot_S1024x5124_S5124x256_S1024x256_1_0_0_1_n_n where
  rank := rfl
  size := rfl
  l0 i q := by
    unfold DotDims.lhsIdx
    rw [dif_neg (show ¬(0 : Fin S1024x5124.rank) ∈ dot_S1024x5124_S5124x256_S1024x256_1_0_0_1_n_n.lhsBatch by decide), dif_pos (show (0 : Fin S1024x5124.rank) ∈ dot_S1024x5124_S5124x256_S1024x256_1_0_0_1_n_n.lhsNonContracting by decide)]
    rfl
  l1 i q := dot_S1024x5124_S5124x256_S1024x256_1_0_0_1_n_n.lhsIdx_val_of_single rfl i q
  r0 i q := dot_S1024x5124_S5124x256_S1024x256_1_0_0_1_n_n.rhsIdx_val_of_single rfl i q
  r1 i q := by
    unfold DotDims.rhsIdx
    rw [dif_neg (show ¬(1 : Fin S5124x256.rank) ∈ dot_S1024x5124_S5124x256_S1024x256_1_0_0_1_n_n.rhsBatch by decide), dif_pos (show (1 : Fin S5124x256.rank) ∈ dot_S1024x5124_S5124x256_S1024x256_1_0_0_1_n_n.rhsNonContracting by decide)]
    rfl

/-- The body's payload at entry (p, q): the split layer's entry of the four loaded blocks. -/
theorem pay2_apply (xw : FVec Ideal S6148x256 .bf16) (x1 : FVec Ideal S1024x1024 .bf16) (x2 : FVec Ideal S1024x5124 .bf16) (xb : FVec Ideal S1x256 .f32)
    (p : Fin 1024) (q : Fin 256) :
    k2_pay1 (F := Ideal) xw x1 x2 xb (ix2 p q) = dense2At rowsplit2 x1 x2 xw xb p q := by
  unfold k2_pay1
  simp only [shapeCast_self]
  exact kernel_dense2 rowsplit2 rows2_x rows2_c x1 x2 xw xb _ _ _ p q

/-- Where the grid's blocks sit. -/
theorem idx2 : ∀ t : Fin cfg2.N, win2_0.index t (0 : Fin 2) = win2_4.index t (0 : Fin 2) ∧ win2_0.index t (1 : Fin 2) = 0
    ∧ win2_1.index t (0 : Fin 2) = win2_4.index t (0 : Fin 2) ∧ win2_1.index t (1 : Fin 2) = 0
    ∧ win2_2.index t (0 : Fin 2) = 0 ∧ win2_2.index t (1 : Fin 2) = win2_4.index t (1 : Fin 2)
    ∧ win2_3.index t (0 : Fin 2) = 0 ∧ win2_3.index t (1 : Fin 2) = win2_4.index t (1 : Fin 2) :=
  (by decide +kernel : ∀ t : Fin grid2.N, _)

/-- Every block of the output is some grid point's. -/
theorem idx_onto2 : ∀ (q0 : Fin 8) (q1 : Fin 4), ∃ t : Fin cfg2.N, win2_4.index t = ![q0.val, q1.val] :=
  (by decide +kernel : ∀ (q0 : Fin 8) (q1 : Fin 4), ∃ t : Fin grid2.N, win2_4.index t = ![q0.val, q1.val])

/-! An entry of a window's block is the array's entry at block index × block size + the entry's coordinate, on each axis. -/
theorem blk2_0 (c : Dev nD) (t : Fin cfg2.N) (x : S1024x1024.Idx) (k : S8192x1024.Idx)
    (h0 : (k 0).val = win2_0.index t (0 : Fin 2) * 1024 + (x 0).val) (h1 : (k 1).val = win2_0.index t (1 : Fin 2) * 1024 + (x 1).val) :
    (iblk2 V c 0 t : S1024x1024.Idx → EReal) x = (V c main_v7 : S8192x1024.Idx → EReal) k := by
  unfold iblk2
  rw [View.read_apply]
  show (V c main_v7 : S8192x1024.Idx → EReal) _ = _
  refine congrArg (V c main_v7 : S8192x1024.Idx → EReal) (funext fun a => Fin.ext ?_)
  match a with
  | ⟨0, _⟩ => show win2_0.index t (0 : Fin 2) * 1024 + 1 * (x 0).val = (k 0).val; omega
  | ⟨1, _⟩ => show win2_0.index t (1 : Fin 2) * 1024 + 1 * (x 1).val = (k 1).val; omega
theorem blk2_1 (c : Dev nD) (t : Fin cfg2.N) (x : S1024x5124.Idx) (k : S8192x5124.Idx)
    (h0 : (k 0).val = win2_1.index t (0 : Fin 2) * 1024 + (x 0).val) (h1 : (k 1).val = win2_1.index t (1 : Fin 2) * 5124 + (x 1).val) :
    (iblk2 V c 1 t : S1024x5124.Idx → EReal) x = (V c main_v1 : S8192x5124.Idx → EReal) k := by
  unfold iblk2
  rw [View.read_apply]
  show (V c main_v1 : S8192x5124.Idx → EReal) _ = _
  refine congrArg (V c main_v1 : S8192x5124.Idx → EReal) (funext fun a => Fin.ext ?_)
  match a with
  | ⟨0, _⟩ => show win2_1.index t (0 : Fin 2) * 1024 + 1 * (x 0).val = (k 0).val; omega
  | ⟨1, _⟩ => show win2_1.index t (1 : Fin 2) * 5124 + 1 * (x 1).val = (k 1).val; omega
theorem blk2_2 (c : Dev nD) (t : Fin cfg2.N) (x : S6148x256.Idx) (k : S6148x1024.Idx)
    (h0 : (k 0).val = win2_2.index t (0 : Fin 2) * 6148 + (x 0).val) (h1 : (k 1).val = win2_2.index t (1 : Fin 2) * 256 + (x 1).val) :
    (iblk2 V c 2 t : S6148x256.Idx → EReal) x = (V c main_v8 : S6148x1024.Idx → EReal) k := by
  unfold iblk2
  rw [View.read_apply]
  show (V c main_v8 : S6148x1024.Idx → EReal) _ = _
  refine congrArg (V c main_v8 : S6148x1024.Idx → EReal) (funext fun a => Fin.ext ?_)
  match a with
  | ⟨0, _⟩ => show win2_2.index t (0 : Fin 2) * 6148 + 1 * (x 0).val = (k 0).val; omega
  | ⟨1, _⟩ => show win2_2.index t (1 : Fin 2) * 256 + 1 * (x 1).val = (k 1).val; omega
theorem blk2_3 (c : Dev nD) (t : Fin cfg2.N) (x : S1x256.Idx) (k : S1x1024.Idx)
    (h0 : (k 0).val = win2_3.index t (0 : Fin 2) * 1 + (x 0).val) (h1 : (k 1).val = win2_3.index t (1 : Fin 2) * 256 + (x 1).val) :
    (iblk2 V c 3 t : S1x256.Idx → EReal) x = (V c main_v9 : S1x1024.Idx → EReal) k := by
  unfold iblk2
  rw [View.read_apply]
  show (V c main_v9 : S1x1024.Idx → EReal) _ = _
  refine congrArg (V c main_v9 : S1x1024.Idx → EReal) (funext fun a => Fin.ext ?_)
  match a with
  | ⟨0, _⟩ => show win2_3.index t (0 : Fin 2) * 1 + 1 * (x 0).val = (k 0).val; omega
  | ⟨1, _⟩ => show win2_3.index t (1 : Fin 2) * 256 + 1 * (x 1).val = (k 1).val; omega

/-- The output array of this layer, from the arrays the call finds. -/
def G2 (c : Dev nD) : S8192x1024.Idx → EReal :=
  dense2 rowsplit2 (V c main_v7 : S8192x1024.Idx → EReal) (V c main_v1 : S8192x5124.Idx → EReal)
    (V c main_v8 : S6148x1024.Idx → EReal) (V c main_v9 : S1x1024.Idx → EReal)

/-- What grid point `t` writes back is block `t` of the layer's output array. -/
theorem flushed2_eq (c : Dev nD) (t : Fin cfg2.N) :
    (dat2 V c).flushed 4 t = ((cfg2.win 4).blk t).view.read (Elt Ideal) (G2 V c) := by
  show (cfg2.win 4).cut (grid2.coords t) ((dat2 V c).after 4 t) = _
  rw [after2_4]
  unfold out2_4
  rw [View.canon_unit_zero hz2]
  simp only [View.ld_unit_zero (S := S1024x1024) hz2, View.ld_unit_zero (S := S1024x5124) hz2, View.ld_unit_zero (S := S6148x256) hz2, View.ld_unit_zero (S := S1x256) hz2]
  obtain ⟨e0, e1, e2, e3, e4, e5, e6, e7⟩ := idx2 t
  funext y
  obtain ⟨p, q, rfl⟩ : ∃ (p : Fin 1024) (q : Fin 256), y = ix2 p q := ⟨y 0, y 1, eq_ix2 y⟩
  rw [View.read_apply]
  have hP : ((((cfg2.win 4).blk t).view.emb (ix2 p q)) 0).val = win2_4.index t (0 : Fin 2) * 1024 + 1 * p.val := rfl
  have hQ : ((((cfg2.win 4).blk t).view.emb (ix2 p q)) 1).val = win2_4.index t (1 : Fin 2) * 256 + 1 * q.val := rfl
  obtain ⟨P, Q, hPQ⟩ : ∃ (P : Fin 8192) (Q : Fin 1024), ((cfg2.win 4).blk t).view.emb (ix2 p q) = ix2 P Q :=
    ⟨_, _, eq_ix2 (n0 := 8192) (n1 := 1024) _⟩
  rw [hPQ] at hP hQ ⊢
  refine (pay2_apply (iblk2 V c 2 t) (iblk2 V c 0 t) (iblk2 V c 1 t) (iblk2 V c 3 t) p q).trans ?_
  show dense2At rowsplit2 _ _ _ _ p q = dense2At rowsplit2 _ _ _ _ P Q
  have hP' : P.val = win2_4.index t (0 : Fin 2) * 1024 + 1 * p.val := hP
  have hQ' : Q.val = win2_4.index t (1 : Fin 2) * 256 + 1 * q.val := hQ
  refine dense2At_congr rowsplit2 (fun j => ?_) (fun j => ?_) (fun j => ?_) ?_
  · exact blk2_0 V c t (ix2 p j) (ix2 P j) (by show P.val = _ + p.val; omega) (by show j.val = _ + j.val; omega)
  · exact blk2_1 V c t (ix2 p j) (ix2 P j) (by show P.val = _ + p.val; omega) (by show j.val = _ + j.val; omega)
  · exact blk2_2 V c t (ix2 j q) (ix2 j Q) (by show j.val = _ + j.val; omega) (by show Q.val = _ + q.val; omega)
  · exact blk2_3 V c t (ix2 (0 : Fin 1) q) (ix2 (0 : Fin 1) Q) (by show (0 : ℕ) = _ + 0; omega) (by show Q.val = _ + q.val; omega)

/-- The blocks tile the output array. -/
theorem cover2 (i : S8192x1024.Idx) : ∃ t : Fin cfg2.N, (cfg2.win 4).flush t = true ∧ i ∈ ((cfg2.win 4).blk t).view.set := by
  have hi0 : (i 0).val < 8192 := (i 0).isLt
  have hi1 : (i 1).val < 1024 := (i 1).isLt
  obtain ⟨t, ht⟩ := idx_onto2 ⟨(i 0).val / 1024, by omega⟩ ⟨(i 1).val / 256, by omega⟩
  have q0 : win2_4.index t (0 : Fin 2) = (i 0).val / 1024 := congrFun ht 0
  have q1 : win2_4.index t (1 : Fin 2) = (i 1).val / 256 := congrFun ht 1
  refine ⟨t, flush2_4 t, ?_⟩
  show i ∈ ((View.whole main_v10).slice (win2_4.rect t)).set
  rw [View.set_slice_whole, Rect.mem_set_unit]
  intro a
  match a with
  | ⟨0, _⟩ => show win2_4.index t (0 : Fin 2) * 1024 ≤ (i 0).val ∧ (i 0).val < win2_4.index t (0 : Fin 2) * 1024 + 1024; omega
  | ⟨1, _⟩ => show win2_4.index t (1 : Fin 2) * 256 ≤ (i 1).val ∧ (i 1).val < win2_4.index t (1 : Fin 2) * 256 + 256; omega

/-- After the call the output array is the split layer of the arrays the call found. -/
theorem final2 (c : Dev nD) : (dat2 V c).arrAt 4 cfg2.N = G2 V c :=
  (dat2 V c).arrAt_eq_of_cover 4 (G2 V c) (fun t _ => flushed2_eq V c t) (cover2)

end Cert.KernelIdeal.Layers

end
-- ==== Proof.IdealValue4.lean ====
/-
  Layer 4 at the ideal values: the output array is x3 · W4[0:1024] + ctx · W4[1024:6148] + b4.
  The body's payload at entry (p, q) of its block is the split layer's entry of the loaded blocks: the weight block's rows
  below 1024 meet the previous activation's block, its rows from 1024 on meet the context's block. Block (i, j) of the grid
  reads rows i·1024 … of the activation and of the context, columns j·256 … of the weights and of the bias row, and writes
  rows i·1024 …, columns j·256 … of the output; the 8 × 2 blocks tile the output.
-/
import proofs.«150073_j2164663517985_2_alg».proof.Proof.IdealLayer4
import proofs.«150073_j2164663517985_2_alg».proof.Proof.LibDenseLayers

set_option maxRecDepth 16384

noncomputable section

namespace Cert.KernelIdeal.Layers

open Cert.KernelIdeal Cert.KernelIdeal.Gen Cert.LibDenseLayers Cert.LibMatRows
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz3 : (![0, 0] : Fin 2 → Nat) = fun _ => 0 := funext fun a => by fin_cases a <;> rfl

/-- The weight block's rows: 1024 for the activation, then 5124 for the context. -/
theorem rowsplit3 : 1024 + 5124 = 6148 := by norm_num

/-- The body's two matrix products are plain rows-times-columns products. -/
theorem rows3_x : RowsTimesMat dot_S1024x1024_S1024x256_S1024x256_1_0_0_1_n_n where
  rank := rfl
  size := rfl
  l0 i q := by
    unfold DotDims.lhsIdx
    rw [dif_neg (show ¬(0 : Fin S1024x1024.rank) ∈ dot_S1024x1024_S1024x256_S1024x256_1_0_0_1_n_n.lhsBatch by decide), dif_pos (show (0 : Fin S1024x1024.rank) ∈ dot_S1024x1024_S1024x256_S1024x256_1_0_0_1_n_n.lhsNonContracting by decide)]
    rfl
  l1 i q := dot_S1024x1024_S1024x256_S1024x256_1_0_0_1_n_n.lhsIdx_val_of_single rfl i q
  r0 i q := dot_S1024x1024_S1024x256_S1024x256_1_0_0_1_n_n.rhsIdx_val_of_single rfl i q
  r1 i q := by
    unfold DotDims.rhsIdx
    rw [dif_neg (show ¬(1 : Fin S1024x256.rank) ∈ dot_S1024x1024_S1024x256_S1024x256_1_0_0_1_n_n.rhsBatch by decide), dif_pos (show (1 : Fin S1024x256.rank) ∈ dot_S1024x1024_S1024x256_S1024x256_1_0_0_1_n_n.rhsNonContracting by decide)]
    rfl
theorem rows3_c : RowsTimesMat dot_S1024x5124_S5124x256_S1024x256_1_0_0_1_n_n where
  rank := rfl
  size := rfl
  l0 i q := by
    unfold DotDims.lhsIdx
    rw [dif_neg (show ¬(0 : Fin S1024x5124.rank) ∈ dot_S1024x5124_S5124x256_S1024x256_1_0_0_1_n_n.lhsBatch by decide), dif_pos (show (0 : Fin S1024x5124.rank) ∈ dot_S1024x5124_S5124x256_S1024x256_1_0_0_1_n_n.lhsNonContracting by decide)]
    rfl
  l1 i q := dot_S1024x5124_S5124x256_S1024x256_1_0_0_1_n_n.lhsIdx_val_of_single rfl i q
  r0 i q := dot_S1024x5124_S5124x256_S1024x256_1_0_0_1_n_n.rhsIdx_val_of_single rfl i q
  r1 i q := by
    unfold DotDims.rhsIdx
    rw [dif_neg (show ¬(1 : Fin S5124x256.rank) ∈ dot_S1024x5124_S5124x256_S1024x256_1_0_0_1_n_n.rhsBatch by decide), dif_pos (show (1 : Fin S5124x256.rank) ∈ dot_S1024x5124_S5124x256_S1024x256_1_0_0_1_n_n.rhsNonContracting by decide)]
    rfl

/-- The body's payload at entry (p, q): the split layer's entry of the four loaded blocks. -/
theorem pay3_apply (xw : FVec Ideal S6148x256 .bf16) (x1 : FVec Ideal S1024x1024 .bf16) (x2 : FVec Ideal S1024x5124 .bf16) (xb : FVec Ideal S1x256 .f32)
    (p : Fin 1024) (q : Fin 256) :
    k3_pay1 (F := Ideal) xw x1 x2 xb (ix2 p q) = dense2At rowsplit3 x1 x2 xw xb p q := by
  unfold k3_pay1
  simp only [shapeCast_self]
  exact kernel_dense2 rowsplit3 rows3_x rows3_c x1 x2 xw xb _ _ _ p q

/-- Where the grid's blocks sit. -/
theorem idx3 : ∀ t : Fin cfg3.N, win3_0.index t (0 : Fin 2) = win3_4.index t (0 : Fin 2) ∧ win3_0.index t (1 : Fin 2) = 0
    ∧ win3_1.index t (0 : Fin 2) = win3_4.index t (0 : Fin 2) ∧ win3_1.index t (1 : Fin 2) = 0
    ∧ win3_2.index t (0 : Fin 2) = 0 ∧ win3_2.index t (1 : Fin 2) = win3_4.index t (1 : Fin 2)
    ∧ win3_3.index t (0 : Fin 2) = 0 ∧ win3_3.index t (1 : Fin 2) = win3_4.index t (1 : Fin 2) :=
  (by decide +kernel : ∀ t : Fin grid3.N, _)

/-- Every block of the output is some grid point's. -/
theorem idx_onto3 : ∀ (q0 : Fin 8) (q1 : Fin 2), ∃ t : Fin cfg3.N, win3_4.index t = ![q0.val, q1.val] :=
  (by decide +kernel : ∀ (q0 : Fin 8) (q1 : Fin 2), ∃ t : Fin grid3.N, win3_4.index t = ![q0.val, q1.val])

/-! An entry of a window's block is the array's entry at block index × block size + the entry's coordinate, on each axis. -/
theorem blk3_0 (c : Dev nD) (t : Fin cfg3.N) (x : S1024x1024.Idx) (k : S8192x1024.Idx)
    (h0 : (k 0).val = win3_0.index t (0 : Fin 2) * 1024 + (x 0).val) (h1 : (k 1).val = win3_0.index t (1 : Fin 2) * 1024 + (x 1).val) :
    (iblk3 V c 0 t : S1024x1024.Idx → EReal) x = (V c main_v10 : S8192x1024.Idx → EReal) k := by
  unfold iblk3
  rw [View.read_apply]
  show (V c main_v10 : S8192x1024.Idx → EReal) _ = _
  refine congrArg (V c main_v10 : S8192x1024.Idx → EReal) (funext fun a => Fin.ext ?_)
  match a with
  | ⟨0, _⟩ => show win3_0.index t (0 : Fin 2) * 1024 + 1 * (x 0).val = (k 0).val; omega
  | ⟨1, _⟩ => show win3_0.index t (1 : Fin 2) * 1024 + 1 * (x 1).val = (k 1).val; omega
theorem blk3_1 (c : Dev nD) (t : Fin cfg3.N) (x : S1024x5124.Idx) (k : S8192x5124.Idx)
    (h0 : (k 0).val = win3_1.index t (0 : Fin 2) * 1024 + (x 0).val) (h1 : (k 1).val = win3_1.index t (1 : Fin 2) * 5124 + (x 1).val) :
    (iblk3 V c 1 t : S1024x5124.Idx → EReal) x = (V c main_v1 : S8192x5124.Idx → EReal) k := by
  unfold iblk3
  rw [View.read_apply]
  show (V c main_v1 : S8192x5124.Idx → EReal) _ = _
  refine congrArg (V c main_v1 : S8192x5124.Idx → EReal) (funext fun a => Fin.ext ?_)
  match a with
  | ⟨0, _⟩ => show win3_1.index t (0 : Fin 2) * 1024 + 1 * (x 0).val = (k 0).val; omega
  | ⟨1, _⟩ => show win3_1.index t (1 : Fin 2) * 5124 + 1 * (x 1).val = (k 1).val; omega
theorem blk3_2 (c : Dev nD) (t : Fin cfg3.N) (x : S6148x256.Idx) (k : S6148x512.Idx)
    (h0 : (k 0).val = win3_2.index t (0 : Fin 2) * 6148 + (x 0).val) (h1 : (k 1).val = win3_2.index t (1 : Fin 2) * 256 + (x 1).val) :
    (iblk3 V c 2 t : S6148x256.Idx → EReal) x = (V c main_v11 : S6148x512.Idx → EReal) k := by
  unfold iblk3
  rw [View.read_apply]
  show (V c main_v11 : S6148x512.Idx → EReal) _ = _
  refine congrArg (V c main_v11 : S6148x512.Idx → EReal) (funext fun a => Fin.ext ?_)
  match a with
  | ⟨0, _⟩ => show win3_2.index t (0 : Fin 2) * 6148 + 1 * (x 0).val = (k 0).val; omega
  | ⟨1, _⟩ => show win3_2.index t (1 : Fin 2) * 256 + 1 * (x 1).val = (k 1).val; omega
theorem blk3_3 (c : Dev nD) (t : Fin cfg3.N) (x : S1x256.Idx) (k : S1x512.Idx)
    (h0 : (k 0).val = win3_3.index t (0 : Fin 2) * 1 + (x 0).val) (h1 : (k 1).val = win3_3.index t (1 : Fin 2) * 256 + (x 1).val) :
    (iblk3 V c 3 t : S1x256.Idx → EReal) x = (V c main_v12 : S1x512.Idx → EReal) k := by
  unfold iblk3
  rw [View.read_apply]
  show (V c main_v12 : S1x512.Idx → EReal) _ = _
  refine congrArg (V c main_v12 : S1x512.Idx → EReal) (funext fun a => Fin.ext ?_)
  match a with
  | ⟨0, _⟩ => show win3_3.index t (0 : Fin 2) * 1 + 1 * (x 0).val = (k 0).val; omega
  | ⟨1, _⟩ => show win3_3.index t (1 : Fin 2) * 256 + 1 * (x 1).val = (k 1).val; omega

/-- The output array of this layer, from the arrays the call finds. -/
def G3 (c : Dev nD) : S8192x512.Idx → EReal :=
  dense2 rowsplit3 (V c main_v10 : S8192x1024.Idx → EReal) (V c main_v1 : S8192x5124.Idx → EReal)
    (V c main_v11 : S6148x512.Idx → EReal) (V c main_v12 : S1x512.Idx → EReal)

/-- What grid point `t` writes back is block `t` of the layer's output array. -/
theorem flushed3_eq (c : Dev nD) (t : Fin cfg3.N) :
    (dat3 V c).flushed 4 t = ((cfg3.win 4).blk t).view.read (Elt Ideal) (G3 V c) := by
  show (cfg3.win 4).cut (grid3.coords t) ((dat3 V c).after 4 t) = _
  rw [after3_4]
  unfold out3_4
  rw [View.canon_unit_zero hz3]
  simp only [View.ld_unit_zero (S := S1024x1024) hz3, View.ld_unit_zero (S := S1024x5124) hz3, View.ld_unit_zero (S := S6148x256) hz3, View.ld_unit_zero (S := S1x256) hz3]
  obtain ⟨e0, e1, e2, e3, e4, e5, e6, e7⟩ := idx3 t
  funext y
  obtain ⟨p, q, rfl⟩ : ∃ (p : Fin 1024) (q : Fin 256), y = ix2 p q := ⟨y 0, y 1, eq_ix2 y⟩
  rw [View.read_apply]
  have hP : ((((cfg3.win 4).blk t).view.emb (ix2 p q)) 0).val = win3_4.index t (0 : Fin 2) * 1024 + 1 * p.val := rfl
  have hQ : ((((cfg3.win 4).blk t).view.emb (ix2 p q)) 1).val = win3_4.index t (1 : Fin 2) * 256 + 1 * q.val := rfl
  obtain ⟨P, Q, hPQ⟩ : ∃ (P : Fin 8192) (Q : Fin 512), ((cfg3.win 4).blk t).view.emb (ix2 p q) = ix2 P Q :=
    ⟨_, _, eq_ix2 (n0 := 8192) (n1 := 512) _⟩
  rw [hPQ] at hP hQ ⊢
  refine (pay3_apply (iblk3 V c 2 t) (iblk3 V c 0 t) (iblk3 V c 1 t) (iblk3 V c 3 t) p q).trans ?_
  show dense2At rowsplit3 _ _ _ _ p q = dense2At rowsplit3 _ _ _ _ P Q
  have hP' : P.val = win3_4.index t (0 : Fin 2) * 1024 + 1 * p.val := hP
  have hQ' : Q.val = win3_4.index t (1 : Fin 2) * 256 + 1 * q.val := hQ
  refine dense2At_congr rowsplit3 (fun j => ?_) (fun j => ?_) (fun j => ?_) ?_
  · exact blk3_0 V c t (ix2 p j) (ix2 P j) (by show P.val = _ + p.val; omega) (by show j.val = _ + j.val; omega)
  · exact blk3_1 V c t (ix2 p j) (ix2 P j) (by show P.val = _ + p.val; omega) (by show j.val = _ + j.val; omega)
  · exact blk3_2 V c t (ix2 j q) (ix2 j Q) (by show j.val = _ + j.val; omega) (by show Q.val = _ + q.val; omega)
  · exact blk3_3 V c t (ix2 (0 : Fin 1) q) (ix2 (0 : Fin 1) Q) (by show (0 : ℕ) = _ + 0; omega) (by show Q.val = _ + q.val; omega)

/-- The blocks tile the output array. -/
theorem cover3 (i : S8192x512.Idx) : ∃ t : Fin cfg3.N, (cfg3.win 4).flush t = true ∧ i ∈ ((cfg3.win 4).blk t).view.set := by
  have hi0 : (i 0).val < 8192 := (i 0).isLt
  have hi1 : (i 1).val < 512 := (i 1).isLt
  obtain ⟨t, ht⟩ := idx_onto3 ⟨(i 0).val / 1024, by omega⟩ ⟨(i 1).val / 256, by omega⟩
  have q0 : win3_4.index t (0 : Fin 2) = (i 0).val / 1024 := congrFun ht 0
  have q1 : win3_4.index t (1 : Fin 2) = (i 1).val / 256 := congrFun ht 1
  refine ⟨t, flush3_4 t, ?_⟩
  show i ∈ ((View.whole main_v13).slice (win3_4.rect t)).set
  rw [View.set_slice_whole, Rect.mem_set_unit]
  intro a
  match a with
  | ⟨0, _⟩ => show win3_4.index t (0 : Fin 2) * 1024 ≤ (i 0).val ∧ (i 0).val < win3_4.index t (0 : Fin 2) * 1024 + 1024; omega
  | ⟨1, _⟩ => show win3_4.index t (1 : Fin 2) * 256 ≤ (i 1).val ∧ (i 1).val < win3_4.index t (1 : Fin 2) * 256 + 256; omega

/-- After the call the output array is the split layer of the arrays the call found. -/
theorem final3 (c : Dev nD) : (dat3 V c).arrAt 4 cfg3.N = G3 V c :=
  (dat3 V c).arrAt_eq_of_cover 4 (G3 V c) (fun t _ => flushed3_eq V c t) (cover3)

end Cert.KernelIdeal.Layers

end
-- ==== Proof.IdealValue5.lean ====
/-
  Layer 5 at the ideal values: the output array is x4 · W5 + b5.
  The payload of the body at entry (p, q) of its block is the dense layer's entry of the input blocks; block (i, j) of the
  grid reads rows i·1024 … of the left array, columns j·512 … of the weights and of the bias row, and writes rows i·1024 …,
  columns j·512 … of the output; the 8 × 2 blocks tile the output. So the output array ends as the dense layer of the
  whole arrays.
-/
import proofs.«150073_j2164663517985_2_alg».proof.Proof.IdealLayer5
import proofs.«150073_j2164663517985_2_alg».proof.Proof.LibDenseLayers

set_option maxRecDepth 16384

noncomputable section

namespace Cert.KernelIdeal.Layers

open Cert.KernelIdeal Cert.KernelIdeal.Gen Cert.LibDenseLayers Cert.LibMatRows
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz4 : (![0, 0] : Fin 2 → Nat) = fun _ => 0 := funext fun a => by fin_cases a <;> rfl

/-- The body's matrix product is a plain rows-times-columns product. -/
theorem rows4 : RowsTimesMat dot_S1024x512_S512x512_S1024x512_1_0_0_1_n_n where
  rank := rfl
  size := rfl
  l0 i q := by
    unfold DotDims.lhsIdx
    rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
    rfl
  l1 i q := dot_S1024x512_S512x512_S1024x512_1_0_0_1_n_n.lhsIdx_val_of_single rfl i q
  r0 i q := dot_S1024x512_S512x512_S1024x512_1_0_0_1_n_n.rhsIdx_val_of_single rfl i q
  r1 i q := by
    unfold DotDims.rhsIdx
    rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
    rfl

/-- The body's payload at entry (p, q): the dense layer's entry of the three loaded blocks (a change of float format is the
    identity on the extended reals). -/
theorem pay4_apply (x0 : FVec Ideal S1024x512 .bf16) (x1 : FVec Ideal S512x512 .bf16) (x2 : FVec Ideal S1x512 .f32) (p : Fin 1024) (q : Fin 512) :
    k4_pay1 (F := Ideal) x0 x1 x2 (ix2 p q) = denseAt x0 x1 x2 p q := by
  unfold k4_pay1
  simp only [shapeCast_self]
  exact kernel_dense rows4 x0 x1 x2 _ p q

/-- Where the grid's blocks sit: the left array's block follows the output's row block and spans every column; the
    weights' and the bias row's follow the output's column block. -/
theorem idx4 : ∀ t : Fin cfg4.N, win4_0.index t (0 : Fin 2) = win4_3.index t (0 : Fin 2) ∧ win4_0.index t (1 : Fin 2) = 0
    ∧ win4_1.index t (0 : Fin 2) = 0 ∧ win4_1.index t (1 : Fin 2) = win4_3.index t (1 : Fin 2)
    ∧ win4_2.index t (0 : Fin 2) = 0 ∧ win4_2.index t (1 : Fin 2) = win4_3.index t (1 : Fin 2) :=
  (by decide +kernel : ∀ t : Fin grid4.N, _)

/-- Every block of the output is some grid point's. -/
theorem idx_onto4 : ∀ (q0 : Fin 8) (q1 : Fin 2), ∃ t : Fin cfg4.N, win4_3.index t = ![q0.val, q1.val] :=
  (by decide +kernel : ∀ (q0 : Fin 8) (q1 : Fin 2), ∃ t : Fin grid4.N, win4_3.index t = ![q0.val, q1.val])

/-! An entry of a window's block is the array's entry at block index × block size + the entry's coordinate, on each axis. -/
theorem blk4_0 (c : Dev nD) (t : Fin cfg4.N) (x : S1024x512.Idx) (k : S8192x512.Idx)
    (h0 : (k 0).val = win4_0.index t (0 : Fin 2) * 1024 + (x 0).val) (h1 : (k 1).val = win4_0.index t (1 : Fin 2) * 512 + (x 1).val) :
    (iblk4 V c 0 t : S1024x512.Idx → EReal) x = (V c main_v13 : S8192x512.Idx → EReal) k := by
  unfold iblk4
  rw [View.read_apply]
  show (V c main_v13 : S8192x512.Idx → EReal) _ = _
  refine congrArg (V c main_v13 : S8192x512.Idx → EReal) (funext fun a => Fin.ext ?_)
  match a with
  | ⟨0, _⟩ => show win4_0.index t (0 : Fin 2) * 1024 + 1 * (x 0).val = (k 0).val; omega
  | ⟨1, _⟩ => show win4_0.index t (1 : Fin 2) * 512 + 1 * (x 1).val = (k 1).val; omega
theorem blk4_1 (c : Dev nD) (t : Fin cfg4.N) (x : S512x512.Idx) (k : S512x1024.Idx)
    (h0 : (k 0).val = win4_1.index t (0 : Fin 2) * 512 + (x 0).val) (h1 : (k 1).val = win4_1.index t (1 : Fin 2) * 512 + (x 1).val) :
    (iblk4 V c 1 t : S512x512.Idx → EReal) x = (V c main_v14 : S512x1024.Idx → EReal) k := by
  unfold iblk4
  rw [View.read_apply]
  show (V c main_v14 : S512x1024.Idx → EReal) _ = _
  refine congrArg (V c main_v14 : S512x1024.Idx → EReal) (funext fun a => Fin.ext ?_)
  match a with
  | ⟨0, _⟩ => show win4_1.index t (0 : Fin 2) * 512 + 1 * (x 0).val = (k 0).val; omega
  | ⟨1, _⟩ => show win4_1.index t (1 : Fin 2) * 512 + 1 * (x 1).val = (k 1).val; omega
theorem blk4_2 (c : Dev nD) (t : Fin cfg4.N) (x : S1x512.Idx) (k : S1x1024.Idx)
    (h0 : (k 0).val = win4_2.index t (0 : Fin 2) * 1 + (x 0).val) (h1 : (k 1).val = win4_2.index t (1 : Fin 2) * 512 + (x 1).val) :
    (iblk4 V c 2 t : S1x512.Idx → EReal) x = (V c main_v15 : S1x1024.Idx → EReal) k := by
  unfold iblk4
  rw [View.read_apply]
  show (V c main_v15 : S1x1024.Idx → EReal) _ = _
  refine congrArg (V c main_v15 : S1x1024.Idx → EReal) (funext fun a => Fin.ext ?_)
  match a with
  | ⟨0, _⟩ => show win4_2.index t (0 : Fin 2) * 1 + 1 * (x 0).val = (k 0).val; omega
  | ⟨1, _⟩ => show win4_2.index t (1 : Fin 2) * 512 + 1 * (x 1).val = (k 1).val; omega

/-- The output array of this layer, from the arrays the call finds. -/
def G4 (c : Dev nD) : S8192x1024.Idx → EReal :=
  dense (V c main_v13 : S8192x512.Idx → EReal) (V c main_v14 : S512x1024.Idx → EReal) (V c main_v15 : S1x1024.Idx → EReal)

/-- What grid point `t` writes back is block `t` of the layer's output array. -/
theorem flushed4_eq (c : Dev nD) (t : Fin cfg4.N) :
    (dat4 V c).flushed 3 t = ((cfg4.win 3).blk t).view.read (Elt Ideal) (G4 V c) := by
  show (cfg4.win 3).cut (grid4.coords t) ((dat4 V c).after 3 t) = _
  rw [after4_3]
  unfold out4_3
  rw [View.canon_unit_zero hz4]
  simp only [View.ld_unit_zero (S := S1024x512) hz4, View.ld_unit_zero (S := S512x512) hz4, View.ld_unit_zero (S := S1x512) hz4]
  obtain ⟨e0, e1, e2, e3, e4, e5⟩ := idx4 t
  funext y
  obtain ⟨p, q, rfl⟩ : ∃ (p : Fin 1024) (q : Fin 512), y = ix2 p q := ⟨y 0, y 1, eq_ix2 y⟩
  rw [View.read_apply]
  have hP : ((((cfg4.win 3).blk t).view.emb (ix2 p q)) 0).val = win4_3.index t (0 : Fin 2) * 1024 + 1 * p.val := rfl
  have hQ : ((((cfg4.win 3).blk t).view.emb (ix2 p q)) 1).val = win4_3.index t (1 : Fin 2) * 512 + 1 * q.val := rfl
  obtain ⟨P, Q, hPQ⟩ : ∃ (P : Fin 8192) (Q : Fin 1024), ((cfg4.win 3).blk t).view.emb (ix2 p q) = ix2 P Q :=
    ⟨_, _, eq_ix2 (n0 := 8192) (n1 := 1024) _⟩
  rw [hPQ] at hP hQ ⊢
  refine (pay4_apply (iblk4 V c 0 t) (iblk4 V c 1 t) (iblk4 V c 2 t) p q).trans ?_
  show denseAt _ _ _ p q = denseAt _ _ _ P Q
  have hP' : P.val = win4_3.index t (0 : Fin 2) * 1024 + 1 * p.val := hP
  have hQ' : Q.val = win4_3.index t (1 : Fin 2) * 512 + 1 * q.val := hQ
  refine denseAt_congr (fun j => ?_) (fun j => ?_) ?_
  · exact blk4_0 V c t (ix2 p j) (ix2 P j) (by show P.val = _ + p.val; omega) (by show j.val = _ + j.val; omega)
  · exact blk4_1 V c t (ix2 j q) (ix2 j Q) (by show j.val = _ + j.val; omega) (by show Q.val = _ + q.val; omega)
  · exact blk4_2 V c t (ix2 (0 : Fin 1) q) (ix2 (0 : Fin 1) Q) (by show (0 : ℕ) = _ + 0; omega) (by show Q.val = _ + q.val; omega)

/-- The blocks tile the output array. -/
theorem cover4 (i : S8192x1024.Idx) : ∃ t : Fin cfg4.N, (cfg4.win 3).flush t = true ∧ i ∈ ((cfg4.win 3).blk t).view.set := by
  have hi0 : (i 0).val < 8192 := (i 0).isLt
  have hi1 : (i 1).val < 1024 := (i 1).isLt
  obtain ⟨t, ht⟩ := idx_onto4 ⟨(i 0).val / 1024, by omega⟩ ⟨(i 1).val / 512, by omega⟩
  have q0 : win4_3.index t (0 : Fin 2) = (i 0).val / 1024 := congrFun ht 0
  have q1 : win4_3.index t (1 : Fin 2) = (i 1).val / 512 := congrFun ht 1
  refine ⟨t, flush4_3 t, ?_⟩
  show i ∈ ((View.whole main_v16).slice (win4_3.rect t)).set
  rw [View.set_slice_whole, Rect.mem_set_unit]
  intro a
  match a with
  | ⟨0, _⟩ => show win4_3.index t (0 : Fin 2) * 1024 ≤ (i 0).val ∧ (i 0).val < win4_3.index t (0 : Fin 2) * 1024 + 1024; omega
  | ⟨1, _⟩ => show win4_3.index t (1 : Fin 2) * 512 ≤ (i 1).val ∧ (i 1).val < win4_3.index t (1 : Fin 2) * 512 + 512; omega

/-- After the call the output array is the dense layer of the arrays the call found. -/
theorem final4 (c : Dev nD) : (dat4 V c).arrAt 3 cfg4.N = G4 V c :=
  (dat4 V c).arrAt_eq_of_cover 3 (G4 V c) (fun t _ => flushed4_eq V c t) (cover4)

end Cert.KernelIdeal.Layers

end
-- ==== Proof.NetSpec.lean ====
/-
  The whole network as one function of the thirteen arrays that reach the output: the three context inputs (state, task
  indicator, action) and the five layers' weights and biases.

      ctx = [state | task | action]                                   (joined along the columns, 4096 + 4 + 1024 = 5124)
      x₁  = ctx · W₁ + b₁                                              [8192, 2048]
      x₂  = x₁ · W₂[0:2048]  + ctx · W₂[2048:7172] + b₂                [8192, 1024]
      x₃  = x₂ · W₃[0:1024]  + ctx · W₃[1024:6148] + b₃                [8192, 1024]
      x₄  = x₃ · W₄[0:1024]  + ctx · W₄[1024:6148] + b₄                [8192, 512]
      out = x₄ · W₅ + b₅                                               [8192, 1024]

  (The reference's four context branches feed a k-winners step that returns its input unchanged: they never reach the
  output.) The reference computes each of x₂, x₃, x₄ as ONE product of the concatenation [x | ctx] with the whole weight
  matrix; the entries agree by splitting the sum over the 2048 + 5124 (or 1024 + 5124) columns.
-/
import proofs.«150073_j2164663517985_2_alg».proof.Proof.LibDenseLayers

noncomputable section

namespace Cert.LayerSpec

open Idealize.ShloMosaic Idealize.ShloMosaic.ValueIdx Cert.LibMatRows Cert.LibHostBroadcast Cert.LibDenseLayers

/-- The arrays the output depends on, and the shape facts the programs state about joining and reshaping them. -/
structure Net where
  st : (⟨2, ![8192, 4096]⟩ : Shape).Idx → EReal
  tk : (⟨2, ![8192, 4]⟩ : Shape).Idx → EReal
  ac : (⟨2, ![8192, 1024]⟩ : Shape).Idx → EReal
  w1 : (⟨2, ![5124, 2048]⟩ : Shape).Idx → EReal
  b1 : (⟨1, ![2048]⟩ : Shape).Idx → EReal
  w2 : (⟨2, ![7172, 1024]⟩ : Shape).Idx → EReal
  b2 : (⟨1, ![1024]⟩ : Shape).Idx → EReal
  w3 : (⟨2, ![6148, 1024]⟩ : Shape).Idx → EReal
  b3 : (⟨1, ![1024]⟩ : Shape).Idx → EReal
  w4 : (⟨2, ![6148, 512]⟩ : Shape).Idx → EReal
  b4 : (⟨1, ![512]⟩ : Shape).Idx → EReal
  w5 : (⟨2, ![512, 1024]⟩ : Shape).Idx → EReal
  b5 : (⟨1, ![1024]⟩ : Shape).Idx → EReal
  hcat : Shape.Concatenates [(⟨2, ![8192, 4096]⟩ : Shape), (⟨2, ![8192, 4]⟩ : Shape), (⟨2, ![8192, 1024]⟩ : Shape)] (⟨2, ![8192, 5124]⟩ : Shape) 1
  hs2048 : (⟨1, ![2048]⟩ : Shape).ShapeCasts (⟨2, ![1, 2048]⟩ : Shape)
  hs1024 : (⟨1, ![1024]⟩ : Shape).ShapeCasts (⟨2, ![1, 1024]⟩ : Shape)
  hs512 : (⟨1, ![512]⟩ : Shape).ShapeCasts (⟨2, ![1, 512]⟩ : Shape)

theorem split2048 : 2048 + 5124 = 7172 := by norm_num
theorem split1024 : 1024 + 5124 = 6148 := by norm_num

namespace Net

variable (N : Net)

/-- The context: state, task indicator and action side by side. -/
def ctx : (⟨2, ![8192, 5124]⟩ : Shape).Idx → EReal :=
  concatenate (⟨2, ![8192, 5124]⟩ : Shape) 1 [⟨(⟨2, ![8192, 4096]⟩ : Shape), N.st⟩, ⟨(⟨2, ![8192, 4]⟩ : Shape), N.tk⟩, ⟨(⟨2, ![8192, 1024]⟩ : Shape), N.ac⟩] N.hcat
def act1 : (⟨2, ![8192, 2048]⟩ : Shape).Idx → EReal := dense N.ctx N.w1 (shapeCast (⟨2, ![1, 2048]⟩ : Shape) N.b1 N.hs2048)
def act2 : (⟨2, ![8192, 1024]⟩ : Shape).Idx → EReal := dense2 split2048 N.act1 N.ctx N.w2 (shapeCast (⟨2, ![1, 1024]⟩ : Shape) N.b2 N.hs1024)
def act3 : (⟨2, ![8192, 1024]⟩ : Shape).Idx → EReal := dense2 split1024 N.act2 N.ctx N.w3 (shapeCast (⟨2, ![1, 1024]⟩ : Shape) N.b3 N.hs1024)
def act4 : (⟨2, ![8192, 512]⟩ : Shape).Idx → EReal := dense2 split1024 N.act3 N.ctx N.w4 (shapeCast (⟨2, ![1, 512]⟩ : Shape) N.b4 N.hs512)
/-- The network's output. -/
def out : (⟨2, ![8192, 1024]⟩ : Shape).Idx → EReal := dense N.act4 N.w5 (shapeCast (⟨2, ![1, 1024]⟩ : Shape) N.b5 N.hs1024)

end Net

/-! ## Congruences -/

theorem dense_congr {a k n : ℕ} {x x' : (⟨2, ![a, k]⟩ : Shape).Idx → EReal} {w w' : (⟨2, ![k, n]⟩ : Shape).Idx → EReal} {b b' : (⟨2, ![1, n]⟩ : Shape).Idx → EReal}
    (hx : x = x') (hw : w = w') (hb : b = b') : dense x w b = dense x' w' b' := by subst hx hw hb; rfl

theorem dense2_congr {a k1 k2 k n : ℕ} (hk : k1 + k2 = k) {x1 x1' : (⟨2, ![a, k1]⟩ : Shape).Idx → EReal} {x2 x2' : (⟨2, ![a, k2]⟩ : Shape).Idx → EReal}
    {w w' : (⟨2, ![k, n]⟩ : Shape).Idx → EReal} {b b' : (⟨2, ![1, n]⟩ : Shape).Idx → EReal}
    (h1 : x1 = x1') (h2 : x2 = x2') (hw : w = w') (hb : b = b') : dense2 hk x1 x2 w b = dense2 hk x1' x2' w' b' := by
  subst h1 h2 hw hb; rfl

/-! ## The reference's layers as whole arrays -/

/-- The host's product plus the bias vector spread as a row and then down the rows is the dense layer on the bias reshaped
    to a row. -/
theorem ref_layer {a k n : ℕ} {d : DotDims ⟨2, ![a, k]⟩ ⟨2, ![k, n]⟩ ⟨2, ![a, n]⟩} (hd : RowsTimesMat d)
    (x : FVec Ideal ⟨2, ![a, k]⟩ .f32) (w : FVec Ideal ⟨2, ![k, n]⟩ .f32) (bv : FVec Ideal ⟨1, ![n]⟩ .f32)
    (h1 : (⟨1, ![n]⟩ : Shape).BroadcastsInDim ⟨2, ![1, n]⟩ (![1] : Fin 1 → Fin 2))
    (h2 : (⟨2, ![1, n]⟩ : Shape).BroadcastsInDim ⟨2, ![a, n]⟩ (![0, 1] : Fin 2 → Fin 2))
    (hs : (⟨1, ![n]⟩ : Shape).ShapeCasts ⟨2, ![1, n]⟩) :
    addf (Host.dotGeneral d none x w) (broadcastInDim ⟨2, ![a, n]⟩ (![0, 1] : Fin 2 → Fin 2) h2 (broadcastInDim ⟨2, ![1, n]⟩ (![1] : Fin 1 → Fin 2) h1 bv))
      = dense x w (shapeCast ⟨2, ![1, n]⟩ bv hs) := by
  funext i
  rw [eq_ix2 i, ← bias_row_eq bv h1 hs]
  exact ref_dense hd x w _ h2 _ _

/-- The host's ONE product over [x₁ | x₂], plus the bias, is the split layer. -/
theorem ref_layer2 {a k1 k2 k n : ℕ} (hk : k1 + k2 = k) {d : DotDims ⟨2, ![a, k]⟩ ⟨2, ![k, n]⟩ ⟨2, ![a, n]⟩} (hd : RowsTimesMat d)
    (x1 : FVec Ideal ⟨2, ![a, k1]⟩ .f32) (x2 : FVec Ideal ⟨2, ![a, k2]⟩ .f32) (w : FVec Ideal ⟨2, ![k, n]⟩ .f32) (bv : FVec Ideal ⟨1, ![n]⟩ .f32)
    (hc : Shape.Concatenates [(⟨2, ![a, k1]⟩ : Shape), ⟨2, ![a, k2]⟩] ⟨2, ![a, k]⟩ 1)
    (h1 : (⟨1, ![n]⟩ : Shape).BroadcastsInDim ⟨2, ![1, n]⟩ (![1] : Fin 1 → Fin 2))
    (h2 : (⟨2, ![1, n]⟩ : Shape).BroadcastsInDim ⟨2, ![a, n]⟩ (![0, 1] : Fin 2 → Fin 2))
    (hs : (⟨1, ![n]⟩ : Shape).ShapeCasts ⟨2, ![1, n]⟩) :
    addf (Host.dotGeneral d none (concatenate ⟨2, ![a, k]⟩ 1 [⟨⟨2, ![a, k1]⟩, x1⟩, ⟨⟨2, ![a, k2]⟩, x2⟩] hc) w)
      (broadcastInDim ⟨2, ![a, n]⟩ (![0, 1] : Fin 2 → Fin 2) h2 (broadcastInDim ⟨2, ![1, n]⟩ (![1] : Fin 1 → Fin 2) h1 bv))
      = dense2 hk x1 x2 w (shapeCast ⟨2, ![1, n]⟩ bv hs) := by
  funext i
  rw [eq_ix2 i, ← bias_row_eq bv h1 hs]
  exact ref_dense2 hk hd x1 x2 w _ hc h2 _ _

end Cert.LayerSpec

end
-- ==== Proof.IdealChain.lean ====
/-
  The kernel program's output array is the network's output of the launch arrays.

  Layer by layer: the arrays a call finds are what the host stretch before it wrote (the weights and the context with their
  float format changed, which is the identity on the extended reals; the bias reshaped to a row), what the previous call
  left (the previous activation), and the context, which no later operation writes. Each call leaves its layer of those
  arrays in its output array.
-/
import proofs.«150073_j2164663517985_2_alg».proof.Proof.IdealRun
import proofs.«150073_j2164663517985_2_alg».proof.Proof.IdealValue1
import proofs.«150073_j2164663517985_2_alg».proof.Proof.IdealValue2
import proofs.«150073_j2164663517985_2_alg».proof.Proof.IdealValue3
import proofs.«150073_j2164663517985_2_alg».proof.Proof.IdealValue4
import proofs.«150073_j2164663517985_2_alg».proof.Proof.IdealValue5
import proofs.«150073_j2164663517985_2_alg».proof.Proof.NetSpec

set_option maxRecDepth 16384

noncomputable section

namespace Cert.KernelIdeal.Layers

open Cert.KernelIdeal Cert.KernelIdeal.Gen Cert.LayerSpec Cert.LibDenseLayers
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-- The network's arrays as core `c` holds them at launch. -/
def net (c : Dev nD) : Net where
  st := m ((c : Thread nD τ).loc main_arg0)
  tk := m ((c : Thread nD τ).loc main_arg2)
  ac := m ((c : Thread nD τ).loc main_arg1)
  w1 := m ((c : Thread nD τ).loc main_arg19)
  b1 := m ((c : Thread nD τ).loc main_arg20)
  w2 := m ((c : Thread nD τ).loc main_arg21)
  b2 := m ((c : Thread nD τ).loc main_arg22)
  w3 := m ((c : Thread nD τ).loc main_arg23)
  b3 := m ((c : Thread nD τ).loc main_arg24)
  w4 := m ((c : Thread nD τ).loc main_arg25)
  b4 := m ((c : Thread nD τ).loc main_arg26)
  w5 := m ((c : Thread nD τ).loc main_arg27)
  b5 := m ((c : Thread nD τ).loc main_arg28)
  hcat := Cert.KernelIdeal.Facts₀.concatenates_S8192x4096_S8192x4_S8192x1024_S8192x5124_d1
  hs2048 := Cert.KernelIdeal.Facts₀.shapeCasts_S2048_S1x2048
  hs1024 := Cert.KernelIdeal.Facts₀.shapeCasts_S1024_S1x1024
  hs512 := Cert.KernelIdeal.Facts₀.shapeCasts_S512_S1x512

/-! ## An argument array holds its launch contents at every boundary -/

theorem W2_kept (c : Dev nD) (r : Ref sig .tc) (h : r ∉ (written : List (Ref sig .tc))) :
    W2 m ρ c (Proc.devRef .tc r) = m ((c : Thread nD τ).loc r) :=
  (W2_of_ne m ρ c r (fun w e => h (e ▸ arrs0_written w))).trans
    ((StableHlo.after_of_writes_sub hostOps0 _ hostOps0_writes (fun hm => h (hostW0_written _ hm))).trans rfl)
theorem W4_kept (c : Dev nD) (r : Ref sig .tc) (h : r ∉ (written : List (Ref sig .tc))) :
    W4 m ρ c (Proc.devRef .tc r) = m ((c : Thread nD τ).loc r) :=
  (W4_of_ne m ρ c r (fun w e => h (e ▸ arrs1_written w))).trans
    ((StableHlo.after_of_writes_sub hostOps1 _ hostOps1_writes (fun hm => h (hostW1_written _ hm))).trans (W2_kept m ρ c r h))
theorem W6_kept (c : Dev nD) (r : Ref sig .tc) (h : r ∉ (written : List (Ref sig .tc))) :
    W6 m ρ c (Proc.devRef .tc r) = m ((c : Thread nD τ).loc r) :=
  (W6_of_ne m ρ c r (fun w e => h (e ▸ arrs2_written w))).trans
    ((StableHlo.after_of_writes_sub hostOps2 _ hostOps2_writes (fun hm => h (hostW2_written _ hm))).trans (W4_kept m ρ c r h))
theorem W8_kept (c : Dev nD) (r : Ref sig .tc) (h : r ∉ (written : List (Ref sig .tc))) :
    W8 m ρ c (Proc.devRef .tc r) = m ((c : Thread nD τ).loc r) :=
  (W8_of_ne m ρ c r (fun w e => h (e ▸ arrs3_written w))).trans
    ((StableHlo.after_of_writes_sub hostOps3 _ hostOps3_writes (fun hm => h (hostW3_written _ hm))).trans (W6_kept m ρ c r h))

/-! ## Layer 1 -/

/-- The context the first call finds: the three inputs joined. -/
theorem ctx_in0 (c : Dev nD) : (V1 m ρ c main_v1 : S8192x5124.Idx → EReal) = (net m c).ctx := by
  show StableHlo.after hostOps0 (W0 m ρ c) (Proc.devRef .tc main_v1) = _
  after_results
  rfl
theorem w_in0 (c : Dev nD) : (V1 m ρ c main_v2 : S5124x2048.Idx → EReal) = (net m c).w1 := by
  show StableHlo.after hostOps0 (W0 m ρ c) (Proc.devRef .tc main_v2) = _
  after_results
  rfl
theorem b_in0 (c : Dev nD) : (V1 m ρ c main_v3 : S1x2048.Idx → EReal) = shapeCast S1x2048 (net m c).b1 (net m c).hs2048 := by
  show StableHlo.after hostOps0 (W0 m ρ c) (Proc.devRef .tc main_v3) = _
  after_results
  rfl
/-- The first call leaves x₁ in its output array. -/
theorem out0 (c : Dev nD) : (W2 m ρ c (Proc.devRef .tc main_v4) : S8192x2048.Idx → EReal) = (net m c).act1 :=
  ((W2_arr m ρ c 3).trans (final0 (V1 m ρ) c)).trans (dense_congr (ctx_in0 m ρ c) (w_in0 m ρ c) (b_in0 m ρ c))

/-! ## Layer 2 -/

/-- The previous activation is as the previous call left it. -/
theorem x_in1 (c : Dev nD) : (V3 m ρ c main_v4 : S8192x2048.Idx → EReal) = (net m c).act1 :=
  (StableHlo.after_of_writes_sub hostOps1 _ hostOps1_writes (by decide : main_v4 ∉ (hostOps1_W : List (Ref sig .tc)))).trans (out0 m ρ c)
/-- The context is as the first call found it. -/
theorem ctx_in1 (c : Dev nD) : (V3 m ρ c main_v1 : S8192x5124.Idx → EReal) = (net m c).ctx :=
  (StableHlo.after_of_writes_sub hostOps1 _ hostOps1_writes (by decide : main_v1 ∉ (hostOps1_W : List (Ref sig .tc)))).trans
    ((W2_arr m ρ c 0).trans (((dat0 (V1 m ρ) c).arrAt_in 0 rfl _).trans ((A_eq0 (V1 m ρ) c 0).trans (ctx_in0 m ρ c))))
theorem w_in1 (c : Dev nD) : (V3 m ρ c main_v5 : S7172x1024.Idx → EReal) = (net m c).w2 := by
  have h : W2 m ρ c (Proc.devRef .tc main_arg21) = m ((c : Thread nD τ).loc main_arg21) := W2_kept m ρ c main_arg21 (by decide)
  show StableHlo.after hostOps1 (W2 m ρ c) (Proc.devRef .tc main_v5) = _
  after_results
  rw [h]
  rfl
theorem b_in1 (c : Dev nD) : (V3 m ρ c main_v6 : S1x1024.Idx → EReal) = shapeCast S1x1024 (net m c).b2 Cert.KernelIdeal.Facts₀.shapeCasts_S1024_S1x1024 := by
  have h : W2 m ρ c (Proc.devRef .tc main_arg22) = m ((c : Thread nD τ).loc main_arg22) := W2_kept m ρ c main_arg22 (by decide)
  show StableHlo.after hostOps1 (W2 m ρ c) (Proc.devRef .tc main_v6) = _
  after_results
  rw [h]
  rfl
/-- This call leaves x₂ in its output array. -/
theorem out1 (c : Dev nD) : (W4 m ρ c (Proc.devRef .tc main_v7) : S8192x1024.Idx → EReal) = (net m c).act2 :=
  ((W4_arr m ρ c 4).trans (final1 (V3 m ρ) c)).trans (dense2_congr _ (x_in1 m ρ c) (ctx_in1 m ρ c) (w_in1 m ρ c) (b_in1 m ρ c))

/-! ## Layer 3 -/

/-- The previous activation is as the previous call left it. -/
theorem x_in2 (c : Dev nD) : (V5 m ρ c main_v7 : S8192x1024.Idx → EReal) = (net m c).act2 :=
  (StableHlo.after_of_writes_sub hostOps2 _ hostOps2_writes (by decide : main_v7 ∉ (hostOps2_W : List (Ref sig .tc)))).trans (out1 m ρ c)
/-- The context is as the first call found it. -/
theorem ctx_in2 (c : Dev nD) : (V5 m ρ c main_v1 : S8192x5124.Idx → EReal) = (net m c).ctx :=
  (StableHlo.after_of_writes_sub hostOps2 _ hostOps2_writes (by decide : main_v1 ∉ (hostOps2_W : List (Ref sig .tc)))).trans
    ((W4_arr m ρ c 1).trans (((dat1 (V3 m ρ) c).arrAt_in 1 rfl _).trans ((A_eq1 (V3 m ρ) c 1).trans (ctx_in1 m ρ c))))
theorem w_in2 (c : Dev nD) : (V5 m ρ c main_v8 : S6148x1024.Idx → EReal) = (net m c).w3 := by
  have h : W4 m ρ c (Proc.devRef .tc main_arg23) = m ((c : Thread nD τ).loc main_arg23) := W4_kept m ρ c main_arg23 (by decide)
  show StableHlo.after hostOps2 (W4 m ρ c) (Proc.devRef .tc main_v8) = _
  after_results
  rw [h]
  rfl
theorem b_in2 (c : Dev nD) : (V5 m ρ c main_v9 : S1x1024.Idx → EReal) = shapeCast S1x1024 (net m c).b3 Cert.KernelIdeal.Facts₀.shapeCasts_S1024_S1x1024 := by
  have h : W4 m ρ c (Proc.devRef .tc main_arg24) = m ((c : Thread nD τ).loc main_arg24) := W4_kept m ρ c main_arg24 (by decide)
  show StableHlo.after hostOps2 (W4 m ρ c) (Proc.devRef .tc main_v9) = _
  after_results
  rw [h]
  rfl
/-- This call leaves x₃ in its output array. -/
theorem out2 (c : Dev nD) : (W6 m ρ c (Proc.devRef .tc main_v10) : S8192x1024.Idx → EReal) = (net m c).act3 :=
  ((W6_arr m ρ c 4).trans (final2 (V5 m ρ) c)).trans (dense2_congr _ (x_in2 m ρ c) (ctx_in2 m ρ c) (w_in2 m ρ c) (b_in2 m ρ c))

/-! ## Layer 4 -/

/-- The previous activation is as the previous call left it. -/
theorem x_in3 (c : Dev nD) : (V7 m ρ c main_v10 : S8192x1024.Idx → EReal) = (net m c).act3 :=
  (StableHlo.after_of_writes_sub hostOps3 _ hostOps3_writes (by decide : main_v10 ∉ (hostOps3_W : List (Ref sig .tc)))).trans (out2 m ρ c)
/-- The context is as the first call found it. -/
theorem ctx_in3 (c : Dev nD) : (V7 m ρ c main_v1 : S8192x5124.Idx → EReal) = (net m c).ctx :=
  (StableHlo.after_of_writes_sub hostOps3 _ hostOps3_writes (by decide : main_v1 ∉ (hostOps3_W : List (Ref sig .tc)))).trans
    ((W6_arr m ρ c 1).trans (((dat2 (V5 m ρ) c).arrAt_in 1 rfl _).trans ((A_eq2 (V5 m ρ) c 1).trans (ctx_in2 m ρ c))))
theorem w_in3 (c : Dev nD) : (V7 m ρ c main_v11 : S6148x512.Idx → EReal) = (net m c).w4 := by
  have h : W6 m ρ c (Proc.devRef .tc main_arg25) = m ((c : Thread nD τ).loc main_arg25) := W6_kept m ρ c main_arg25 (by decide)
  show StableHlo.after hostOps3 (W6 m ρ c) (Proc.devRef .tc main_v11) = _
  after_results
  rw [h]
  rfl
theorem b_in3 (c : Dev nD) : (V7 m ρ c main_v12 : S1x512.Idx → EReal) = shapeCast S1x512 (net m c).b4 Cert.KernelIdeal.Facts₀.shapeCasts_S512_S1x512 := by
  have h : W6 m ρ c (Proc.devRef .tc main_arg26) = m ((c : Thread nD τ).loc main_arg26) := W6_kept m ρ c main_arg26 (by decide)
  show StableHlo.after hostOps3 (W6 m ρ c) (Proc.devRef .tc main_v12) = _
  after_results
  rw [h]
  rfl
/-- This call leaves x₄ in its output array. -/
theorem out3 (c : Dev nD) : (W8 m ρ c (Proc.devRef .tc main_v13) : S8192x512.Idx → EReal) = (net m c).act4 :=
  ((W8_arr m ρ c 4).trans (final3 (V7 m ρ) c)).trans (dense2_congr _ (x_in3 m ρ c) (ctx_in3 m ρ c) (w_in3 m ρ c) (b_in3 m ρ c))

/-! ## Layer 5 -/

/-- The previous activation is as the previous call left it. -/
theorem x_in4 (c : Dev nD) : (V9 m ρ c main_v13 : S8192x512.Idx → EReal) = (net m c).act4 :=
  (StableHlo.after_of_writes_sub hostOps4 _ hostOps4_writes (by decide : main_v13 ∉ (hostOps4_W : List (Ref sig .tc)))).trans (out3 m ρ c)

theorem w_in4 (c : Dev nD) : (V9 m ρ c main_v14 : S512x1024.Idx → EReal) = (net m c).w5 := by
  have h : W8 m ρ c (Proc.devRef .tc main_arg27) = m ((c : Thread nD τ).loc main_arg27) := W8_kept m ρ c main_arg27 (by decide)
  show StableHlo.after hostOps4 (W8 m ρ c) (Proc.devRef .tc main_v14) = _
  after_results
  rw [h]
  rfl
theorem b_in4 (c : Dev nD) : (V9 m ρ c main_v15 : S1x1024.Idx → EReal) = shapeCast S1x1024 (net m c).b5 Cert.KernelIdeal.Facts₀.shapeCasts_S1024_S1x1024 := by
  have h : W8 m ρ c (Proc.devRef .tc main_arg28) = m ((c : Thread nD τ).loc main_arg28) := W8_kept m ρ c main_arg28 (by decide)
  show StableHlo.after hostOps4 (W8 m ρ c) (Proc.devRef .tc main_v15) = _
  after_results
  rw [h]
  rfl
/-- The last call leaves the network's output in the result array. -/
theorem out4 (c : Dev nD) : (W10 m ρ c (Proc.devRef .tc main_v16) : S8192x1024.Idx → EReal) = (net m c).out :=
  ((W10_arr m ρ c 3).trans (final4 (V9 m ρ) c)).trans (dense_congr (x_in4 m ρ c) (w_in4 m ρ c) (b_in4 m ρ c))

/-! ## The run, read -/

/-- Every weakly fair execution of the kernel program at the ideal values ends with the result array at the network's
    output of the launch arrays, and every argument array as launched. -/
theorem run_value : θ_run defs (onTc (τ := τ) (main (F := Ideal))) ⟨m, fun _ => 0, ρ⟩ (fun r => ∀ c : Dev nD,
      r.2.mem ((c.tc : Thread nD τ).loc main_v16) = (net m c).out
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)) :=
  (θ_run defs _ _).mono (fun r h c =>
    ⟨(h c _ (mem_uc main_v16 (by decide))).trans (out4 m ρ c),
     (h c _ (mem_uc main_arg0 (by decide))).trans (W10_kept m ρ c main_arg0 (by decide)),
     (h c _ (mem_uc main_arg1 (by decide))).trans (W10_kept m ρ c main_arg1 (by decide)),
     (h c _ (mem_uc main_arg2 (by decide))).trans (W10_kept m ρ c main_arg2 (by decide)),
     (h c _ (mem_uc main_arg3 (by decide))).trans (W10_kept m ρ c main_arg3 (by decide)),
     (h c _ (mem_uc main_arg4 (by decide))).trans (W10_kept m ρ c main_arg4 (by decide)),
     (h c _ (mem_uc main_arg5 (by decide))).trans (W10_kept m ρ c main_arg5 (by decide)),
     (h c _ (mem_uc main_arg6 (by decide))).trans (W10_kept m ρ c main_arg6 (by decide)),
     (h c _ (mem_uc main_arg7 (by decide))).trans (W10_kept m ρ c main_arg7 (by decide)),
     (h c _ (mem_uc main_arg8 (by decide))).trans (W10_kept m ρ c main_arg8 (by decide)),
     (h c _ (mem_uc main_arg9 (by decide))).trans (W10_kept m ρ c main_arg9 (by decide)),
     (h c _ (mem_uc main_arg10 (by decide))).trans (W10_kept m ρ c main_arg10 (by decide)),
     (h c _ (mem_uc main_arg11 (by decide))).trans (W10_kept m ρ c main_arg11 (by decide)),
     (h c _ (mem_uc main_arg12 (by decide))).trans (W10_kept m ρ c main_arg12 (by decide)),
     (h c _ (mem_uc main_arg13 (by decide))).trans (W10_kept m ρ c main_arg13 (by decide)),
     (h c _ (mem_uc main_arg14 (by decide))).trans (W10_kept m ρ c main_arg14 (by decide)),
     (h c _ (mem_uc main_arg15 (by decide))).trans (W10_kept m ρ c main_arg15 (by decide)),
     (h c _ (mem_uc main_arg16 (by decide))).trans (W10_kept m ρ c main_arg16 (by decide)),
     (h c _ (mem_uc main_arg17 (by decide))).trans (W10_kept m ρ c main_arg17 (by decide)),
     (h c _ (mem_uc main_arg18 (by decide))).trans (W10_kept m ρ c main_arg18 (by decide)),
     (h c _ (mem_uc main_arg19 (by decide))).trans (W10_kept m ρ c main_arg19 (by decide)),
     (h c _ (mem_uc main_arg20 (by decide))).trans (W10_kept m ρ c main_arg20 (by decide)),
     (h c _ (mem_uc main_arg21 (by decide))).trans (W10_kept m ρ c main_arg21 (by decide)),
     (h c _ (mem_uc main_arg22 (by decide))).trans (W10_kept m ρ c main_arg22 (by decide)),
     (h c _ (mem_uc main_arg23 (by decide))).trans (W10_kept m ρ c main_arg23 (by decide)),
     (h c _ (mem_uc main_arg24 (by decide))).trans (W10_kept m ρ c main_arg24 (by decide)),
     (h c _ (mem_uc main_arg25 (by decide))).trans (W10_kept m ρ c main_arg25 (by decide)),
     (h c _ (mem_uc main_arg26 (by decide))).trans (W10_kept m ρ c main_arg26 (by decide)),
     (h c _ (mem_uc main_arg27 (by decide))).trans (W10_kept m ρ c main_arg27 (by decide)),
     (h c _ (mem_uc main_arg28 (by decide))).trans (W10_kept m ρ c main_arg28 (by decide))⟩) (run_all m ρ)

end Cert.KernelIdeal.Layers

end
-- ==== Proof.RefLayers.lean ====
/-
  The reference's result is the network's output of its arguments.

  Its five products are plain rows-times-columns products. Layer by layer, from the inside out: the product of the context
  with W₁ plus the spread bias is x₁; the product of [x₁ | ctx] with W₂ plus the bias is x₂ (the sum over the 7172 columns
  split at 2048); likewise x₃ and x₄ (6148 columns split at 1024); the last product plus bias is the output.
-/
import proofs.«150073_j2164663517985_2_alg».proof.Proof.RefRunPatched
import proofs.«150073_j2164663517985_2_alg».proof.Proof.NetSpec

set_option maxRecDepth 16384

noncomputable section

namespace Cert.ReferenceIdeal.RefValue

open Cert.ReferenceIdeal Cert.ReferenceIdeal.Gen Cert.LayerSpec Cert.LibDenseLayers Cert.LibMatRows
open Idealize.ShloMosaic Idealize.ShloMosaic.TcCoe Idealize.ShloMosaic.ValueIdx Idealize.SL.Sem

theorem rows1 : RowsTimesMat dot_S8192x5124_S5124x2048_S8192x2048_1_0_0_1_n_n where
  rank := rfl
  size := rfl
  l0 i q := by
    unfold DotDims.lhsIdx
    rw [dif_neg (show ¬(0 : Fin S8192x5124.rank) ∈ dot_S8192x5124_S5124x2048_S8192x2048_1_0_0_1_n_n.lhsBatch by decide), dif_pos (show (0 : Fin S8192x5124.rank) ∈ dot_S8192x5124_S5124x2048_S8192x2048_1_0_0_1_n_n.lhsNonContracting by decide)]
    rfl
  l1 i q := dot_S8192x5124_S5124x2048_S8192x2048_1_0_0_1_n_n.lhsIdx_val_of_single rfl i q
  r0 i q := dot_S8192x5124_S5124x2048_S8192x2048_1_0_0_1_n_n.rhsIdx_val_of_single rfl i q
  r1 i q := by
    unfold DotDims.rhsIdx
    rw [dif_neg (show ¬(1 : Fin S5124x2048.rank) ∈ dot_S8192x5124_S5124x2048_S8192x2048_1_0_0_1_n_n.rhsBatch by decide), dif_pos (show (1 : Fin S5124x2048.rank) ∈ dot_S8192x5124_S5124x2048_S8192x2048_1_0_0_1_n_n.rhsNonContracting by decide)]
    rfl
theorem rows2 : RowsTimesMat dot_S8192x7172_S7172x1024_S8192x1024_1_0_0_1_n_n where
  rank := rfl
  size := rfl
  l0 i q := by
    unfold DotDims.lhsIdx
    rw [dif_neg (show ¬(0 : Fin S8192x7172.rank) ∈ dot_S8192x7172_S7172x1024_S8192x1024_1_0_0_1_n_n.lhsBatch by decide), dif_pos (show (0 : Fin S8192x7172.rank) ∈ dot_S8192x7172_S7172x1024_S8192x1024_1_0_0_1_n_n.lhsNonContracting by decide)]
    rfl
  l1 i q := dot_S8192x7172_S7172x1024_S8192x1024_1_0_0_1_n_n.lhsIdx_val_of_single rfl i q
  r0 i q := dot_S8192x7172_S7172x1024_S8192x1024_1_0_0_1_n_n.rhsIdx_val_of_single rfl i q
  r1 i q := by
    unfold DotDims.rhsIdx
    rw [dif_neg (show ¬(1 : Fin S7172x1024.rank) ∈ dot_S8192x7172_S7172x1024_S8192x1024_1_0_0_1_n_n.rhsBatch by decide), dif_pos (show (1 : Fin S7172x1024.rank) ∈ dot_S8192x7172_S7172x1024_S8192x1024_1_0_0_1_n_n.rhsNonContracting by decide)]
    rfl
theorem rows3 : RowsTimesMat dot_S8192x6148_S6148x1024_S8192x1024_1_0_0_1_n_n where
  rank := rfl
  size := rfl
  l0 i q := by
    unfold DotDims.lhsIdx
    rw [dif_neg (show ¬(0 : Fin S8192x6148.rank) ∈ dot_S8192x6148_S6148x1024_S8192x1024_1_0_0_1_n_n.lhsBatch by decide), dif_pos (show (0 : Fin S8192x6148.rank) ∈ dot_S8192x6148_S6148x1024_S8192x1024_1_0_0_1_n_n.lhsNonContracting by decide)]
    rfl
  l1 i q := dot_S8192x6148_S6148x1024_S8192x1024_1_0_0_1_n_n.lhsIdx_val_of_single rfl i q
  r0 i q := dot_S8192x6148_S6148x1024_S8192x1024_1_0_0_1_n_n.rhsIdx_val_of_single rfl i q
  r1 i q := by
    unfold DotDims.rhsIdx
    rw [dif_neg (show ¬(1 : Fin S6148x1024.rank) ∈ dot_S8192x6148_S6148x1024_S8192x1024_1_0_0_1_n_n.rhsBatch by decide), dif_pos (show (1 : Fin S6148x1024.rank) ∈ dot_S8192x6148_S6148x1024_S8192x1024_1_0_0_1_n_n.rhsNonContracting by decide)]
    rfl
theorem rows4 : RowsTimesMat dot_S8192x6148_S6148x512_S8192x512_1_0_0_1_n_n where
  rank := rfl
  size := rfl
  l0 i q := by
    unfold DotDims.lhsIdx
    rw [dif_neg (show ¬(0 : Fin S8192x6148.rank) ∈ dot_S8192x6148_S6148x512_S8192x512_1_0_0_1_n_n.lhsBatch by decide), dif_pos (show (0 : Fin S8192x6148.rank) ∈ dot_S8192x6148_S6148x512_S8192x512_1_0_0_1_n_n.lhsNonContracting by decide)]
    rfl
  l1 i q := dot_S8192x6148_S6148x512_S8192x512_1_0_0_1_n_n.lhsIdx_val_of_single rfl i q
  r0 i q := dot_S8192x6148_S6148x512_S8192x512_1_0_0_1_n_n.rhsIdx_val_of_single rfl i q
  r1 i q := by
    unfold DotDims.rhsIdx
    rw [dif_neg (show ¬(1 : Fin S6148x512.rank) ∈ dot_S8192x6148_S6148x512_S8192x512_1_0_0_1_n_n.rhsBatch by decide), dif_pos (show (1 : Fin S6148x512.rank) ∈ dot_S8192x6148_S6148x512_S8192x512_1_0_0_1_n_n.rhsNonContracting by decide)]
    rfl
theorem rows5 : RowsTimesMat dot_S8192x512_S512x1024_S8192x1024_1_0_0_1_n_n where
  rank := rfl
  size := rfl
  l0 i q := by
    unfold DotDims.lhsIdx
    rw [dif_neg (show ¬(0 : Fin S8192x512.rank) ∈ dot_S8192x512_S512x1024_S8192x1024_1_0_0_1_n_n.lhsBatch by decide), dif_pos (show (0 : Fin S8192x512.rank) ∈ dot_S8192x512_S512x1024_S8192x1024_1_0_0_1_n_n.lhsNonContracting by decide)]
    rfl
  l1 i q := dot_S8192x512_S512x1024_S8192x1024_1_0_0_1_n_n.lhsIdx_val_of_single rfl i q
  r0 i q := dot_S8192x512_S512x1024_S8192x1024_1_0_0_1_n_n.rhsIdx_val_of_single rfl i q
  r1 i q := by
    unfold DotDims.rhsIdx
    rw [dif_neg (show ¬(1 : Fin S512x1024.rank) ∈ dot_S8192x512_S512x1024_S8192x1024_1_0_0_1_n_n.rhsBatch by decide), dif_pos (show (1 : Fin S512x1024.rank) ∈ dot_S8192x512_S512x1024_S8192x1024_1_0_0_1_n_n.rhsNonContracting by decide)]
    rfl

theorem hs2048 : (⟨1, ![2048]⟩ : Shape).ShapeCasts ⟨2, ![1, 2048]⟩ := by decide
theorem hs1024 : (⟨1, ![1024]⟩ : Shape).ShapeCasts ⟨2, ![1, 1024]⟩ := by decide
theorem hs512 : (⟨1, ![512]⟩ : Shape).ShapeCasts ⟨2, ![1, 512]⟩ := by decide

variable (m : (ℓ : Loc nD τ sig) → Buf (Elt Ideal) ℓ) (ρ : Dev nD → PrngReg)

/-- The network's arrays as core `c` holds them at launch. -/
def net (c : Dev nD) : Net where
  st := m ((c.tc : Thread nD τ).loc main_arg0)
  tk := m ((c.tc : Thread nD τ).loc main_arg2)
  ac := m ((c.tc : Thread nD τ).loc main_arg1)
  w1 := m ((c.tc : Thread nD τ).loc main_arg19)
  b1 := m ((c.tc : Thread nD τ).loc main_arg20)
  w2 := m ((c.tc : Thread nD τ).loc main_arg21)
  b2 := m ((c.tc : Thread nD τ).loc main_arg22)
  w3 := m ((c.tc : Thread nD τ).loc main_arg23)
  b3 := m ((c.tc : Thread nD τ).loc main_arg24)
  w4 := m ((c.tc : Thread nD τ).loc main_arg25)
  b4 := m ((c.tc : Thread nD τ).loc main_arg26)
  w5 := m ((c.tc : Thread nD τ).loc main_arg27)
  b5 := m ((c.tc : Thread nD τ).loc main_arg28)
  hcat := Cert.ReferenceIdeal.Facts₀.concatenates_S8192x4096_S8192x4_S8192x1024_S8192x5124_d1
  hs2048 := hs2048
  hs1024 := hs1024
  hs512 := hs512

/-- Every weakly fair execution of the reference at the ideal values ends with the result array at the network's output of
    the launch arrays, and every argument array as launched. -/
theorem run_value : θ_run defs (onTc (τ := τ) (main (F := Ideal))) ⟨m, fun _ => 0, ρ⟩ (fun r => ∀ c : Dev nD,
      r.2.mem ((c.tc : Thread nD τ).loc main_v59) = (net m c).out
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)) :=
  (θ_run defs _ _).mono (fun _ h c => ⟨(h c).1.trans
      ((ref_layer rows5 _ _ _ _ _ hs1024).trans (dense_congr
        ((ref_layer2 split1024 rows4 _ _ _ _ _ _ _ hs512).trans (dense2_congr _
          ((ref_layer2 split1024 rows3 _ _ _ _ _ _ _ hs1024).trans (dense2_congr _
            ((ref_layer2 split2048 rows2 _ _ _ _ _ _ _ hs1024).trans (dense2_congr _
              (ref_layer rows1 _ _ _ _ _ hs2048) (Eq.refl _) (Eq.refl _) (Eq.refl _)))
            (Eq.refl _) (Eq.refl _) (Eq.refl _)))
          (Eq.refl _) (Eq.refl _) (Eq.refl _)))
        (Eq.refl _) (Eq.refl _))), (h c).2⟩)
    (Cert.ReferenceIdeal.ValueP.run (F := Ideal) m ρ)

end Cert.ReferenceIdeal.RefValue

end
-- ==== Proof.lean ====
/-
  A five-layer policy network as a chain of five pallas_calls, against its plain jnp reference.

  With ctx = [state | task | action] (5124 columns), both programs compute

      x₁ = ctx · W₁ + b₁,   x_{k+1} = [x_k | ctx] · W_{k+1} + b_{k+1}  (k = 1, 2, 3),   out = x₄ · W₅ + b₅.

  The kernel program never forms [x_k | ctx]: each of its three middle calls multiplies x_k with the rows of W_{k+1} that
  meet it and ctx with the remaining rows, and adds the two products. At the ideal values the two readings are one
  function, because a sum over the joined columns is the sum over the first columns plus the sum over the last ones — which
  holds in any commutative monoid, so the equality needs no finiteness of the inputs and the precondition is never opened.
  A change of float format is the identity on the extended reals, so the kernel's bf16 casts disappear. The reference's
  four context branches end in a k-winners step that returns its input unchanged; they never reach the result.

  Frames: each pallas_call's body loads its blocks whole, computes, and stores its output block whole, so every call leaves
  its input arrays as it found them; the program's host operations write only intermediates; hence every argument ends as
  launched, at the word level and at the ideal values alike. The reference is a straight line of host operations.

  The ideal pass rewrote nothing in the kernel, so there is nothing to preserve.
-/
import proofs.«150073_j2164663517985_2_alg».proof.Defs
import proofs.«150073_j2164663517985_2_alg».proof.Proof.Gen.Kernel
import proofs.«150073_j2164663517985_2_alg».proof.Proof.Gen.KernelIdeal
import proofs.«150073_j2164663517985_2_alg».proof.Proof.Gen.ReferenceIdeal
import proofs.«150073_j2164663517985_2_alg».proof.Proof.Gen.Pre_finite_inputs
import proofs.«150073_j2164663517985_2_alg».proof.Proof.BitsRun
import proofs.«150073_j2164663517985_2_alg».proof.Proof.IdealChain
import proofs.«150073_j2164663517985_2_alg».proof.Proof.RefLayers
import Idealize.ShloMosaic.Adequacy
import Idealize.ShloMosaic.Init

noncomputable section

namespace Cert.Proof

open Idealize.ShloMosaic Idealize.SL.Sem Cert.LayerSpec

/-- The word-level kernel program runs and leaves its arguments as launched. -/
theorem frame_kernel : Cert.frame_Kernel := fun m ρ _ => Cert.Kernel.Layers.frame m ρ

/-- So does the kernel program read at the ideal values. -/
theorem frame_ideal : Cert.frame_KernelIdeal := fun m ρ _ => Cert.KernelIdeal.Layers.frame m ρ

/-- The reference is a line of host operations: it runs and writes no argument. -/
theorem frame_ref : Cert.frame_ReferenceIdeal := fun m ρ _ =>
  (θ_run Cert.ReferenceIdeal.defs _ _).mono (fun _ h c => (h c).2) (Cert.ReferenceIdeal.RefValue.run_value m ρ)

/-- The ideal pass rewrote no operation. -/
theorem preserves : Cert.preserves_Kernel_KernelIdeal := trivial

/-- From memories that agree on the arguments, both programs end with the network's output of those arguments. -/
theorem algebraic : Cert.algebraic_KernelIdeal_ReferenceIdeal := by
  intro m ρ m' ρ' _ hagree
  refine ⟨fun c => (Cert.KernelIdeal.Layers.net m c).out, Cert.KernelIdeal.Layers.run_value m ρ, ?_⟩
  refine (θ_run Cert.ReferenceIdeal.defs _ _).mono (fun _ h c => ⟨(h c).1.trans ?_, (h c).2⟩)
    (Cert.ReferenceIdeal.RefValue.run_value m' ρ')
  obtain ⟨h0, h1, h2, h3, h4, h5, h6, h7, h8, h9, h10, h11, h12, h13, h14, h15, h16, h17, h18, h19, h20, h21, h22, h23, h24, h25, h26, h27, h28⟩ := hagree c
  show (Cert.ReferenceIdeal.RefValue.net m' c).out = (Cert.KernelIdeal.Layers.net m c).out
  refine congrArg Net.out ?_
  unfold Cert.ReferenceIdeal.RefValue.net Cert.KernelIdeal.Layers.net
  rw [h0, h1, h2, h19, h20, h21, h22, h23, h24, h25, h26, h27, h28]

theorem claim : Cert.Claim := ⟨Cert.Kernel.Gen.facts, Cert.KernelIdeal.Gen.facts, Cert.ReferenceIdeal.Gen.facts, Cert.Pre_finite_inputs.Gen.facts,
  frame_kernel, frame_ideal, frame_ref, preserves, algebraic⟩

end Cert.Proof

end
